-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x1024 : Shape := ⟨2, ![64, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S4x4096x1024 .f32) (main_arg1 : FVec F S64x1024 .f32) (main_arg2 : FVec F S64x1024 .f32) (main_arg3 : FVec F S64x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S4x4096x1024 : Shape := ⟨3, ![4, 4096, 1024]⟩
abbrev S64x1024 : Shape := ⟨2, ![64, 1024]⟩
abbrev S16384x1024 : Shape := ⟨2, ![16384, 1024]⟩
abbrev S1024x64 : Shape := ⟨2, ![1024, 64]⟩
abbrev S_ : Shape := ⟨0, ![]⟩
abbrev S16384x64 : Shape := ⟨2, ![16384, 64]⟩
abbrev S1024x1024 : Shape := ⟨2, ![1024, 1024]⟩
abbrev S4x4096x64 : Shape := ⟨3, ![4, 4096, 64]⟩
abbrev S4x1024x64 : Shape := ⟨3, ![4, 1024, 64]⟩
abbrev S4x512x64 : Shape := ⟨3, ![4, 512, 64]⟩
abbrev S4x1024x1 : Shape := ⟨3, ![4, 1024, 1]⟩
abbrev S4x1024x512 : Shape := ⟨3, ![4, 1024, 512]⟩
abbrev S4x1024 : Shape := ⟨2, ![4, 1024]⟩

abbrev nBuf : Space → Nat
  | .hbm => 18
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S16384x1024, .f32⟩
  | .hbm, ⟨5, _⟩ => ⟨S1024x64, .f32⟩
  | .hbm, ⟨6, _⟩ => ⟨S_, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S16384x64, .bf16⟩
  | .hbm, ⟨12, _⟩ => ⟨S16384x64, .bf16⟩
  | .hbm, ⟨13, _⟩ => ⟨S16384x64, .bf16⟩
  | .hbm, ⟨14, _⟩ => ⟨S4x4096x64, .bf16⟩
  | .hbm, ⟨15, _⟩ => ⟨S4x4096x64, .bf16⟩
  | .hbm, ⟨16, _⟩ => ⟨S4x4096x64, .bf16⟩
  | .hbm, ⟨17, _⟩ => ⟨S4x4096x64, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .bf16⟩
  | .local _ .vmem, ⟨6, _⟩ => ⟨S1024x64, .bf16⟩
  | .local _ .vmem, ⟨7, _⟩ => ⟨S1024x64, .bf16⟩
  | .local _ .vmem, ⟨8, _⟩ => ⟨S1024x64, .bf16⟩
  | .local _ .vmem, ⟨9, _⟩ => ⟨S1024x64, .bf16⟩
  | .local _ .vmem, ⟨10, _⟩ => ⟨S1024x64, .bf16⟩
  | .local _ .vmem, ⟨11, _⟩ => ⟨S4x1024x64, .bf16⟩
  | .local _ .vmem, ⟨12, _⟩ => ⟨S4x1024x64, .bf16⟩
  | .local _ .vmem, ⟨13, _⟩ => ⟨S4x512x64, .bf16⟩
  | .local _ .vmem, ⟨14, _⟩ => ⟨S4x512x64, .bf16⟩
  | .local _ .vmem, ⟨15, _⟩ => ⟨S4x512x64, .bf16⟩
  | .local _ .vmem, ⟨16, _⟩ => ⟨S4x512x64, .bf16⟩
  | .local _ .vmem, ⟨17, _⟩ => ⟨S4x1024x64, .f32⟩
  | .local _ .vmem, ⟨18, _⟩ => ⟨S4x1024x64, .f32⟩
  | .local _ .vmem, ⟨19, _⟩ => ⟨S4x1024x64, .f32⟩
  | .local _ .vmem, ⟨20, _⟩ => ⟨S4x1024x1, .f32⟩
  | .local _ .vmem, ⟨21, _⟩ => ⟨S4x1024x1, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_30 : BitVec 32 := 0#32
  let v41 : BitVec 1 := Scalar.cmpi .ne v40 c0_i32_30
  v41

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x4096x1024_S16384x1024 : S4x4096x1024.ShapeCasts S16384x1024
  transposes_S64x1024_S1024x64_1_0 : S64x1024.Transposes [1, 0] S1024x64
  bcast_S_S1024x64 : S_.BroadcastsInDim S1024x64 (![] : Fin 0 → Fin S1024x64.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  shapeCasts_S16384x64_S4x4096x64 : S16384x64.ShapeCasts S4x4096x64
  inb_S4x1024x64_S4x1024x64_0_0_0 : ∀ a, (![0, 0, 0] : Fin 3 → Nat) a + S4x1024x64.size a ≤ S4x1024x64.size a
  h_S4x1024x64 : 0 < S4x1024x64.numel
  shapeCasts_S4x1024x64_S4x1024x64 : S4x1024x64.ShapeCasts S4x1024x64
  inb_S4x1024x1_S4x1024x1_0_0_0 : ∀ a, (![0, 0, 0] : Fin 3 → Nat) a + S4x1024x1.size a ≤ S4x1024x1.size a
  h_S4x1024x1 : 0 < S4x1024x1.numel
  shapeCasts_S4x1024x1_S4x1024x1 : S4x1024x1.ShapeCasts S4x1024x1
  inb_S4x512x64_S4x512x64_0_0_0 : ∀ a, (![0, 0, 0] : Fin 3 → Nat) a + S4x512x64.size a ≤ S4x512x64.size a
  h_S4x512x64 : 0 < S4x512x64.numel
  shapeCasts_S4x512x64_S4x512x64 : S4x512x64.ShapeCasts S4x512x64
  reduces_S4x1024x512_S4x1024 : S4x1024x512.Reduces [2] S4x1024
  shapeCasts_S4x1024_S4x1024x1 : S4x1024.ShapeCasts S4x1024x1
  broadcasts_S4x1024x1_S4x1024x512 : S4x1024x1.Broadcasts S4x1024x512
  broadcasts_S4x1024x1_S4x1024x64 : S4x1024x1.Broadcasts S4x1024x64
  dot_S1024x1024_S1024x64_S1024x64_1_0_0_1_n_n_wf : DotDims.WF S1024x1024 S1024x64 S1024x64 [1] [0] [0] [1] [] []
  dot_S4x1024x64_S4x512x64_S4x1024x512_2_2_1_1_0_0_wf : DotDims.WF S4x1024x64 S4x512x64 S4x1024x512 [2] [2] [1] [1] [0] [0]
  dot_S4x1024x512_S4x512x64_S4x1024x64_2_1_1_2_0_0_wf : DotDims.WF S4x1024x512 S4x512x64 S4x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .bf16 = 32 ∨ (Rect.block (s := S16384x64) S1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .bf16 = 32 ∨ (Rect.block (s := S16384x64) S1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S16384x64.size a
  hwx0_6 : ∀ i : grid0.Coords, EltTy.bits .bf16 = 32 ∨ (Rect.block (s := S16384x64) S1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x64.size a ≤ S4x4096x64.size a
  hwx1_0 : ∀ i : grid1.Coords, EltTy.bits .bf16 = 32 ∨ (Rect.block (s := S4x4096x64) S4x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x64.size a ≤ S4x4096x64.size a
  hwx1_1 : ∀ i : grid1.Coords, EltTy.bits .bf16 = 32 ∨ (Rect.block (s := S4x4096x64) S4x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x64.size a ≤ S4x4096x64.size a
  hwx1_2 : ∀ i : grid1.Coords, EltTy.bits .bf16 = 32 ∨ (Rect.block (s := S4x4096x64) S4x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1024x64.size a ≤ S4x4096x64.size a
  hwx1_3 : ∀ i : grid1.Coords, EltTy.bits .f32 = 32 ∨ (Rect.block (s := S4x4096x64) S4x1024x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S4x1024x64_S4x512x64_S4x1024x512_2_2_1_1_0_0 : DotDims S4x1024x64 S4x512x64 S4x1024x512 where
  lhsContracting := [2]
  rhsContracting := [2]
  lhsNonContracting := [1]
  rhsNonContracting := [1]
  lhsBatch := [0]
  rhsBatch := [0]
  wf := dot_S4x1024x64_S4x512x64_S4x1024x512_2_2_1_1_0_0_wf
def dot_S4x1024x512_S4x512x64_S4x1024x64_2_1_1_2_0_0 : DotDims S4x1024x512 S4x512x64 S4x1024x64 where
  lhsContracting := [2]
  rhsContracting := [1]
  lhsNonContracting := [1]
  rhsNonContracting := [2]
  lhsBatch := [0]
  rhsBatch := [0]
  wf := dot_S4x1024x512_S4x512x64_S4x1024x64_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S4x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S64x1024 : Shape := ⟨2, ![64, 1024]⟩
abbrev S4x4096x64 : Shape := ⟨3, ![4, 4096, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S_, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S64x1024_S4x4096x64_2_1_01_0_n_n_wf : DotDims.WF S4x4096x1024 S64x1024 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.ProjRegion.lean ====
/-
  The projection region (the first kernel region of the program), at any float carrier F.

  Everything here is stated at a parameter V: the contents of the core's unscoped buffers at the moment the
  region is entered.  Per grid point the region reads a block of 1024 rows of x and the three whole weight
  arrays, multiplies the rows by each weight array, and writes the three products to the matching row blocks of
  the three outputs.  This file gives the proof data of that pipeline (what each staging buffer holds after the
  body at every point) and discharges the body obligation: the body, run on staging buffers holding the input
  blocks, leaves the inputs as they were and each output buffer at the product of the blocks.
-/
import proofs.«134109_j88158498718071_2_alg».proof.Proof.Gen.KernelIdeal.Launch
import proofs.«134109_j88158498718071_2_alg».proof.Proof.Gen.KernelIdeal.Skeleton
import proofs.«134109_j88158498718071_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 1024 × 64 entries is decided by structural recursion on the extents
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The blocks the windows select -/

/-- The block window w selects at point t, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window: at every point its current staging buffer holds the block selected there.  The statement is
    for any proof data over the same arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight window.  Its block index is constant, so it is fetched at the first point only; at a later
    point the buffer still holds what the previous point left, which is the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second weight window, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The third weight window, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

abbrev rX : Rect S1024x1024 := Rect.unit (s := S1024x1024) ![0, 0] S1024x1024.size inb_S1024x1024_S1024x1024_0_0
abbrev rW : Rect S1024x64 := Rect.unit (s := S1024x64) ![0, 0] S1024x64.size inb_S1024x64_S1024x64_0_0

/-! ## What the body leaves in the output buffers -/

/-- The first output buffer after the body: one store through the whole-buffer rectangle of the product of the
    rows block with the first weight block. -/
def out0_4 (x0 : Vec F S1024x1024 .f32) (x1 : Vec F S1024x64 .f32) : Vec F S1024x64 .bf16 :=
  View.canon [⟨rW, k0_pay2 (View.ld x0 rX) (View.ld x1 rW)⟩]
/-- The second output buffer after the body. -/
def out0_5 (x0 : Vec F S1024x1024 .f32) (x2 : Vec F S1024x64 .f32) : Vec F S1024x64 .bf16 :=
  View.canon [⟨rW, k0_pay3 (View.ld x0 rX) (View.ld x2 rW)⟩]
/-- The third output buffer after the body. -/
def out0_6 (x0 : Vec F S1024x1024 .f32) (x3 : Vec F S1024x64 .f32) : Vec F S1024x64 .bf16 :=
  View.canon [⟨rW, k0_pay4 (View.ld x0 rX) (View.ld x3 rW)⟩]

/-- The one store of an output buffer covers it: the rectangle is the whole buffer. -/
theorem coverW (p0 : Vec F S1024x64 .bf16) (y : S1024x64.Idx) :
    ∃ pc ∈ ([⟨rW, p0⟩] : List (View.Piece (Elt F) S1024x64 .bf16)), y ∈ pc.1.set :=
  View.cover_of_tiled [⟨rW, p0⟩] S1024x64.size (by rfl) y

/-! ## The body's triple -/

set_option maxHeartbeats 4000000 in
/-- The body on whole staging memrefs — the four inputs' holding x0 … x3, the three outputs' anything — runs
    to the continuation with the inputs unchanged and each output buffer holding the product of the rows with its
    weight block.  The loads of the output buffers return values nothing reads. -/
theorem sound_kernel0 (c : Dev nD) (E : Set ℕ) (i : grid0.Coords)
    (arg1 : Memref sig .tc .vmem S1024x1024 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x64 .bf16) (harg5 : arg5.IsWhole) (arg6 : Memref sig .tc .vmem S1024x64 .bf16) (harg6 : arg6.IsWhole)
    (arg7 : Memref sig .tc .vmem S1024x64 .bf16) (harg7 : arg7.IsWhole)
    (x0 : Vec F S1024x1024 .f32) (x1 x2 x3 : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverW _)
  isplitl [H5]
  · iexists _; isplitr
    swap; · iexact H5
    ipureintro
    exact View.read_writes_eq_canon _ _ _ (coverW _)
  iexists _; isplitr
  swap; · iexact H6
  ipureintro
  exact View.read_writes_eq_canon _ _ _ (coverW _)

/-! ## The pipeline's proof data -/

/-- The proof data of the projection pipeline on core c.  The arrays are the region-entry contents; after the body
    at point t each input buffer holds its block and each output buffer the product of the blocks; the invariant
    is the untouched rest of the core's scoped memory; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FlashBase.lean ====
/-
  The attention region (the second kernel launch): what its grid points see and where its conditionals go.

  The grid is 4 × 8: point t works on query tile t / 8 and key/value block t % 8. The body resets its three
  scratch accumulators (the weighted sum, the running maximum, the running normaliser) exactly at the points
  t % 8 = 0, and writes the output tile exactly at the points t % 8 = 7; the output window is idle and not written
  back at every other point. Everything here is stated for any float instance.
-/
import proofs.«134109_j88158498718071_2_alg».proof.Proof.Gen.KernelIdeal.Launch
import proofs.«134109_j88158498718071_2_alg».proof.Proof.Gen.KernelIdeal.Skeleton
import proofs.«134109_j88158498718071_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds the point's query tile, fetched there or not (between two
    fetches the tile's index does not move). -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The key window's buffer holds the point's key block. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- The value window's buffer holds the point's value block. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

end Region1

/-! ## The two conditionals, over the grid -/

/-- "This is the first key/value block of a query tile": the condition under which the body resets its scratch. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- "This is the last key/value block of a query tile": the condition under which the body writes the output tile. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from a tile's last block the output window is idle -/
theorem idle1_3 : ∀ t : Fin cfg1.N, ¬isLast (grid1.coords t) → cfg1.idle 3 (grid1.coords t) = true := by decide +kernel
/-- and is not written back. -/
theorem noFlush1_3 : ∀ t : Fin cfg1.N, ¬isLast (grid1.coords t) → (cfg1.win 3).flush t = false := by decide +kernel
/-- At a tile's last block it is live. -/
theorem live1_3 : ∀ t : Fin cfg1.N, isLast (grid1.coords t) → cfg1.idle 3 (grid1.coords t) = false := by decide +kernel

/-! ## The memrefs the body is called with -/

abbrev qM (t : Fin cfg1.N) : Memref sig .tc .vmem S4x1024x64 .bf16 := win1_0.stage (cfg1.slots t 0)
abbrev qW (t : Fin cfg1.N) : (qM t).IsWhole := hstage1_0 ((cfg1.slots t 0).cast nbuf1_0)
abbrev kM (t : Fin cfg1.N) : Memref sig .tc .vmem S4x512x64 .bf16 := win1_1.stage (cfg1.slots t 1)
abbrev kW (t : Fin cfg1.N) : (kM t).IsWhole := hstage1_1 ((cfg1.slots t 1).cast nbuf1_1)
abbrev vM (t : Fin cfg1.N) : Memref sig .tc .vmem S4x512x64 .bf16 := win1_2.stage (cfg1.slots t 2)
abbrev vW (t : Fin cfg1.N) : (vM t).IsWhole := hstage1_2 ((cfg1.slots t 2).cast nbuf1_2)
abbrev oM (t : Fin cfg1.N) : Memref sig .tc .vmem S4x1024x64 .f32 := win1_3.stage (cfg1.slots t 3)
abbrev oW (t : Fin cfg1.N) : (oM t).IsWhole := hstage1_3 ((cfg1.slots t 3).cast nbuf1_3)
/-- The three scratch accumulators: the weighted sum, the running maximum, the running normaliser. -/
abbrev accM : Memref sig .tc .vmem S4x1024x64 .f32 := Memref.whole cc1_scratch0
abbrev mxM : Memref sig .tc .vmem S4x1024x1 .f32 := Memref.whole cc1_scratch1
abbrev lsM : Memref sig .tc .vmem S4x1024x1 .f32 := Memref.whole cc1_scratch2
/-- Views through which buffer contents are stated. -/
abbrev oV : View sig .tc .vmem S4x1024x64 .f32 := (Memref.whole cc1_stg3_0 : Memref sig .tc .vmem S4x1024x64 .f32).view
abbrev accV : View sig .tc .vmem S4x1024x64 .f32 := accM.view
abbrev mxV : View sig .tc .vmem S4x1024x1 .f32 := mxM.view
abbrev lsV : View sig .tc .vmem S4x1024x1 .f32 := lsM.view

/-! ## The scoped buffers the region does not stage -/

/-- The first launch's staging buffers, each whole at some contents: scoped buffers this region never touches. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant of the region (the scoped buffers no window stages, the generator register) with the three
    scratch accumulators split out as memrefs owned at some contents. -/
theorem PhiA1_split (c : Dev nD) :
    (Pipeline.ΦA spec1 c : sProp 𝕄)
      ⊢ iprop(Others c ∗ (∃ d, owns (c : Thread nD τ) accM fullShare d) ∗ (∃ d, owns (c : Thread nD τ) mxM fullShare d) ∗ (∃ d, owns (c : Thread nD τ) lsM fullShare d) ∗ (∃ r, prngReg c r)) := by
  unfold Pipeline.ΦA; rw [scopedRest1_eq]; unfold Others; simp only [accM, mxM, lsM, owns_whole]
  iintro ⟨⟨H0, H1, H2, H3, H4, H5, H6, H7, H8, H9, H10, HS0, HS1, HS2⟩, Hg⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HS0]; · iexact HS0
  isplitl [HS1]; · iexact HS1
  isplitl [HS2]; · iexact HS2
  iexact Hg

/-- The converse: the accumulators at any contents and the rest make the class invariant. -/
theorem PhiA1_join (c : Dev nD) :
    iprop(Others c ∗ (∃ d, owns (c : Thread nD τ) accM fullShare d) ∗ (∃ d, owns (c : Thread nD τ) mxM fullShare d) ∗ (∃ d, owns (c : Thread nD τ) lsM fullShare d) ∗ (∃ r, prngReg c r))
      ⊢ (Pipeline.ΦA spec1 c : sProp 𝕄) := by
  unfold Pipeline.ΦA; rw [scopedRest1_eq]; unfold Others; simp only [accM, mxM, lsM, owns_whole]
  iintro ⟨⟨H0, H1, H2, H3, H4, H5, H6, H7, H8, H9, H10⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iexact HS2
  iexact Hg

end Cert.KernelIdeal.Hand

end
-- ==== Proof.FlashRunA.lean ====
/-
  The attention body at the FIRST key/value block of a query tile: it resets the three scratch accumulators (whatever they held) and then takes one step of the running softmax; the output window is left untouched.
-/
import proofs.«134109_j88158498718071_2_alg».proof.Proof.FlashBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, on whole memrefs: the three input windows at their contents are handed back as
    they were; each scratch accumulator ends with the pieces the body stored into it (found by running the body,
    last store first). The conditionals are decided by the case's hypotheses. -/
noncomputable def runFirst (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i)
    (x0 : Vec F S4x1024x64 .bf16) (x1 x2 : Vec F S4x512x64 .bf16) :
    Σ' (LA : List (View.Piece (Elt F) S4x1024x64 .f32)) (LM : List (View.Piece (Elt F) S4x1024x1 .f32)), { LL : List (View.Piece (Elt F) S4x1024x1 .f32) //
      ∀ (xo : Vec F S4x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo
                ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%da, %fa, -, HA⟩, ⟨%dm, %fm, -, HM⟩, ⟨%dl, %fl, -, HL⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]; · iexists _; iexact HA
    isplitl [HM]; · iexists _; iexact HM
    iexists _; iexact HL

end Cert.KernelIdeal.Hand

end
-- ==== Proof.FlashRunB.lean ====
/-
  The attention body at a MIDDLE key/value block of a query tile: one step of the running softmax from what the block before left in the scratch accumulators; the output window is left untouched.
-/
import proofs.«134109_j88158498718071_2_alg».proof.Proof.FlashRunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, on whole memrefs: the three input windows at their contents are handed back as
    they were; each scratch accumulator ends with the pieces the body stored into it (found by running the body,
    last store first). The conditionals are decided by the case's hypotheses. -/
noncomputable def runMiddle (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i)
    (x0 : Vec F S4x1024x64 .bf16) (x1 x2 : Vec F S4x512x64 .bf16) (sa : Vec F S4x1024x64 .f32) (sm sl : Vec F S4x1024x1 .f32) :
    Σ' (LA : List (View.Piece (Elt F) S4x1024x64 .f32)) (LM : List (View.Piece (Elt F) S4x1024x1 .f32)), { LL : List (View.Piece (Elt F) S4x1024x1 .f32) //
      ∀ (xo : Vec F S4x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare sa ∗ owns (c : Thread nD τ) arg7 fullShare sm ∗ owns (c : Thread nD τ) arg8 fullShare sl
            ∗ (iprop(owns (c : Thread nD τ) arg2 fullShare x0 ∗ owns (c : Thread nD τ) arg3 fullShare x1 ∗ owns (c : Thread nD τ) arg4 fullShare x2 ∗ owns (c : Thread nD τ) arg5 fullShare xo
                ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fa, %hfa, HA⟩, ⟨%fm, %hfm, HM⟩, ⟨%fl, %hfl, HL⟩, Hk⟩
    obtain rfl := harg2.eq_unread hf0; obtain rfl := harg3.eq_unread hf1; obtain rfl := harg4.eq_unread hf2; obtain rfl := harg5.eq_unread hf3; obtain rfl := harg6.eq_unread hfa; obtain rfl := harg7.eq_unread hfm; obtain rfl := harg8.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]; · iexists _; iexact HA
    isplitl [HM]; · iexists _; iexact HM
    iexists _; iexact HL

end Cert.KernelIdeal.Hand

end
-- ==== Proof.FlashRunC.lean ====
/-
  The attention body at the LAST key/value block of a query tile: one step of the running softmax from what the block before left, then the output tile is stored: the weighted sum divided by the normaliser.
-/
import proofs.«134109_j88158498718071_2_alg».proof.Proof.FlashRunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, on whole memrefs: the three input windows at their contents are handed back as
    they were; each scratch accumulator ends with the pieces the body stored into it (found by running the body,
    last store first). The conditionals are decided by the case's hypotheses. -/
noncomputable def runLast (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i)
    (x0 : Vec F S4x1024x64 .bf16) (x1 x2 : Vec F S4x512x64 .bf16) (sa : Vec F S4x1024x64 .f32) (sm sl : Vec F S4x1024x1 .f32) :
    Σ' (LO : List (View.Piece (Elt F) S4x1024x64 .f32)) (LA : List (View.Piece (Elt F) S4x1024x64 .f32)) (LM : List (View.Piece (Elt F) S4x1024x1 .f32)), { LL : List (View.Piece (Elt F) S4x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare sa ∗ owns (c : Thread nD τ) arg7 fullShare sm ∗ owns (c : Thread nD τ) arg8 fullShare sl
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fa, %hfa, HA⟩, ⟨%fm, %hfm, HM⟩, ⟨%fl, %hfl, HL⟩, Hk⟩
    obtain rfl := harg2.eq_unread hf0; obtain rfl := harg3.eq_unread hf1; obtain rfl := harg4.eq_unread hf2; obtain rfl := harg6.eq_unread hfa; obtain rfl := harg7.eq_unread hfm; obtain rfl := harg8.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HA]; · iexists _; iexact HA
    isplitl [HM]; · iexists _; iexact HM
    iexists _; iexact HL

end Cert.KernelIdeal.Hand

end
-- ==== Proof.FlashData.lean ====
/-
  The attention region point by point: what the three scratch accumulators hold after each grid point, by
  recursion on the point (a tile's first block starts from the reset values whatever was there before, every other
  block from what the block before left), the region's invariant carrying those contents from point to point, the
  proof data of the pipeline and the body's obligation at every point. For any float instance.
-/
import proofs.«134109_j88158498718071_2_alg».proof.Proof.FlashRunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they go to -/

theorem coverFirst_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) (y : S4x1024x64.Idx) :
    ∃ pc ∈ (runFirst c i arg2 harg2 arg3 harg3 arg4 harg4 arg5 harg5 arg6 harg6 arg7 harg7 arg8 harg8 hc0 hc1 x0 x1 x2).1, y ∈ pc.1.set :=
  View.cover_of_tiledL _ S4x1024x64.size (by sl_kernel_rfl) y
theorem coverFirst_mx (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) (y : S4x1024x1.Idx) :
    ∃ pc ∈ (runFirst c i arg2 harg2 arg3 harg3 arg4 harg4 arg5 harg5 arg6 harg6 arg7 harg7 arg8 harg8 hc0 hc1 x0 x1 x2).2.1, y ∈ pc.1.set :=
  View.cover_of_tiledL _ S4x1024x1.size (by sl_kernel_rfl) y
theorem coverFirst_ls (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) (y : S4x1024x1.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL _ S4x1024x1.size (by sl_kernel_rfl) y

theorem coverMiddle_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) (y : S4x1024x64.Idx) :
    ∃ pc ∈ (runMiddle c i arg2 harg2 arg3 harg3 arg4 harg4 arg5 harg5 arg6 harg6 arg7 harg7 arg8 harg8 hc0 hc1 x0 x1 x2 sa sm sl).1, y ∈ pc.1.set :=
  View.cover_of_tiledL _ S4x1024x64.size (by sl_kernel_rfl) y
theorem coverMiddle_mx (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) (y : S4x1024x1.Idx) :
    ∃ pc ∈ (runMiddle c i arg2 harg2 arg3 harg3 arg4 harg4 arg5 harg5 arg6 harg6 arg7 harg7 arg8 harg8 hc0 hc1 x0 x1 x2 sa sm sl).2.1, y ∈ pc.1.set :=
  View.cover_of_tiledL _ S4x1024x1.size (by sl_kernel_rfl) y
theorem coverMiddle_ls (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) (y : S4x1024x1.Idx) :
    ∃ pc ∈ (runMiddle c i arg2 harg2 arg3 harg3 arg4 harg4 arg5 harg5 arg6 harg6 arg7 harg7 arg8 harg8 hc0 hc1 x0 x1 x2 sa sm sl).2.2.1, y ∈ pc.1.set :=
  View.cover_of_tiledL _ S4x1024x1.size (by sl_kernel_rfl) y

theorem coverLast_out (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) (y : S4x1024x64.Idx) :
    ∃ pc ∈ (runLast c i arg2 harg2 arg3 harg3 arg4 harg4 arg5 harg5 arg6 harg6 arg7 harg7 arg8 harg8 hc0 hc1 x0 x1 x2 sa sm sl).1, y ∈ pc.1.set :=
  View.cover_of_tiledL _ S4x1024x64.size (by sl_kernel_rfl) y
theorem coverLast_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) (y : S4x1024x64.Idx) :
    ∃ pc ∈ (runLast c i arg2 harg2 arg3 harg3 arg4 harg4 arg5 harg5 arg6 harg6 arg7 harg7 arg8 harg8 hc0 hc1 x0 x1 x2 sa sm sl).2.1, y ∈ pc.1.set :=
  View.cover_of_tiledL _ S4x1024x64.size (by sl_kernel_rfl) y
theorem coverLast_mx (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) (y : S4x1024x1.Idx) :
    ∃ pc ∈ (runLast c i arg2 harg2 arg3 harg3 arg4 harg4 arg5 harg5 arg6 harg6 arg7 harg7 arg8 harg8 hc0 hc1 x0 x1 x2 sa sm sl).2.2.1, y ∈ pc.1.set :=
  View.cover_of_tiledL _ S4x1024x1.size (by sl_kernel_rfl) y
theorem coverLast_ls (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) (y : S4x1024x1.Idx) :
    ∃ pc ∈ (runLast c i arg2 harg2 arg3 harg3 arg4 harg4 arg5 harg5 arg6 harg6 arg7 harg7 arg8 harg8 hc0 hc1 x0 x1 x2 sa sm sl).2.2.2.1, y ∈ pc.1.set :=
  View.cover_of_tiledL _ S4x1024x1.size (by sl_kernel_rfl) y

section Region1
variable (V : (c : Dev nD) → (b : Ref sig .tc) → Buf (Elt F) ((c : Thread nD τ).loc b))

/-! ## The runs at a grid point -/

/-- The first-block run at point t, on the point's memrefs and blocks. -/
def firstAt (c : Dev nD) (t : Fin cfg1.N) (h0 : t.val % 8 = 0) (h1 : ¬t.val % 8 = 7) :=
  runFirst (F := F) c (grid1.coords t) (qM t) (qW t) (kM t) (kW t) (vM t) (vW t) (oM t) (oW t) accM (Memref.isWhole_whole _) mxM (Memref.isWhole_whole _) lsM (Memref.isWhole_whole _) ((isFirst_iff t).mpr h0) (fun h => h1 ((isLast_iff t).mp h)) (blk1 V c 0 t) (blk1 V c 1 t) (blk1 V c 2 t)
/-- The middle-block run at point t, from the scratch contents (sa, sm, sl). -/
def middleAt (c : Dev nD) (t : Fin cfg1.N) (h0 : ¬t.val % 8 = 0) (h1 : ¬t.val % 8 = 7) (sa : Vec F S4x1024x64 .f32) (sm sl : Vec F S4x1024x1 .f32) :=
  runMiddle (F := F) c (grid1.coords t) (qM t) (qW t) (kM t) (kW t) (vM t) (vW t) (oM t) (oW t) accM (Memref.isWhole_whole _) mxM (Memref.isWhole_whole _) lsM (Memref.isWhole_whole _) (fun h => h0 ((isFirst_iff t).mp h)) (fun h => h1 ((isLast_iff t).mp h)) (blk1 V c 0 t) (blk1 V c 1 t) (blk1 V c 2 t) sa sm sl
/-- The last-block run at point t, from the scratch contents (sa, sm, sl). -/
def lastAt (c : Dev nD) (t : Fin cfg1.N) (h0 : ¬t.val % 8 = 0) (h1 : t.val % 8 = 7) (sa : Vec F S4x1024x64 .f32) (sm sl : Vec F S4x1024x1 .f32) :=
  runLast (F := F) c (grid1.coords t) (qM t) (qW t) (kM t) (kW t) (vM t) (vW t) (oM t) (oW t) accM (Memref.isWhole_whole _) mxM (Memref.isWhole_whole _) lsM (Memref.isWhole_whole _) (fun h => h0 ((isFirst_iff t).mp h)) ((isLast_iff t).mpr h1) (blk1 V c 0 t) (blk1 V c 1 t) (blk1 V c 2 t) sa sm sl

/-! ## What the scratch accumulators hold after each point -/

/-- The weighted sum, the running maximum and the running normaliser after point n. -/
def stAt (c : Dev nD) : (n : ℕ) → n < cfg1.N → Vec F S4x1024x64 .f32 × Vec F S4x1024x1 .f32 × Vec F S4x1024x1 .f32
  | 0, hn =>
    (View.canon (firstAt V c ⟨0, hn⟩ (Nat.zero_mod _) (fun h => by (try dsimp only at h); omega)).1,
     View.canon (firstAt V c ⟨0, hn⟩ (Nat.zero_mod _) (fun h => by (try dsimp only at h); omega)).2.1,
     View.canon (firstAt V c ⟨0, hn⟩ (Nat.zero_mod _) (fun h => by (try dsimp only at h); omega)).2.2.1)
  | n + 1, hn =>
    if h0 : (n + 1) % 8 = 0 then
      (View.canon (firstAt V c ⟨n + 1, hn⟩ h0 (fun h => by (try dsimp only at h0 h); omega)).1,
       View.canon (firstAt V c ⟨n + 1, hn⟩ h0 (fun h => by (try dsimp only at h0 h); omega)).2.1,
       View.canon (firstAt V c ⟨n + 1, hn⟩ h0 (fun h => by (try dsimp only at h0 h); omega)).2.2.1)
    else if h1 : (n + 1) % 8 = 7 then
      (View.canon (lastAt V c ⟨n + 1, hn⟩ h0 h1 (stAt c n (Nat.lt_of_succ_lt hn)).1 (stAt c n (Nat.lt_of_succ_lt hn)).2.1 (stAt c n (Nat.lt_of_succ_lt hn)).2.2).2.1,
       View.canon (lastAt V c ⟨n + 1, hn⟩ h0 h1 (stAt c n (Nat.lt_of_succ_lt hn)).1 (stAt c n (Nat.lt_of_succ_lt hn)).2.1 (stAt c n (Nat.lt_of_succ_lt hn)).2.2).2.2.1,
       View.canon (lastAt V c ⟨n + 1, hn⟩ h0 h1 (stAt c n (Nat.lt_of_succ_lt hn)).1 (stAt c n (Nat.lt_of_succ_lt hn)).2.1 (stAt c n (Nat.lt_of_succ_lt hn)).2.2).2.2.2.1)
    else
      (View.canon (middleAt V c ⟨n + 1, hn⟩ h0 h1 (stAt c n (Nat.lt_of_succ_lt hn)).1 (stAt c n (Nat.lt_of_succ_lt hn)).2.1 (stAt c n (Nat.lt_of_succ_lt hn)).2.2).1,
       View.canon (middleAt V c ⟨n + 1, hn⟩ h0 h1 (stAt c n (Nat.lt_of_succ_lt hn)).1 (stAt c n (Nat.lt_of_succ_lt hn)).2.1 (stAt c n (Nat.lt_of_succ_lt hn)).2.2).2.1,
       View.canon (middleAt V c ⟨n + 1, hn⟩ h0 h1 (stAt c n (Nat.lt_of_succ_lt hn)).1 (stAt c n (Nat.lt_of_succ_lt hn)).2.1 (stAt c n (Nat.lt_of_succ_lt hn)).2.2).2.2.1)

/-- The scratch contents the point before t left (t not the first point of the grid). -/
abbrev prevSt (c : Dev nD) (t : Fin cfg1.N) : Vec F S4x1024x64 .f32 × Vec F S4x1024x1 .f32 × Vec F S4x1024x1 .f32 :=
  stAt V c (t.val - 1) (Nat.lt_of_le_of_lt (Nat.sub_le _ _) t.isLt)

theorem stAt_first (c : Dev nD) (t : Fin cfg1.N) (h0 : t.val % 8 = 0) (h1 : ¬t.val % 8 = 7) :
    stAt V c t.val t.isLt = (View.canon (firstAt V c t h0 h1).1, View.canon (firstAt V c t h0 h1).2.1, View.canon (firstAt V c t h0 h1).2.2.1) := by
  obtain ⟨n, hn⟩ := t
  cases n with
  | zero => exact rfl
  | succ n => exact (dif_pos h0).trans rfl

theorem stAt_middle (c : Dev nD) (t : Fin cfg1.N) (h0 : ¬t.val % 8 = 0) (h1 : ¬t.val % 8 = 7) :
    stAt V c t.val t.isLt = (View.canon (middleAt V c t h0 h1 (prevSt V c t).1 (prevSt V c t).2.1 (prevSt V c t).2.2).1,
      View.canon (middleAt V c t h0 h1 (prevSt V c t).1 (prevSt V c t).2.1 (prevSt V c t).2.2).2.1,
      View.canon (middleAt V c t h0 h1 (prevSt V c t).1 (prevSt V c t).2.1 (prevSt V c t).2.2).2.2.1) := by
  obtain ⟨n, hn⟩ := t
  cases n with
  | zero => exact (by exfalso; (try dsimp only at h0); exact absurd (Nat.zero_mod _) h0)
  | succ n => exact (dif_neg h0).trans ((dif_neg h1).trans rfl)

theorem stAt_last (c : Dev nD) (t : Fin cfg1.N) (h0 : ¬t.val % 8 = 0) (h1 : t.val % 8 = 7) :
    stAt V c t.val t.isLt = (View.canon (lastAt V c t h0 h1 (prevSt V c t).1 (prevSt V c t).2.1 (prevSt V c t).2.2).2.1,
      View.canon (lastAt V c t h0 h1 (prevSt V c t).1 (prevSt V c t).2.1 (prevSt V c t).2.2).2.2.1,
      View.canon (lastAt V c t h0 h1 (prevSt V c t).1 (prevSt V c t).2.1 (prevSt V c t).2.2).2.2.2.1) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after point t: at a tile's last block the stored tile; elsewhere
    nothing is stored (the window is idle there and this value is never consulted). -/
def outAt (c : Dev nD) (t : Fin cfg1.N) : Vec F S4x1024x64 .f32 :=
  if h1 : t.val % 8 = 7 then
    View.canon (lastAt V c t (fun h => by omega) h1 (prevSt V c t).1 (prevSt V c t).2.1 (prevSt V c t).2.2).1
  else View.canon []

theorem outAt_last (c : Dev nD) (t : Fin cfg1.N) (h0 : ¬t.val % 8 = 0) (h1 : t.val % 8 = 7) :
    outAt V c t = View.canon (lastAt V c t h0 h1 (prevSt V c t).1 (prevSt V c t).2.1 (prevSt V c t).2.2).1 := by
  unfold outAt; exact dif_pos h1

/-! ## The region's invariant -/

/-- Before point n: at the very first point the class invariant (every scratch at anything); afterwards the three
    accumulators at what point n − 1 left, the other scoped buffers at anything, the generator register at some state. -/
def PhiF (c : Dev nD) : (n : ℕ) → n ≤ cfg1.N → sProp 𝕄
  | 0, _ => Pipeline.ΦA spec1 c
  | n + 1, hn => iprop(Others c ∗ owns (c : Thread nD τ) accM fullShare (stAt V c n hn).1 ∗ owns (c : Thread nD τ) mxM fullShare (stAt V c n hn).2.1
      ∗ owns (c : Thread nD τ) lsM fullShare (stAt V c n hn).2.2 ∗ (∃ r, prngReg c r))

theorem PhiF_zero (c : Dev nD) (n : ℕ) (h : n ≤ cfg1.N) (hz : n = 0) : PhiF V c n h = Pipeline.ΦA spec1 c := by
  subst hz; rfl

theorem PhiF_succ (c : Dev nD) (n : ℕ) (hn : n < cfg1.N) :
    PhiF V c (n + 1) hn = iprop(Others c ∗ owns (c : Thread nD τ) accM fullShare (stAt V c n hn).1 ∗ owns (c : Thread nD τ) mxM fullShare (stAt V c n hn).2.1
      ∗ owns (c : Thread nD τ) lsM fullShare (stAt V c n hn).2.2 ∗ (∃ r, prngReg c r)) := rfl

theorem PhiF_pos (c : Dev nD) (n : ℕ) (h : n ≤ cfg1.N) (hz : n ≠ 0) :
    PhiF V c n h = iprop(Others c ∗ owns (c : Thread nD τ) accM fullShare (stAt V c (n - 1) (by omega)).1 ∗ owns (c : Thread nD τ) mxM fullShare (stAt V c (n - 1) (by omega)).2.1
      ∗ owns (c : Thread nD τ) lsM fullShare (stAt V c (n - 1) (by omega)).2.2 ∗ (∃ r, prngReg c r)) := by
  cases n with
  | zero => exact absurd rfl hz
  | succ n => rfl

/-! ## The pipeline's proof data -/

/-- The arrays as the region finds them; after the body each input window's buffer at its block, the output's at
    `outAt`; the invariant `PhiF`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt V c t
  Φ t := PhiF V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiF_castSucc (c : Dev nD) (t : Fin cfg1.N) :
    (dat1 V c).Φ t.castSucc = PhiF V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem before1_2 (c : Dev nD) (t : Fin cfg1.N) (d) : (dat1 V c).before 2 t d = blk1 V c 2 t :=
  found1_2 V (dat1 V c) (A_eq1 V c 2) (after1_2 V c) t d

end Region1

end Cert.KernelIdeal.Hand

end
-- ==== Proof.FlashBody.lean ====
/-
  The attention body meets its obligation at every grid point: at a tile's first block the invariant hands the body
  the three accumulators at whatever they hold (the body resets them), at every other block at what the block before
  left; the body gives them back at this point's contents. The output window is handed back untouched except at a
  tile's last block, where it holds the stored tile. For any float instance.
-/
import proofs.«134109_j88158498718071_2_alg».proof.Proof.FlashData
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (qM t) fullShare ((dat1 V c).before 0 t d))
    ∗ (∃ d, owns (c : Thread nD τ) (kM t) fullShare ((dat1 V c).before 1 t d))
    ∗ (∃ d, owns (c : Thread nD τ) (vM t) fullShare ((dat1 V c).before 2 t d))
    ∗ (∃ d, owns (c : Thread nD τ) (oM t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiF V c (t.val + 1) t.isLt from rfl, PhiF_succ]
  have hN : t.val < 32 := lt_of_lt_of_eq t.isLt (show cfg1.N = 32 from N_1)
  by_cases h0 : t.val % 8 = 0
  · have h1 : ¬t.val % 8 = 7 := by omega
    rw [show (dat1 V c).leavesExact 0 t = owns (c : Thread nD τ) (qM t) fullShare ((dat1 V c).after 0 t) from by
      unfold Dat.leavesExact; rw [live1_0 t], after1_0]
    rw [show (dat1 V c).leavesExact 1 t = owns (c : Thread nD τ) (kM t) fullShare ((dat1 V c).after 1 t) from by
      unfold Dat.leavesExact; rw [live1_1 t], after1_1]
    rw [show (dat1 V c).leavesExact 2 t = owns (c : Thread nD τ) (vM t) fullShare ((dat1 V c).after 2 t) from by
      unfold Dat.leavesExact; rw [live1_2 t], after1_2]
    rw [Dat.leavesExact_idle (dat1 V c) 3 t (idle1_3 t (fun h => h1 ((isLast_iff t).mp h))) (noFlush1_3 t (fun h => h1 ((isLast_iff t).mp h)))]
    rw [stAt_first V c t h0 h1]
    unfold firstAt; (try dsimp only)
    by_cases hz : t.val = 0
    · rw [PhiF_castSucc V c t, PhiF_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨Hoth, HA, HM, HL, Hg⟩
      iapply ((runFirst c (grid1.coords t) _ _ _ _ _ _ _ _ _ _ _ _ _ _ ((isFirst_iff t).mpr h0) (fun h => h1 ((isLast_iff t).mp h)) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HA]; · iexact HA
      isplitl [HM]; · iexact HM
      isplitl [HL]; · iexact HL
      iintro ⟨H0, H1, H2, H3, ⟨%ea, HA⟩, ⟨%em, HM⟩, ⟨%el, HL⟩⟩
      isplitl [Hoth HA HM HL Hg]
      · isplitl [Hoth]; · iexact Hoth
        isplitl [HA]
        · unfold owns; iexists _; isplitr
          swap; · iexact HA
          ipureintro; exact View.read_writes_eq_canon _ _ _ (coverFirst_acc c _ _ _ _ _ _ _ _ _ _ _ _ _ _ _ _ _ _ _ _)
        isplitl [HM]
        · unfold owns; iexists _; isplitr
          swap; · iexact HM
          ipureintro; exact View.read_writes_eq_canon _ _ _ (coverFirst_mx c _ _ _ _ _ _ _ _ _ _ _ _ _ _ _ _ _ _ _ _)
        isplitl [HL]
        · unfold owns; iexists _; isplitr
          swap; · iexact HL
          ipureintro; exact View.read_writes_eq_canon _ _ _ (coverFirst_ls c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiF_castSucc V c t, PhiF_pos V c _ _ hz]
      iintro ⟨⟨Hoth, HA, HM, HL, Hg⟩, Ho, ⟨%d0, H0⟩, ⟨%d1, H1⟩, ⟨%d2, H2⟩, ⟨%d3, H3⟩⟩
      iapply ((runFirst c (grid1.coords t) _ _ _ _ _ _ _ _ _ _ _ _ _ _ ((isFirst_iff t).mpr h0) (fun h => h1 ((isLast_iff t).mp h)) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HA]; · iexists _; iexact HA
      isplitl [HM]; · iexists _; iexact HM
      isplitl [HL]; · iexists _; iexact HL
      iintro ⟨H0, H1, H2, H3, ⟨%ea, HA⟩, ⟨%em, HM⟩, ⟨%el, HL⟩⟩
      isplitl [Hoth HA HM HL Hg]
      · isplitl [Hoth]; · iexact Hoth
        isplitl [HA]
        · unfold owns; iexists _; isplitr
          swap; · iexact HA
          ipureintro; exact View.read_writes_eq_canon _ _ _ (coverFirst_acc c _ _ _ _ _ _ _ _ _ _ _ _ _ _ _ _ _ _ _ _)
        isplitl [HM]
        · unfold owns; iexists _; isplitr
          swap; · iexact HM
          ipureintro; exact View.read_writes_eq_canon _ _ _ (coverFirst_mx c _ _ _ _ _ _ _ _ _ _ _ _ _ _ _ _ _ _ _ _)
        isplitl [HL]
        · unfold owns; iexists _; isplitr
          swap; · iexact HL
          ipureintro; exact View.read_writes_eq_canon _ _ _ (coverFirst_ls c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 0 t = owns (c : Thread nD τ) (qM t) fullShare ((dat1 V c).after 0 t) from by
        unfold Dat.leavesExact; rw [live1_0 t], after1_0]
      rw [show (dat1 V c).leavesExact 1 t = owns (c : Thread nD τ) (kM t) fullShare ((dat1 V c).after 1 t) from by
        unfold Dat.leavesExact; rw [live1_1 t], after1_1]
      rw [show (dat1 V c).leavesExact 2 t = owns (c : Thread nD τ) (vM t) fullShare ((dat1 V c).after 2 t) from by
        unfold Dat.leavesExact; rw [live1_2 t], after1_2]
      rw [show (dat1 V c).leavesExact 3 t = owns (c : Thread nD τ) (oM t) fullShare ((dat1 V c).after 3 t) from by
        unfold Dat.leavesExact; rw [live1_3 t ((isLast_iff t).mpr h1)], after1_3]
      rw [stAt_last V c t h0 h1, outAt_last V c t h0 h1]
      unfold lastAt; (try dsimp only)
      rw [PhiF_castSucc V c t, PhiF_pos V c _ _ hz]
      iintro ⟨⟨Hoth, HA, HM, HL, Hg⟩, Ho, ⟨%d0, H0⟩, ⟨%d1, H1⟩, ⟨%d2, H2⟩, ⟨%d3, H3⟩⟩
      iapply ((runLast c (grid1.coords t) _ _ _ _ _ _ _ _ _ _ _ _ _ _ (fun h => h0 ((isFirst_iff t).mp h)) ((isLast_iff t).mpr h1) (blk1 V c 0 t) (blk1 V c 1 t) (blk1 V c 2 t) _ _ _).2.2.2.2 Set.univ _)
      isplitl [H0]; · iexact H0
      isplitl [H1]; · iexact H1
      isplitl [H2]; · iexact H2
      isplitl [H3]; · iexists _; iexact H3
      isplitl [HA]; · iexact HA
      isplitl [HM]; · iexact HM
      isplitl [HL]; · iexact HL
      iintro ⟨H0, H1, H2, ⟨%eo, H3⟩, ⟨%ea, HA⟩, ⟨%em, HM⟩, ⟨%el, HL⟩⟩
      isplitl [Hoth HA HM HL Hg]
      · isplitl [Hoth]; · iexact Hoth
        isplitl [HA]
        · unfold owns; iexists _; isplitr
          swap; · iexact HA
          ipureintro; exact View.read_writes_eq_canon _ _ _ (coverLast_acc c _ _ _ _ _ _ _ _ _ _ _ _ _ _ _ _ _ _ _ _ _ _ _)
        isplitl [HM]
        · unfold owns; iexists _; isplitr
          swap; · iexact HM
          ipureintro; exact View.read_writes_eq_canon _ _ _ (coverLast_mx c _ _ _ _ _ _ _ _ _ _ _ _ _ _ _ _ _ _ _ _ _ _ _)
        isplitl [HL]
        · unfold owns; iexists _; isplitr
          swap; · iexact HL
          ipureintro; exact View.read_writes_eq_canon _ _ _ (coverLast_ls c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLast_out c _ _ _ _ _ _ _ _ _ _ _ _ _ _ _ _ _ _ _ _ _ _ _)
    · rw [show (dat1 V c).leavesExact 0 t = owns (c : Thread nD τ) (qM t) fullShare ((dat1 V c).after 0 t) from by
        unfold Dat.leavesExact; rw [live1_0 t], after1_0]
      rw [show (dat1 V c).leavesExact 1 t = owns (c : Thread nD τ) (kM t) fullShare ((dat1 V c).after 1 t) from by
        unfold Dat.leavesExact; rw [live1_1 t], after1_1]
      rw [show (dat1 V c).leavesExact 2 t = owns (c : Thread nD τ) (vM t) fullShare ((dat1 V c).after 2 t) from by
        unfold Dat.leavesExact; rw [live1_2 t], after1_2]
      rw [Dat.leavesExact_idle (dat1 V c) 3 t (idle1_3 t (fun h => h1 ((isLast_iff t).mp h))) (noFlush1_3 t (fun h => h1 ((isLast_iff t).mp h)))]
      rw [stAt_middle V c t h0 h1]
      unfold middleAt; (try dsimp only)
      rw [PhiF_castSucc V c t, PhiF_pos V c _ _ hz]
      iintro ⟨⟨Hoth, HA, HM, HL, Hg⟩, Ho, ⟨%d0, H0⟩, ⟨%d1, H1⟩, ⟨%d2, H2⟩, ⟨%d3, H3⟩⟩
      iapply ((runMiddle c (grid1.coords t) _ _ _ _ _ _ _ _ _ _ _ _ _ _ (fun h => h0 ((isFirst_iff t).mp h)) (fun h => h1 ((isLast_iff t).mp h)) (blk1 V c 0 t) (blk1 V c 1 t) (blk1 V c 2 t) _ _ _).2.2.2 _ Set.univ _)
      isplitl [H0]; · iexact H0
      isplitl [H1]; · iexact H1
      isplitl [H2]; · iexact H2
      isplitl [H3]; · iexact H3
      isplitl [HA]; · iexact HA
      isplitl [HM]; · iexact HM
      isplitl [HL]; · iexact HL
      iintro ⟨H0, H1, H2, H3, ⟨%ea, HA⟩, ⟨%em, HM⟩, ⟨%el, HL⟩⟩
      isplitl [Hoth HA HM HL Hg]
      · isplitl [Hoth]; · iexact Hoth
        isplitl [HA]
        · unfold owns; iexists _; isplitr
          swap; · iexact HA
          ipureintro; exact View.read_writes_eq_canon _ _ _ (coverMiddle_acc c _ _ _ _ _ _ _ _ _ _ _ _ _ _ _ _ _ _ _ _ _ _ _)
        isplitl [HM]
        · unfold owns; iexists _; isplitr
          swap; · iexact HM
          ipureintro; exact View.read_writes_eq_canon _ _ _ (coverMiddle_mx c _ _ _ _ _ _ _ _ _ _ _ _ _ _ _ _ _ _ _ _ _ _ _)
        isplitl [HL]
        · unfold owns; iexists _; isplitr
          swap; · iexact HL
          ipureintro; exact View.read_writes_eq_canon _ _ _ (coverMiddle_ls c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiF V c 0 (Nat.zero_le _) from rfl, PhiF_zero V c 0 _ rfl]

/-- After the last point the invariant gives the class invariant back: the accumulators' contents are forgotten. -/
theorem hout1 (c : Dev nD) : (dat1 V c).Φ (Fin.last cfg1.N) ⊢ Pipeline.ΦA spec1 c := by
  rw [show (dat1 V c).Φ (Fin.last cfg1.N) = PhiF V c (Fin.last cfg1.N).val (Nat.le_of_lt_succ (Fin.last cfg1.N).isLt) from rfl,
    PhiF_pos V c _ _ (by rw [Fin.val_last]; have : cfg1.N = 32 := N_1; omega)]
  iintro ⟨Hoth, HA, HM, HL, Hg⟩
  iapply (PhiA1_join (F := F) c)
  isplitl [Hoth]; · iexact Hoth
  isplitl [HA]; · iexists _; iexact HA
  isplitl [HM]; · iexists _; iexact HM
  isplitl [HL]; · iexists _; iexact HL
  iexact Hg

end Region1

end Cert.KernelIdeal.Hand

end
-- ==== Proof.AttnRun.lean ====
/-
  The whole program as four segments — the host operations before the first launch, the projection region, the
  three reshapes, the attention region — with the buffer contents at each boundary written as a fold from the
  launch memory: a host stretch applies its operations, a region replaces its windows' arrays by what its
  write-backs leave and keeps every other buffer. One run of the machine over these segments ends with every
  unscoped buffer at the last boundary's contents; the frame (the arguments end as launched) and the value of the
  result are both read off it. For any float instance.
-/
import proofs.«134109_j88158498718071_2_alg».proof.Proof.Gen.KernelIdeal.Regions
import proofs.«134109_j88158498718071_2_alg».proof.Proof.ProjRegion
import proofs.«134109_j88158498718071_2_alg».proof.Proof.FlashBody
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev L0 : Dev nD → Valuation τ sig (Elt F) := fun c b => (s₀ m ρ).mem ((c : Dev nD), b)
/-- After the host operations before the first launch (the projection region's entry). -/
abbrev L1 : Dev nD → Valuation τ sig (Elt F) := fun c => StableHlo.after hostOps0 (L0 m ρ c)
abbrev E1 : (c : Dev nD) → (b : Ref sig .tc) → Buf (Elt F) ((c : Thread nD τ).loc b) := fun c b => L1 m ρ c b
/-- At the projection region's exit: its arrays at what the pipeline leaves, every other buffer as entered. -/
def L2 (c : Dev nD) : Valuation τ sig (Elt F) :=
  Pipeline.withArrays spec0 c (L1 m ρ c) fun w => (dat0 (E1 m ρ) c).arrAt w cfg0.N
theorem L2_arr (c : Dev nD) (w : Fin cfg0.W) :
    L2 m ρ c (Proc.devRef .tc (Pipeline.arrRef spec0 w)) = (dat0 (E1 m ρ) c).arrAt w cfg0.N := by
  unfold L2; exact Pipeline.withArrays_arr spec0 launch0.win.arr_inj c _ _ w
theorem L2_of_ne (c : Dev nD) (b : Ref sig .tc) (hb : ∀ w, Pipeline.arrRef spec0 w ≠ b) :
    L2 m ρ c (Proc.devRef .tc b) = L1 m ρ c (Proc.devRef .tc b) := by
  unfold L2; exact Pipeline.withArrays_of_ne spec0 c _ _ b hb
abbrev E2 : (c : Dev nD) → (b : Ref sig .tc) → Buf (Elt F) ((c : Thread nD τ).loc b) := fun c b => L2 m ρ c b
theorem exit0_arr (c : Dev nD) (w : Fin cfg0.W) : (dat0 (E1 m ρ) c).arrAt w cfg0.N = E2 m ρ c (Pipeline.arrRef spec0 w) :=
  (L2_arr m ρ c w).symm
theorem exit0_rest (c : Dev nD) : ∀ b, b ∉ Finset.univ.image (Pipeline.arrRef spec0) → E2 m ρ c b = E1 m ρ c b :=
  fun b hb => L2_of_ne m ρ c b fun w e => hb (Finset.mem_image.mpr ⟨w, Finset.mem_univ _, e⟩)

/-- After the three reshapes (the attention region's entry). -/
abbrev L3 : Dev nD → Valuation τ sig (Elt F) := fun c => StableHlo.after hostOps1 (L2 m ρ c)
abbrev E3 : (c : Dev nD) → (b : Ref sig .tc) → Buf (Elt F) ((c : Thread nD τ).loc b) := fun c b => L3 m ρ c b
/-- At the attention region's exit. -/
def L4 (c : Dev nD) : Valuation τ sig (Elt F) :=
  Pipeline.withArrays spec1 c (L3 m ρ c) fun w => (dat1 (E3 m ρ) c).arrAt w cfg1.N
theorem L4_arr (c : Dev nD) (w : Fin cfg1.W) :
    L4 m ρ c (Proc.devRef .tc (Pipeline.arrRef spec1 w)) = (dat1 (E3 m ρ) c).arrAt w cfg1.N := by
  unfold L4; exact Pipeline.withArrays_arr spec1 launch1.win.arr_inj c _ _ w
theorem L4_of_ne (c : Dev nD) (b : Ref sig .tc) (hb : ∀ w, Pipeline.arrRef spec1 w ≠ b) :
    L4 m ρ c (Proc.devRef .tc b) = L3 m ρ c (Proc.devRef .tc b) := by
  unfold L4; exact Pipeline.withArrays_of_ne spec1 c _ _ b hb
abbrev E4 : (c : Dev nD) → (b : Ref sig .tc) → Buf (Elt F) ((c : Thread nD τ).loc b) := fun c b => L4 m ρ c b
theorem exit1_arr (c : Dev nD) (w : Fin cfg1.W) : (dat1 (E3 m ρ) c).arrAt w cfg1.N = E4 m ρ c (Pipeline.arrRef spec1 w) :=
  (L4_arr m ρ c w).symm
theorem exit1_rest (c : Dev nD) : ∀ b, b ∉ Finset.univ.image (Pipeline.arrRef spec1) → E4 m ρ c b = E3 m ρ c b :=
  fun b hb => L4_of_ne m ρ c b fun w e => hb (Finset.mem_image.mpr ⟨w, Finset.mem_univ _, e⟩)

/-! ### The arguments end as launched: no host operation writes one and no region stages one -/

theorem L4_main_arg0 (c : Dev nD) : L4 m ρ c (Proc.devRef .tc main_arg0) = m ((c : Thread nD τ).loc main_arg0) :=
  calc L4 m ρ c (Proc.devRef .tc main_arg0)
    _ = L3 m ρ c (Proc.devRef .tc main_arg0) := L4_of_ne m ρ c main_arg0 (by decide)
    _ = L2 m ρ c (Proc.devRef .tc main_arg0) := StableHlo.after_of_writes_sub hostOps1 _ hostOps1_writes (by decide)
    _ = L1 m ρ c (Proc.devRef .tc main_arg0) := L2_of_ne m ρ c main_arg0 (by decide)
    _ = L0 m ρ c (Proc.devRef .tc main_arg0) := StableHlo.after_of_writes_sub hostOps0 _ hostOps0_writes (by decide)
    _ = m ((c : Thread nD τ).loc main_arg0) := rfl
theorem L4_main_arg1 (c : Dev nD) : L4 m ρ c (Proc.devRef .tc main_arg1) = m ((c : Thread nD τ).loc main_arg1) :=
  calc L4 m ρ c (Proc.devRef .tc main_arg1)
    _ = L3 m ρ c (Proc.devRef .tc main_arg1) := L4_of_ne m ρ c main_arg1 (by decide)
    _ = L2 m ρ c (Proc.devRef .tc main_arg1) := StableHlo.after_of_writes_sub hostOps1 _ hostOps1_writes (by decide)
    _ = L1 m ρ c (Proc.devRef .tc main_arg1) := L2_of_ne m ρ c main_arg1 (by decide)
    _ = L0 m ρ c (Proc.devRef .tc main_arg1) := StableHlo.after_of_writes_sub hostOps0 _ hostOps0_writes (by decide)
    _ = m ((c : Thread nD τ).loc main_arg1) := rfl
theorem L4_main_arg2 (c : Dev nD) : L4 m ρ c (Proc.devRef .tc main_arg2) = m ((c : Thread nD τ).loc main_arg2) :=
  calc L4 m ρ c (Proc.devRef .tc main_arg2)
    _ = L3 m ρ c (Proc.devRef .tc main_arg2) := L4_of_ne m ρ c main_arg2 (by decide)
    _ = L2 m ρ c (Proc.devRef .tc main_arg2) := StableHlo.after_of_writes_sub hostOps1 _ hostOps1_writes (by decide)
    _ = L1 m ρ c (Proc.devRef .tc main_arg2) := L2_of_ne m ρ c main_arg2 (by decide)
    _ = L0 m ρ c (Proc.devRef .tc main_arg2) := StableHlo.after_of_writes_sub hostOps0 _ hostOps0_writes (by decide)
    _ = m ((c : Thread nD τ).loc main_arg2) := rfl
theorem L4_main_arg3 (c : Dev nD) : L4 m ρ c (Proc.devRef .tc main_arg3) = m ((c : Thread nD τ).loc main_arg3) :=
  calc L4 m ρ c (Proc.devRef .tc main_arg3)
    _ = L3 m ρ c (Proc.devRef .tc main_arg3) := L4_of_ne m ρ c main_arg3 (by decide)
    _ = L2 m ρ c (Proc.devRef .tc main_arg3) := StableHlo.after_of_writes_sub hostOps1 _ hostOps1_writes (by decide)
    _ = L1 m ρ c (Proc.devRef .tc main_arg3) := L2_of_ne m ρ c main_arg3 (by decide)
    _ = L0 m ρ c (Proc.devRef .tc main_arg3) := StableHlo.after_of_writes_sub hostOps0 _ hostOps0_writes (by decide)
    _ = m ((c : Thread nD τ).loc main_arg3) := rfl

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev noVariants : Variants := Variants.none
/-- No core owes another anything: no level is assigned. -/
abbrev noLevels : GSem nD τ sig → Finset Unit := fun _ => ∅
abbrev noLevel : GSem nD τ sig → Unit → ℕ := fun _ _ => 0
/-- Beside the buffers through every segment: the generator register at some state, and the core owing nothing. -/
abbrev Ride (c : Dev nD) : sProp 𝕄 := iprop((∃ r, prngReg c r) ∗ ∃ W, owes (c : Thread nD τ) (0 : CellTallies nD τ sig Unit) W)
/-- A host stretch as a segment from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (L4 m ρ c) ∗ ∃ r, prngReg c r)

/-! ## The regions as segments -/

set_option backward.isDefEq.respectTransparency.types false in
/-- The projection region: entered from every unscoped buffer at L1, left at L2. -/
def regProj : Pipeline.RegionSeg (pcfgs (F := F)) adm (pdats m ρ) () defs₀ noVariants noLevels noLevel 0 where
  hbody c := (body_obligation0 (E1 m ρ) c).loose
  win := launch0.win.to₀
  block_pos := launch0.block_pos
  stage_whole := launch0.stage_whole
  K := PEmpty
  osem k := k.elim
  ho := Pipeline.OwnSemFacts.none _
  hwaits := Pipeline.hwaits_of_owed_zero _ _ _ _ noLevels noLevel 0 fun _ _ => rfl
  pre c := iprop(StableHlo.held (c : Thread nD τ) (Pipeline.ucRefs τ sig) (L1 m ρ c) ∗ Ride c)
  post c := iprop(StableHlo.held (c : Thread nD τ) (Pipeline.ucRefs τ sig) (L2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at L3, left at L4. Its invariant takes the class
    invariant in at the first point and gives it back after the last. -/
def regFlash : Pipeline.RegionSeg (pcfgs (F := F)) adm (pdats m ρ) () defs₀ noVariants noLevels noLevel 1 where
  hbody c := (body_obligation1 (E3 m ρ) c).loose
  win := launch1.win.to₀
  block_pos := launch1.block_pos
  stage_whole := launch1.stage_whole
  K := PEmpty
  osem k := k.elim
  ho := Pipeline.OwnSemFacts.none _
  hwaits := Pipeline.hwaits_of_owed_zero _ _ _ _ noLevels noLevel 1 fun _ _ => rfl
  pre c := iprop(StableHlo.held (c : Thread nD τ) (Pipeline.ucRefs τ sig) (L3 m ρ c) ∗ Ride c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (E3 m ρ) c)
    unfold Pipeline.ΦA
    iintro ⟨Hp, -, Hr⟩
    isplitl [Hr]; · iexact Hr
    iexact Hp
  hout c := by
    refine (hout1 (E3 m ρ) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segList : List (Pipeline.Seg (pcfgs (F := F)) adm (pdats m ρ) () defs₀ noVariants noLevels noLevel) :=
  [ .host (hostSeg hostOps0 hostOps0_sub hostOps0_fresh (L0 m ρ)),
    .region (regProj m ρ),
    .host (hostSeg hostOps1 hostOps1_sub hostOps1_fresh (L2 m ρ)),
    .region (regFlash m ρ) ]

theorem main_run (c : Dev nD) : main (F := F) c = Pipeline.Seg.run (segList m ρ) := (main_chain c).trans (by chain_rfl)

set_option backward.isDefEq.respectTransparency.types false in
/-- THE RUN: from any memory with zero counters every weakly fair execution of @main terminates, nothing faulting,
    and in the final state every unscoped buffer holds the last boundary's contents L4. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = L4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ noVariants noLevels noLevel m ρ main (segList m ρ)
    (fun c Q => by rw [main_run m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (L0 m ρ c) ∗ Ride c)) (Tₙ := Tend m ρ)
    (hch := ⟨fun _ => .rfl, fun _ => .rfl, fun _ => .rfl, fun _ => .rfl, fun _ => .rfl⟩)
    (hinit := by
      refine Pipeline.initEach noLevels noLevel fun c => ?_
      rw [show unscopedBufs c (fun b => m ((c : Thread nD τ).loc b)) = StableHlo.held (c : Thread nD τ) (Pipeline.ucRefs τ sig) (L0 m ρ c)
        from Pipeline.unscopedBufs_held c (L0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = L4 m ρ c b)
    (hfin := fun c s' => by
      iintro ⟨⟨Hh, -⟩, HSI⟩
      unfold StableHlo.held
      imodintro
      iapply (pointsTo_read_all (Pipeline.ucRefs τ sig) (fun b => (((c : Thread nD τ)).1, b)) (L4 m ρ c) s')
      isplitl [Hh] <;> iassumption)
    (hQ := hQ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_all m ρ fun s h c =>
    ⟨(h c _ (mem_uc main_arg0 (by decide))).trans (L4_main_arg0 m ρ c),
     (h c _ (mem_uc main_arg1 (by decide))).trans (L4_main_arg1 m ρ c),
     (h c _ (mem_uc main_arg2 (by decide))).trans (L4_main_arg2 m ρ c),
     (h c _ (mem_uc main_arg3 (by decide))).trans (L4_main_arg3 m ρ c)⟩

end Cert.KernelIdeal.Hand

end
-- ==== Proof.ProjRegionK.lean ====
/-
  The projection region (the first kernel region of the program), at any float carrier F.

  Everything here is stated at a parameter V: the contents of the core's unscoped buffers at the moment the
  region is entered.  Per grid point the region reads a block of 1024 rows of x and the three whole weight
  arrays, multiplies the rows by each weight array, and writes the three products to the matching row blocks of
  the three outputs.  This file gives the proof data of that pipeline (what each staging buffer holds after the
  body at every point) and discharges the body obligation: the body, run on staging buffers holding the input
  blocks, leaves the inputs as they were and each output buffer at the product of the blocks.
-/
import proofs.«134109_j88158498718071_2_alg».proof.Proof.Gen.Kernel.Launch
import proofs.«134109_j88158498718071_2_alg».proof.Proof.Gen.Kernel.Skeleton
import proofs.«134109_j88158498718071_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 1024 × 64 entries is decided by structural recursion on the extents
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The blocks the windows select -/

/-- The block window w selects at point t, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window: at every point its current staging buffer holds the block selected there.  The statement is
    for any proof data over the same arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight window.  Its block index is constant, so it is fetched at the first point only; at a later
    point the buffer still holds what the previous point left, which is the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second weight window, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The third weight window, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

abbrev rX : Rect S1024x1024 := Rect.unit (s := S1024x1024) ![0, 0] S1024x1024.size inb_S1024x1024_S1024x1024_0_0
abbrev rW : Rect S1024x64 := Rect.unit (s := S1024x64) ![0, 0] S1024x64.size inb_S1024x64_S1024x64_0_0

/-! ## What the body leaves in the output buffers -/

/-- The first output buffer after the body: one store through the whole-buffer rectangle of the product of the
    rows block with the first weight block. -/
def out0_4 (x0 : Vec F S1024x1024 .f32) (x1 : Vec F S1024x64 .f32) : Vec F S1024x64 .bf16 :=
  View.canon [⟨rW, k0_pay2 (View.ld x0 rX) (View.ld x1 rW)⟩]
/-- The second output buffer after the body. -/
def out0_5 (x0 : Vec F S1024x1024 .f32) (x2 : Vec F S1024x64 .f32) : Vec F S1024x64 .bf16 :=
  View.canon [⟨rW, k0_pay3 (View.ld x0 rX) (View.ld x2 rW)⟩]
/-- The third output buffer after the body. -/
def out0_6 (x0 : Vec F S1024x1024 .f32) (x3 : Vec F S1024x64 .f32) : Vec F S1024x64 .bf16 :=
  View.canon [⟨rW, k0_pay4 (View.ld x0 rX) (View.ld x3 rW)⟩]

/-- The one store of an output buffer covers it: the rectangle is the whole buffer. -/
theorem coverW (p0 : Vec F S1024x64 .bf16) (y : S1024x64.Idx) :
    ∃ pc ∈ ([⟨rW, p0⟩] : List (View.Piece (Elt F) S1024x64 .bf16)), y ∈ pc.1.set :=
  View.cover_of_tiled [⟨rW, p0⟩] S1024x64.size (by rfl) y

/-! ## The body's triple -/

set_option maxHeartbeats 4000000 in
/-- The body on whole staging memrefs — the four inputs' holding x0 … x3, the three outputs' anything — runs
    to the continuation with the inputs unchanged and each output buffer holding the product of the rows with its
    weight block.  The loads of the output buffers return values nothing reads. -/
theorem sound_kernel0 (c : Dev nD) (E : Set ℕ) (i : grid0.Coords)
    (arg1 : Memref sig .tc .vmem S1024x1024 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x64 .bf16) (harg5 : arg5.IsWhole) (arg6 : Memref sig .tc .vmem S1024x64 .bf16) (harg6 : arg6.IsWhole)
    (arg7 : Memref sig .tc .vmem S1024x64 .bf16) (harg7 : arg7.IsWhole)
    (x0 : Vec F S1024x1024 .f32) (x1 x2 x3 : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverW _)
  isplitl [H5]
  · iexists _; isplitr
    swap; · iexact H5
    ipureintro
    exact View.read_writes_eq_canon _ _ _ (coverW _)
  iexists _; isplitr
  swap; · iexact H6
  ipureintro
  exact View.read_writes_eq_canon _ _ _ (coverW _)

/-! ## The pipeline's proof data -/

/-- The proof data of the projection pipeline on core c.  The arrays are the region-entry contents; after the body
    at point t each input buffer holds its block and each output buffer the product of the blocks; the invariant
    is the untouched rest of the core's scoped memory; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.FlashBaseK.lean ====
/-
  The attention region (the second kernel launch): what its grid points see and where its conditionals go.

  The grid is 4 × 8: point t works on query tile t / 8 and key/value block t % 8. The body resets its three
  scratch accumulators (the weighted sum, the running maximum, the running normaliser) exactly at the points
  t % 8 = 0, and writes the output tile exactly at the points t % 8 = 7; the output window is idle and not written
  back at every other point. Everything here is stated for any float instance.
-/
import proofs.«134109_j88158498718071_2_alg».proof.Proof.Gen.Kernel.Launch
import proofs.«134109_j88158498718071_2_alg».proof.Proof.Gen.Kernel.Skeleton
import proofs.«134109_j88158498718071_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds the point's query tile, fetched there or not (between two
    fetches the tile's index does not move). -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The key window's buffer holds the point's key block. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- The value window's buffer holds the point's value block. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

end Region1

/-! ## The two conditionals, over the grid -/

/-- "This is the first key/value block of a query tile": the condition under which the body resets its scratch. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- "This is the last key/value block of a query tile": the condition under which the body writes the output tile. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from a tile's last block the output window is idle -/
theorem idle1_3 : ∀ t : Fin cfg1.N, ¬isLast (grid1.coords t) → cfg1.idle 3 (grid1.coords t) = true := by decide +kernel
/-- and is not written back. -/
theorem noFlush1_3 : ∀ t : Fin cfg1.N, ¬isLast (grid1.coords t) → (cfg1.win 3).flush t = false := by decide +kernel
/-- At a tile's last block it is live. -/
theorem live1_3 : ∀ t : Fin cfg1.N, isLast (grid1.coords t) → cfg1.idle 3 (grid1.coords t) = false := by decide +kernel

/-! ## The memrefs the body is called with -/

abbrev qM (t : Fin cfg1.N) : Memref sig .tc .vmem S4x1024x64 .bf16 := win1_0.stage (cfg1.slots t 0)
abbrev qW (t : Fin cfg1.N) : (qM t).IsWhole := hstage1_0 ((cfg1.slots t 0).cast nbuf1_0)
abbrev kM (t : Fin cfg1.N) : Memref sig .tc .vmem S4x512x64 .bf16 := win1_1.stage (cfg1.slots t 1)
abbrev kW (t : Fin cfg1.N) : (kM t).IsWhole := hstage1_1 ((cfg1.slots t 1).cast nbuf1_1)
abbrev vM (t : Fin cfg1.N) : Memref sig .tc .vmem S4x512x64 .bf16 := win1_2.stage (cfg1.slots t 2)
abbrev vW (t : Fin cfg1.N) : (vM t).IsWhole := hstage1_2 ((cfg1.slots t 2).cast nbuf1_2)
abbrev oM (t : Fin cfg1.N) : Memref sig .tc .vmem S4x1024x64 .f32 := win1_3.stage (cfg1.slots t 3)
abbrev oW (t : Fin cfg1.N) : (oM t).IsWhole := hstage1_3 ((cfg1.slots t 3).cast nbuf1_3)
/-- The three scratch accumulators: the weighted sum, the running maximum, the running normaliser. -/
abbrev accM : Memref sig .tc .vmem S4x1024x64 .f32 := Memref.whole cc1_scratch0
abbrev mxM : Memref sig .tc .vmem S4x1024x1 .f32 := Memref.whole cc1_scratch1
abbrev lsM : Memref sig .tc .vmem S4x1024x1 .f32 := Memref.whole cc1_scratch2
/-- Views through which buffer contents are stated. -/
abbrev oV : View sig .tc .vmem S4x1024x64 .f32 := (Memref.whole cc1_stg3_0 : Memref sig .tc .vmem S4x1024x64 .f32).view
abbrev accV : View sig .tc .vmem S4x1024x64 .f32 := accM.view
abbrev mxV : View sig .tc .vmem S4x1024x1 .f32 := mxM.view
abbrev lsV : View sig .tc .vmem S4x1024x1 .f32 := lsM.view

/-! ## The scoped buffers the region does not stage -/

/-- The first launch's staging buffers, each whole at some contents: scoped buffers this region never touches. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant of the region (the scoped buffers no window stages, the generator register) with the three
    scratch accumulators split out as memrefs owned at some contents. -/
theorem PhiA1_split (c : Dev nD) :
    (Pipeline.ΦA spec1 c : sProp 𝕄)
      ⊢ iprop(Others c ∗ (∃ d, owns (c : Thread nD τ) accM fullShare d) ∗ (∃ d, owns (c : Thread nD τ) mxM fullShare d) ∗ (∃ d, owns (c : Thread nD τ) lsM fullShare d) ∗ (∃ r, prngReg c r)) := by
  unfold Pipeline.ΦA; rw [scopedRest1_eq]; unfold Others; simp only [accM, mxM, lsM, owns_whole]
  iintro ⟨⟨H0, H1, H2, H3, H4, H5, H6, H7, H8, H9, H10, HS0, HS1, HS2⟩, Hg⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HS0]; · iexact HS0
  isplitl [HS1]; · iexact HS1
  isplitl [HS2]; · iexact HS2
  iexact Hg

/-- The converse: the accumulators at any contents and the rest make the class invariant. -/
theorem PhiA1_join (c : Dev nD) :
    iprop(Others c ∗ (∃ d, owns (c : Thread nD τ) accM fullShare d) ∗ (∃ d, owns (c : Thread nD τ) mxM fullShare d) ∗ (∃ d, owns (c : Thread nD τ) lsM fullShare d) ∗ (∃ r, prngReg c r))
      ⊢ (Pipeline.ΦA spec1 c : sProp 𝕄) := by
  unfold Pipeline.ΦA; rw [scopedRest1_eq]; unfold Others; simp only [accM, mxM, lsM, owns_whole]
  iintro ⟨⟨H0, H1, H2, H3, H4, H5, H6, H7, H8, H9, H10⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iexact HS2
  iexact Hg

end Cert.Kernel.Hand

end
-- ==== Proof.FlashRunAK.lean ====
/-
  The attention body at the FIRST key/value block of a query tile: it resets the three scratch accumulators (whatever they held) and then takes one step of the running softmax; the output window is left untouched.
-/
import proofs.«134109_j88158498718071_2_alg».proof.Proof.FlashBaseK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, on whole memrefs: the three input windows at their contents are handed back as
    they were; each scratch accumulator ends with the pieces the body stored into it (found by running the body,
    last store first). The conditionals are decided by the case's hypotheses. -/
noncomputable def runFirst (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i)
    (x0 : Vec F S4x1024x64 .bf16) (x1 x2 : Vec F S4x512x64 .bf16) :
    Σ' (LA : List (View.Piece (Elt F) S4x1024x64 .f32)) (LM : List (View.Piece (Elt F) S4x1024x1 .f32)), { LL : List (View.Piece (Elt F) S4x1024x1 .f32) //
      ∀ (xo : Vec F S4x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo
                ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%da, %fa, -, HA⟩, ⟨%dm, %fm, -, HM⟩, ⟨%dl, %fl, -, HL⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]; · iexists _; iexact HA
    isplitl [HM]; · iexists _; iexact HM
    iexists _; iexact HL

end Cert.Kernel.Hand

end
-- ==== Proof.FlashRunBK.lean ====
/-
  The attention body at a MIDDLE key/value block of a query tile: one step of the running softmax from what the block before left in the scratch accumulators; the output window is left untouched.
-/
import proofs.«134109_j88158498718071_2_alg».proof.Proof.FlashRunAK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, on whole memrefs: the three input windows at their contents are handed back as
    they were; each scratch accumulator ends with the pieces the body stored into it (found by running the body,
    last store first). The conditionals are decided by the case's hypotheses. -/
noncomputable def runMiddle (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i)
    (x0 : Vec F S4x1024x64 .bf16) (x1 x2 : Vec F S4x512x64 .bf16) (sa : Vec F S4x1024x64 .f32) (sm sl : Vec F S4x1024x1 .f32) :
    Σ' (LA : List (View.Piece (Elt F) S4x1024x64 .f32)) (LM : List (View.Piece (Elt F) S4x1024x1 .f32)), { LL : List (View.Piece (Elt F) S4x1024x1 .f32) //
      ∀ (xo : Vec F S4x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare sa ∗ owns (c : Thread nD τ) arg7 fullShare sm ∗ owns (c : Thread nD τ) arg8 fullShare sl
            ∗ (iprop(owns (c : Thread nD τ) arg2 fullShare x0 ∗ owns (c : Thread nD τ) arg3 fullShare x1 ∗ owns (c : Thread nD τ) arg4 fullShare x2 ∗ owns (c : Thread nD τ) arg5 fullShare xo
                ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fa, %hfa, HA⟩, ⟨%fm, %hfm, HM⟩, ⟨%fl, %hfl, HL⟩, Hk⟩
    obtain rfl := harg2.eq_unread hf0; obtain rfl := harg3.eq_unread hf1; obtain rfl := harg4.eq_unread hf2; obtain rfl := harg5.eq_unread hf3; obtain rfl := harg6.eq_unread hfa; obtain rfl := harg7.eq_unread hfm; obtain rfl := harg8.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HA]; · iexists _; iexact HA
    isplitl [HM]; · iexists _; iexact HM
    iexists _; iexact HL

end Cert.Kernel.Hand

end
-- ==== Proof.FlashRunCK.lean ====
/-
  The attention body at the LAST key/value block of a query tile: one step of the running softmax from what the block before left, then the output tile is stored: the weighted sum divided by the normaliser.
-/
import proofs.«134109_j88158498718071_2_alg».proof.Proof.FlashRunBK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, on whole memrefs: the three input windows at their contents are handed back as
    they were; each scratch accumulator ends with the pieces the body stored into it (found by running the body,
    last store first). The conditionals are decided by the case's hypotheses. -/
noncomputable def runLast (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i)
    (x0 : Vec F S4x1024x64 .bf16) (x1 x2 : Vec F S4x512x64 .bf16) (sa : Vec F S4x1024x64 .f32) (sm sl : Vec F S4x1024x1 .f32) :
    Σ' (LO : List (View.Piece (Elt F) S4x1024x64 .f32)) (LA : List (View.Piece (Elt F) S4x1024x64 .f32)) (LM : List (View.Piece (Elt F) S4x1024x1 .f32)), { LL : List (View.Piece (Elt F) S4x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare sa ∗ owns (c : Thread nD τ) arg7 fullShare sm ∗ owns (c : Thread nD τ) arg8 fullShare sl
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fa, %hfa, HA⟩, ⟨%fm, %hfm, HM⟩, ⟨%fl, %hfl, HL⟩, Hk⟩
    obtain rfl := harg2.eq_unread hf0; obtain rfl := harg3.eq_unread hf1; obtain rfl := harg4.eq_unread hf2; obtain rfl := harg6.eq_unread hfa; obtain rfl := harg7.eq_unread hfm; obtain rfl := harg8.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HA]; · iexists _; iexact HA
    isplitl [HM]; · iexists _; iexact HM
    iexists _; iexact HL

end Cert.Kernel.Hand

end
-- ==== Proof.FlashDataK.lean ====
/-
  The attention region point by point: what the three scratch accumulators hold after each grid point, by
  recursion on the point (a tile's first block starts from the reset values whatever was there before, every other
  block from what the block before left), the region's invariant carrying those contents from point to point, the
  proof data of the pipeline and the body's obligation at every point. For any float instance.
-/
import proofs.«134109_j88158498718071_2_alg».proof.Proof.FlashRunCK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they go to -/

theorem coverFirst_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) (y : S4x1024x64.Idx) :
    ∃ pc ∈ (runFirst c i arg2 harg2 arg3 harg3 arg4 harg4 arg5 harg5 arg6 harg6 arg7 harg7 arg8 harg8 hc0 hc1 x0 x1 x2).1, y ∈ pc.1.set :=
  View.cover_of_tiledL _ S4x1024x64.size (by sl_kernel_rfl) y
theorem coverFirst_mx (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) (y : S4x1024x1.Idx) :
    ∃ pc ∈ (runFirst c i arg2 harg2 arg3 harg3 arg4 harg4 arg5 harg5 arg6 harg6 arg7 harg7 arg8 harg8 hc0 hc1 x0 x1 x2).2.1, y ∈ pc.1.set :=
  View.cover_of_tiledL _ S4x1024x1.size (by sl_kernel_rfl) y
theorem coverFirst_ls (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) (y : S4x1024x1.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL _ S4x1024x1.size (by sl_kernel_rfl) y

theorem coverMiddle_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) (y : S4x1024x64.Idx) :
    ∃ pc ∈ (runMiddle c i arg2 harg2 arg3 harg3 arg4 harg4 arg5 harg5 arg6 harg6 arg7 harg7 arg8 harg8 hc0 hc1 x0 x1 x2 sa sm sl).1, y ∈ pc.1.set :=
  View.cover_of_tiledL _ S4x1024x64.size (by sl_kernel_rfl) y
theorem coverMiddle_mx (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) (y : S4x1024x1.Idx) :
    ∃ pc ∈ (runMiddle c i arg2 harg2 arg3 harg3 arg4 harg4 arg5 harg5 arg6 harg6 arg7 harg7 arg8 harg8 hc0 hc1 x0 x1 x2 sa sm sl).2.1, y ∈ pc.1.set :=
  View.cover_of_tiledL _ S4x1024x1.size (by sl_kernel_rfl) y
theorem coverMiddle_ls (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) (y : S4x1024x1.Idx) :
    ∃ pc ∈ (runMiddle c i arg2 harg2 arg3 harg3 arg4 harg4 arg5 harg5 arg6 harg6 arg7 harg7 arg8 harg8 hc0 hc1 x0 x1 x2 sa sm sl).2.2.1, y ∈ pc.1.set :=
  View.cover_of_tiledL _ S4x1024x1.size (by sl_kernel_rfl) y

theorem coverLast_out (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) (y : S4x1024x64.Idx) :
    ∃ pc ∈ (runLast c i arg2 harg2 arg3 harg3 arg4 harg4 arg5 harg5 arg6 harg6 arg7 harg7 arg8 harg8 hc0 hc1 x0 x1 x2 sa sm sl).1, y ∈ pc.1.set :=
  View.cover_of_tiledL _ S4x1024x64.size (by sl_kernel_rfl) y
theorem coverLast_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) (y : S4x1024x64.Idx) :
    ∃ pc ∈ (runLast c i arg2 harg2 arg3 harg3 arg4 harg4 arg5 harg5 arg6 harg6 arg7 harg7 arg8 harg8 hc0 hc1 x0 x1 x2 sa sm sl).2.1, y ∈ pc.1.set :=
  View.cover_of_tiledL _ S4x1024x64.size (by sl_kernel_rfl) y
theorem coverLast_mx (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) (y : S4x1024x1.Idx) :
    ∃ pc ∈ (runLast c i arg2 harg2 arg3 harg3 arg4 harg4 arg5 harg5 arg6 harg6 arg7 harg7 arg8 harg8 hc0 hc1 x0 x1 x2 sa sm sl).2.2.1, y ∈ pc.1.set :=
  View.cover_of_tiledL _ S4x1024x1.size (by sl_kernel_rfl) y
theorem coverLast_ls (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) (y : S4x1024x1.Idx) :
    ∃ pc ∈ (runLast c i arg2 harg2 arg3 harg3 arg4 harg4 arg5 harg5 arg6 harg6 arg7 harg7 arg8 harg8 hc0 hc1 x0 x1 x2 sa sm sl).2.2.2.1, y ∈ pc.1.set :=
  View.cover_of_tiledL _ S4x1024x1.size (by sl_kernel_rfl) y

section Region1
variable (V : (c : Dev nD) → (b : Ref sig .tc) → Buf (Elt F) ((c : Thread nD τ).loc b))

/-! ## The runs at a grid point -/

/-- The first-block run at point t, on the point's memrefs and blocks. -/
def firstAt (c : Dev nD) (t : Fin cfg1.N) (h0 : t.val % 8 = 0) (h1 : ¬t.val % 8 = 7) :=
  runFirst (F := F) c (grid1.coords t) (qM t) (qW t) (kM t) (kW t) (vM t) (vW t) (oM t) (oW t) accM (Memref.isWhole_whole _) mxM (Memref.isWhole_whole _) lsM (Memref.isWhole_whole _) ((isFirst_iff t).mpr h0) (fun h => h1 ((isLast_iff t).mp h)) (blk1 V c 0 t) (blk1 V c 1 t) (blk1 V c 2 t)
/-- The middle-block run at point t, from the scratch contents (sa, sm, sl). -/
def middleAt (c : Dev nD) (t : Fin cfg1.N) (h0 : ¬t.val % 8 = 0) (h1 : ¬t.val % 8 = 7) (sa : Vec F S4x1024x64 .f32) (sm sl : Vec F S4x1024x1 .f32) :=
  runMiddle (F := F) c (grid1.coords t) (qM t) (qW t) (kM t) (kW t) (vM t) (vW t) (oM t) (oW t) accM (Memref.isWhole_whole _) mxM (Memref.isWhole_whole _) lsM (Memref.isWhole_whole _) (fun h => h0 ((isFirst_iff t).mp h)) (fun h => h1 ((isLast_iff t).mp h)) (blk1 V c 0 t) (blk1 V c 1 t) (blk1 V c 2 t) sa sm sl
/-- The last-block run at point t, from the scratch contents (sa, sm, sl). -/
def lastAt (c : Dev nD) (t : Fin cfg1.N) (h0 : ¬t.val % 8 = 0) (h1 : t.val % 8 = 7) (sa : Vec F S4x1024x64 .f32) (sm sl : Vec F S4x1024x1 .f32) :=
  runLast (F := F) c (grid1.coords t) (qM t) (qW t) (kM t) (kW t) (vM t) (vW t) (oM t) (oW t) accM (Memref.isWhole_whole _) mxM (Memref.isWhole_whole _) lsM (Memref.isWhole_whole _) (fun h => h0 ((isFirst_iff t).mp h)) ((isLast_iff t).mpr h1) (blk1 V c 0 t) (blk1 V c 1 t) (blk1 V c 2 t) sa sm sl

/-! ## What the scratch accumulators hold after each point -/

/-- The weighted sum, the running maximum and the running normaliser after point n. -/
def stAt (c : Dev nD) : (n : ℕ) → n < cfg1.N → Vec F S4x1024x64 .f32 × Vec F S4x1024x1 .f32 × Vec F S4x1024x1 .f32
  | 0, hn =>
    (View.canon (firstAt V c ⟨0, hn⟩ (Nat.zero_mod _) (fun h => by (try dsimp only at h); omega)).1,
     View.canon (firstAt V c ⟨0, hn⟩ (Nat.zero_mod _) (fun h => by (try dsimp only at h); omega)).2.1,
     View.canon (firstAt V c ⟨0, hn⟩ (Nat.zero_mod _) (fun h => by (try dsimp only at h); omega)).2.2.1)
  | n + 1, hn =>
    if h0 : (n + 1) % 8 = 0 then
      (View.canon (firstAt V c ⟨n + 1, hn⟩ h0 (fun h => by (try dsimp only at h0 h); omega)).1,
       View.canon (firstAt V c ⟨n + 1, hn⟩ h0 (fun h => by (try dsimp only at h0 h); omega)).2.1,
       View.canon (firstAt V c ⟨n + 1, hn⟩ h0 (fun h => by (try dsimp only at h0 h); omega)).2.2.1)
    else if h1 : (n + 1) % 8 = 7 then
      (View.canon (lastAt V c ⟨n + 1, hn⟩ h0 h1 (stAt c n (Nat.lt_of_succ_lt hn)).1 (stAt c n (Nat.lt_of_succ_lt hn)).2.1 (stAt c n (Nat.lt_of_succ_lt hn)).2.2).2.1,
       View.canon (lastAt V c ⟨n + 1, hn⟩ h0 h1 (stAt c n (Nat.lt_of_succ_lt hn)).1 (stAt c n (Nat.lt_of_succ_lt hn)).2.1 (stAt c n (Nat.lt_of_succ_lt hn)).2.2).2.2.1,
       View.canon (lastAt V c ⟨n + 1, hn⟩ h0 h1 (stAt c n (Nat.lt_of_succ_lt hn)).1 (stAt c n (Nat.lt_of_succ_lt hn)).2.1 (stAt c n (Nat.lt_of_succ_lt hn)).2.2).2.2.2.1)
    else
      (View.canon (middleAt V c ⟨n + 1, hn⟩ h0 h1 (stAt c n (Nat.lt_of_succ_lt hn)).1 (stAt c n (Nat.lt_of_succ_lt hn)).2.1 (stAt c n (Nat.lt_of_succ_lt hn)).2.2).1,
       View.canon (middleAt V c ⟨n + 1, hn⟩ h0 h1 (stAt c n (Nat.lt_of_succ_lt hn)).1 (stAt c n (Nat.lt_of_succ_lt hn)).2.1 (stAt c n (Nat.lt_of_succ_lt hn)).2.2).2.1,
       View.canon (middleAt V c ⟨n + 1, hn⟩ h0 h1 (stAt c n (Nat.lt_of_succ_lt hn)).1 (stAt c n (Nat.lt_of_succ_lt hn)).2.1 (stAt c n (Nat.lt_of_succ_lt hn)).2.2).2.2.1)

/-- The scratch contents the point before t left (t not the first point of the grid). -/
abbrev prevSt (c : Dev nD) (t : Fin cfg1.N) : Vec F S4x1024x64 .f32 × Vec F S4x1024x1 .f32 × Vec F S4x1024x1 .f32 :=
  stAt V c (t.val - 1) (Nat.lt_of_le_of_lt (Nat.sub_le _ _) t.isLt)

theorem stAt_first (c : Dev nD) (t : Fin cfg1.N) (h0 : t.val % 8 = 0) (h1 : ¬t.val % 8 = 7) :
    stAt V c t.val t.isLt = (View.canon (firstAt V c t h0 h1).1, View.canon (firstAt V c t h0 h1).2.1, View.canon (firstAt V c t h0 h1).2.2.1) := by
  obtain ⟨n, hn⟩ := t
  cases n with
  | zero => exact rfl
  | succ n => exact (dif_pos h0).trans rfl

theorem stAt_middle (c : Dev nD) (t : Fin cfg1.N) (h0 : ¬t.val % 8 = 0) (h1 : ¬t.val % 8 = 7) :
    stAt V c t.val t.isLt = (View.canon (middleAt V c t h0 h1 (prevSt V c t).1 (prevSt V c t).2.1 (prevSt V c t).2.2).1,
      View.canon (middleAt V c t h0 h1 (prevSt V c t).1 (prevSt V c t).2.1 (prevSt V c t).2.2).2.1,
      View.canon (middleAt V c t h0 h1 (prevSt V c t).1 (prevSt V c t).2.1 (prevSt V c t).2.2).2.2.1) := by
  obtain ⟨n, hn⟩ := t
  cases n with
  | zero => exact (by exfalso; (try dsimp only at h0); exact absurd (Nat.zero_mod _) h0)
  | succ n => exact (dif_neg h0).trans ((dif_neg h1).trans rfl)

theorem stAt_last (c : Dev nD) (t : Fin cfg1.N) (h0 : ¬t.val % 8 = 0) (h1 : t.val % 8 = 7) :
    stAt V c t.val t.isLt = (View.canon (lastAt V c t h0 h1 (prevSt V c t).1 (prevSt V c t).2.1 (prevSt V c t).2.2).2.1,
      View.canon (lastAt V c t h0 h1 (prevSt V c t).1 (prevSt V c t).2.1 (prevSt V c t).2.2).2.2.1,
      View.canon (lastAt V c t h0 h1 (prevSt V c t).1 (prevSt V c t).2.1 (prevSt V c t).2.2).2.2.2.1) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after point t: at a tile's last block the stored tile; elsewhere
    nothing is stored (the window is idle there and this value is never consulted). -/
def outAt (c : Dev nD) (t : Fin cfg1.N) : Vec F S4x1024x64 .f32 :=
  if h1 : t.val % 8 = 7 then
    View.canon (lastAt V c t (fun h => by omega) h1 (prevSt V c t).1 (prevSt V c t).2.1 (prevSt V c t).2.2).1
  else View.canon []

theorem outAt_last (c : Dev nD) (t : Fin cfg1.N) (h0 : ¬t.val % 8 = 0) (h1 : t.val % 8 = 7) :
    outAt V c t = View.canon (lastAt V c t h0 h1 (prevSt V c t).1 (prevSt V c t).2.1 (prevSt V c t).2.2).1 := by
  unfold outAt; exact dif_pos h1

/-! ## The region's invariant -/

/-- Before point n: at the very first point the class invariant (every scratch at anything); afterwards the three
    accumulators at what point n − 1 left, the other scoped buffers at anything, the generator register at some state. -/
def PhiF (c : Dev nD) : (n : ℕ) → n ≤ cfg1.N → sProp 𝕄
  | 0, _ => Pipeline.ΦA spec1 c
  | n + 1, hn => iprop(Others c ∗ owns (c : Thread nD τ) accM fullShare (stAt V c n hn).1 ∗ owns (c : Thread nD τ) mxM fullShare (stAt V c n hn).2.1
      ∗ owns (c : Thread nD τ) lsM fullShare (stAt V c n hn).2.2 ∗ (∃ r, prngReg c r))

theorem PhiF_zero (c : Dev nD) (n : ℕ) (h : n ≤ cfg1.N) (hz : n = 0) : PhiF V c n h = Pipeline.ΦA spec1 c := by
  subst hz; rfl

theorem PhiF_succ (c : Dev nD) (n : ℕ) (hn : n < cfg1.N) :
    PhiF V c (n + 1) hn = iprop(Others c ∗ owns (c : Thread nD τ) accM fullShare (stAt V c n hn).1 ∗ owns (c : Thread nD τ) mxM fullShare (stAt V c n hn).2.1
      ∗ owns (c : Thread nD τ) lsM fullShare (stAt V c n hn).2.2 ∗ (∃ r, prngReg c r)) := rfl

theorem PhiF_pos (c : Dev nD) (n : ℕ) (h : n ≤ cfg1.N) (hz : n ≠ 0) :
    PhiF V c n h = iprop(Others c ∗ owns (c : Thread nD τ) accM fullShare (stAt V c (n - 1) (by omega)).1 ∗ owns (c : Thread nD τ) mxM fullShare (stAt V c (n - 1) (by omega)).2.1
      ∗ owns (c : Thread nD τ) lsM fullShare (stAt V c (n - 1) (by omega)).2.2 ∗ (∃ r, prngReg c r)) := by
  cases n with
  | zero => exact absurd rfl hz
  | succ n => rfl

/-! ## The pipeline's proof data -/

/-- The arrays as the region finds them; after the body each input window's buffer at its block, the output's at
    `outAt`; the invariant `PhiF`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt V c t
  Φ t := PhiF V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiF_castSucc (c : Dev nD) (t : Fin cfg1.N) :
    (dat1 V c).Φ t.castSucc = PhiF V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem before1_2 (c : Dev nD) (t : Fin cfg1.N) (d) : (dat1 V c).before 2 t d = blk1 V c 2 t :=
  found1_2 V (dat1 V c) (A_eq1 V c 2) (after1_2 V c) t d

end Region1

end Cert.Kernel.Hand

end
-- ==== Proof.FlashBodyK.lean ====
/-
  The attention body meets its obligation at every grid point: at a tile's first block the invariant hands the body
  the three accumulators at whatever they hold (the body resets them), at every other block at what the block before
  left; the body gives them back at this point's contents. The output window is handed back untouched except at a
  tile's last block, where it holds the stored tile. For any float instance.
-/
import proofs.«134109_j88158498718071_2_alg».proof.Proof.FlashDataK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (qM t) fullShare ((dat1 V c).before 0 t d))
    ∗ (∃ d, owns (c : Thread nD τ) (kM t) fullShare ((dat1 V c).before 1 t d))
    ∗ (∃ d, owns (c : Thread nD τ) (vM t) fullShare ((dat1 V c).before 2 t d))
    ∗ (∃ d, owns (c : Thread nD τ) (oM t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiF V c (t.val + 1) t.isLt from rfl, PhiF_succ]
  have hN : t.val < 32 := lt_of_lt_of_eq t.isLt (show cfg1.N = 32 from N_1)
  by_cases h0 : t.val % 8 = 0
  · have h1 : ¬t.val % 8 = 7 := by omega
    rw [show (dat1 V c).leavesExact 0 t = owns (c : Thread nD τ) (qM t) fullShare ((dat1 V c).after 0 t) from by
      unfold Dat.leavesExact; rw [live1_0 t], after1_0]
    rw [show (dat1 V c).leavesExact 1 t = owns (c : Thread nD τ) (kM t) fullShare ((dat1 V c).after 1 t) from by
      unfold Dat.leavesExact; rw [live1_1 t], after1_1]
    rw [show (dat1 V c).leavesExact 2 t = owns (c : Thread nD τ) (vM t) fullShare ((dat1 V c).after 2 t) from by
      unfold Dat.leavesExact; rw [live1_2 t], after1_2]
    rw [Dat.leavesExact_idle (dat1 V c) 3 t (idle1_3 t (fun h => h1 ((isLast_iff t).mp h))) (noFlush1_3 t (fun h => h1 ((isLast_iff t).mp h)))]
    rw [stAt_first V c t h0 h1]
    unfold firstAt; (try dsimp only)
    by_cases hz : t.val = 0
    · rw [PhiF_castSucc V c t, PhiF_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨Hoth, HA, HM, HL, Hg⟩
      iapply ((runFirst c (grid1.coords t) _ _ _ _ _ _ _ _ _ _ _ _ _ _ ((isFirst_iff t).mpr h0) (fun h => h1 ((isLast_iff t).mp h)) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HA]; · iexact HA
      isplitl [HM]; · iexact HM
      isplitl [HL]; · iexact HL
      iintro ⟨H0, H1, H2, H3, ⟨%ea, HA⟩, ⟨%em, HM⟩, ⟨%el, HL⟩⟩
      isplitl [Hoth HA HM HL Hg]
      · isplitl [Hoth]; · iexact Hoth
        isplitl [HA]
        · unfold owns; iexists _; isplitr
          swap; · iexact HA
          ipureintro; exact View.read_writes_eq_canon _ _ _ (coverFirst_acc c _ _ _ _ _ _ _ _ _ _ _ _ _ _ _ _ _ _ _ _)
        isplitl [HM]
        · unfold owns; iexists _; isplitr
          swap; · iexact HM
          ipureintro; exact View.read_writes_eq_canon _ _ _ (coverFirst_mx c _ _ _ _ _ _ _ _ _ _ _ _ _ _ _ _ _ _ _ _)
        isplitl [HL]
        · unfold owns; iexists _; isplitr
          swap; · iexact HL
          ipureintro; exact View.read_writes_eq_canon _ _ _ (coverFirst_ls c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiF_castSucc V c t, PhiF_pos V c _ _ hz]
      iintro ⟨⟨Hoth, HA, HM, HL, Hg⟩, Ho, ⟨%d0, H0⟩, ⟨%d1, H1⟩, ⟨%d2, H2⟩, ⟨%d3, H3⟩⟩
      iapply ((runFirst c (grid1.coords t) _ _ _ _ _ _ _ _ _ _ _ _ _ _ ((isFirst_iff t).mpr h0) (fun h => h1 ((isLast_iff t).mp h)) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HA]; · iexists _; iexact HA
      isplitl [HM]; · iexists _; iexact HM
      isplitl [HL]; · iexists _; iexact HL
      iintro ⟨H0, H1, H2, H3, ⟨%ea, HA⟩, ⟨%em, HM⟩, ⟨%el, HL⟩⟩
      isplitl [Hoth HA HM HL Hg]
      · isplitl [Hoth]; · iexact Hoth
        isplitl [HA]
        · unfold owns; iexists _; isplitr
          swap; · iexact HA
          ipureintro; exact View.read_writes_eq_canon _ _ _ (coverFirst_acc c _ _ _ _ _ _ _ _ _ _ _ _ _ _ _ _ _ _ _ _)
        isplitl [HM]
        · unfold owns; iexists _; isplitr
          swap; · iexact HM
          ipureintro; exact View.read_writes_eq_canon _ _ _ (coverFirst_mx c _ _ _ _ _ _ _ _ _ _ _ _ _ _ _ _ _ _ _ _)
        isplitl [HL]
        · unfold owns; iexists _; isplitr
          swap; · iexact HL
          ipureintro; exact View.read_writes_eq_canon _ _ _ (coverFirst_ls c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 0 t = owns (c : Thread nD τ) (qM t) fullShare ((dat1 V c).after 0 t) from by
        unfold Dat.leavesExact; rw [live1_0 t], after1_0]
      rw [show (dat1 V c).leavesExact 1 t = owns (c : Thread nD τ) (kM t) fullShare ((dat1 V c).after 1 t) from by
        unfold Dat.leavesExact; rw [live1_1 t], after1_1]
      rw [show (dat1 V c).leavesExact 2 t = owns (c : Thread nD τ) (vM t) fullShare ((dat1 V c).after 2 t) from by
        unfold Dat.leavesExact; rw [live1_2 t], after1_2]
      rw [show (dat1 V c).leavesExact 3 t = owns (c : Thread nD τ) (oM t) fullShare ((dat1 V c).after 3 t) from by
        unfold Dat.leavesExact; rw [live1_3 t ((isLast_iff t).mpr h1)], after1_3]
      rw [stAt_last V c t h0 h1, outAt_last V c t h0 h1]
      unfold lastAt; (try dsimp only)
      rw [PhiF_castSucc V c t, PhiF_pos V c _ _ hz]
      iintro ⟨⟨Hoth, HA, HM, HL, Hg⟩, Ho, ⟨%d0, H0⟩, ⟨%d1, H1⟩, ⟨%d2, H2⟩, ⟨%d3, H3⟩⟩
      iapply ((runLast c (grid1.coords t) _ _ _ _ _ _ _ _ _ _ _ _ _ _ (fun h => h0 ((isFirst_iff t).mp h)) ((isLast_iff t).mpr h1) (blk1 V c 0 t) (blk1 V c 1 t) (blk1 V c 2 t) _ _ _).2.2.2.2 Set.univ _)
      isplitl [H0]; · iexact H0
      isplitl [H1]; · iexact H1
      isplitl [H2]; · iexact H2
      isplitl [H3]; · iexists _; iexact H3
      isplitl [HA]; · iexact HA
      isplitl [HM]; · iexact HM
      isplitl [HL]; · iexact HL
      iintro ⟨H0, H1, H2, ⟨%eo, H3⟩, ⟨%ea, HA⟩, ⟨%em, HM⟩, ⟨%el, HL⟩⟩
      isplitl [Hoth HA HM HL Hg]
      · isplitl [Hoth]; · iexact Hoth
        isplitl [HA]
        · unfold owns; iexists _; isplitr
          swap; · iexact HA
          ipureintro; exact View.read_writes_eq_canon _ _ _ (coverLast_acc c _ _ _ _ _ _ _ _ _ _ _ _ _ _ _ _ _ _ _ _ _ _ _)
        isplitl [HM]
        · unfold owns; iexists _; isplitr
          swap; · iexact HM
          ipureintro; exact View.read_writes_eq_canon _ _ _ (coverLast_mx c _ _ _ _ _ _ _ _ _ _ _ _ _ _ _ _ _ _ _ _ _ _ _)
        isplitl [HL]
        · unfold owns; iexists _; isplitr
          swap; · iexact HL
          ipureintro; exact View.read_writes_eq_canon _ _ _ (coverLast_ls c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLast_out c _ _ _ _ _ _ _ _ _ _ _ _ _ _ _ _ _ _ _ _ _ _ _)
    · rw [show (dat1 V c).leavesExact 0 t = owns (c : Thread nD τ) (qM t) fullShare ((dat1 V c).after 0 t) from by
        unfold Dat.leavesExact; rw [live1_0 t], after1_0]
      rw [show (dat1 V c).leavesExact 1 t = owns (c : Thread nD τ) (kM t) fullShare ((dat1 V c).after 1 t) from by
        unfold Dat.leavesExact; rw [live1_1 t], after1_1]
      rw [show (dat1 V c).leavesExact 2 t = owns (c : Thread nD τ) (vM t) fullShare ((dat1 V c).after 2 t) from by
        unfold Dat.leavesExact; rw [live1_2 t], after1_2]
      rw [Dat.leavesExact_idle (dat1 V c) 3 t (idle1_3 t (fun h => h1 ((isLast_iff t).mp h))) (noFlush1_3 t (fun h => h1 ((isLast_iff t).mp h)))]
      rw [stAt_middle V c t h0 h1]
      unfold middleAt; (try dsimp only)
      rw [PhiF_castSucc V c t, PhiF_pos V c _ _ hz]
      iintro ⟨⟨Hoth, HA, HM, HL, Hg⟩, Ho, ⟨%d0, H0⟩, ⟨%d1, H1⟩, ⟨%d2, H2⟩, ⟨%d3, H3⟩⟩
      iapply ((runMiddle c (grid1.coords t) _ _ _ _ _ _ _ _ _ _ _ _ _ _ (fun h => h0 ((isFirst_iff t).mp h)) (fun h => h1 ((isLast_iff t).mp h)) (blk1 V c 0 t) (blk1 V c 1 t) (blk1 V c 2 t) _ _ _).2.2.2 _ Set.univ _)
      isplitl [H0]; · iexact H0
      isplitl [H1]; · iexact H1
      isplitl [H2]; · iexact H2
      isplitl [H3]; · iexact H3
      isplitl [HA]; · iexact HA
      isplitl [HM]; · iexact HM
      isplitl [HL]; · iexact HL
      iintro ⟨H0, H1, H2, H3, ⟨%ea, HA⟩, ⟨%em, HM⟩, ⟨%el, HL⟩⟩
      isplitl [Hoth HA HM HL Hg]
      · isplitl [Hoth]; · iexact Hoth
        isplitl [HA]
        · unfold owns; iexists _; isplitr
          swap; · iexact HA
          ipureintro; exact View.read_writes_eq_canon _ _ _ (coverMiddle_acc c _ _ _ _ _ _ _ _ _ _ _ _ _ _ _ _ _ _ _ _ _ _ _)
        isplitl [HM]
        · unfold owns; iexists _; isplitr
          swap; · iexact HM
          ipureintro; exact View.read_writes_eq_canon _ _ _ (coverMiddle_mx c _ _ _ _ _ _ _ _ _ _ _ _ _ _ _ _ _ _ _ _ _ _ _)
        isplitl [HL]
        · unfold owns; iexists _; isplitr
          swap; · iexact HL
          ipureintro; exact View.read_writes_eq_canon _ _ _ (coverMiddle_ls c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiF V c 0 (Nat.zero_le _) from rfl, PhiF_zero V c 0 _ rfl]

/-- After the last point the invariant gives the class invariant back: the accumulators' contents are forgotten. -/
theorem hout1 (c : Dev nD) : (dat1 V c).Φ (Fin.last cfg1.N) ⊢ Pipeline.ΦA spec1 c := by
  rw [show (dat1 V c).Φ (Fin.last cfg1.N) = PhiF V c (Fin.last cfg1.N).val (Nat.le_of_lt_succ (Fin.last cfg1.N).isLt) from rfl,
    PhiF_pos V c _ _ (by rw [Fin.val_last]; have : cfg1.N = 32 := N_1; omega)]
  iintro ⟨Hoth, HA, HM, HL, Hg⟩
  iapply (PhiA1_join (F := F) c)
  isplitl [Hoth]; · iexact Hoth
  isplitl [HA]; · iexists _; iexact HA
  isplitl [HM]; · iexists _; iexact HM
  isplitl [HL]; · iexists _; iexact HL
  iexact Hg

end Region1

end Cert.Kernel.Hand

end
-- ==== Proof.AttnRunK.lean ====
/-
  The whole program as four segments — the host operations before the first launch, the projection region, the
  three reshapes, the attention region — with the buffer contents at each boundary written as a fold from the
  launch memory: a host stretch applies its operations, a region replaces its windows' arrays by what its
  write-backs leave and keeps every other buffer. One run of the machine over these segments ends with every
  unscoped buffer at the last boundary's contents; the frame (the arguments end as launched) and the value of the
  result are both read off it. For any float instance.
-/
import proofs.«134109_j88158498718071_2_alg».proof.Proof.Gen.Kernel.Regions
import proofs.«134109_j88158498718071_2_alg».proof.Proof.ProjRegionK
import proofs.«134109_j88158498718071_2_alg».proof.Proof.FlashBodyK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev L0 : Dev nD → Valuation τ sig (Elt F) := fun c b => (s₀ m ρ).mem ((c : Dev nD), b)
/-- After the host operations before the first launch (the projection region's entry). -/
abbrev L1 : Dev nD → Valuation τ sig (Elt F) := fun c => StableHlo.after hostOps0 (L0 m ρ c)
abbrev E1 : (c : Dev nD) → (b : Ref sig .tc) → Buf (Elt F) ((c : Thread nD τ).loc b) := fun c b => L1 m ρ c b
/-- At the projection region's exit: its arrays at what the pipeline leaves, every other buffer as entered. -/
def L2 (c : Dev nD) : Valuation τ sig (Elt F) :=
  Pipeline.withArrays spec0 c (L1 m ρ c) fun w => (dat0 (E1 m ρ) c).arrAt w cfg0.N
theorem L2_arr (c : Dev nD) (w : Fin cfg0.W) :
    L2 m ρ c (Proc.devRef .tc (Pipeline.arrRef spec0 w)) = (dat0 (E1 m ρ) c).arrAt w cfg0.N := by
  unfold L2; exact Pipeline.withArrays_arr spec0 launch0.win.arr_inj c _ _ w
theorem L2_of_ne (c : Dev nD) (b : Ref sig .tc) (hb : ∀ w, Pipeline.arrRef spec0 w ≠ b) :
    L2 m ρ c (Proc.devRef .tc b) = L1 m ρ c (Proc.devRef .tc b) := by
  unfold L2; exact Pipeline.withArrays_of_ne spec0 c _ _ b hb
abbrev E2 : (c : Dev nD) → (b : Ref sig .tc) → Buf (Elt F) ((c : Thread nD τ).loc b) := fun c b => L2 m ρ c b
theorem exit0_arr (c : Dev nD) (w : Fin cfg0.W) : (dat0 (E1 m ρ) c).arrAt w cfg0.N = E2 m ρ c (Pipeline.arrRef spec0 w) :=
  (L2_arr m ρ c w).symm
theorem exit0_rest (c : Dev nD) : ∀ b, b ∉ Finset.univ.image (Pipeline.arrRef spec0) → E2 m ρ c b = E1 m ρ c b :=
  fun b hb => L2_of_ne m ρ c b fun w e => hb (Finset.mem_image.mpr ⟨w, Finset.mem_univ _, e⟩)

/-- After the three reshapes (the attention region's entry). -/
abbrev L3 : Dev nD → Valuation τ sig (Elt F) := fun c => StableHlo.after hostOps1 (L2 m ρ c)
abbrev E3 : (c : Dev nD) → (b : Ref sig .tc) → Buf (Elt F) ((c : Thread nD τ).loc b) := fun c b => L3 m ρ c b
/-- At the attention region's exit. -/
def L4 (c : Dev nD) : Valuation τ sig (Elt F) :=
  Pipeline.withArrays spec1 c (L3 m ρ c) fun w => (dat1 (E3 m ρ) c).arrAt w cfg1.N
theorem L4_arr (c : Dev nD) (w : Fin cfg1.W) :
    L4 m ρ c (Proc.devRef .tc (Pipeline.arrRef spec1 w)) = (dat1 (E3 m ρ) c).arrAt w cfg1.N := by
  unfold L4; exact Pipeline.withArrays_arr spec1 launch1.win.arr_inj c _ _ w
theorem L4_of_ne (c : Dev nD) (b : Ref sig .tc) (hb : ∀ w, Pipeline.arrRef spec1 w ≠ b) :
    L4 m ρ c (Proc.devRef .tc b) = L3 m ρ c (Proc.devRef .tc b) := by
  unfold L4; exact Pipeline.withArrays_of_ne spec1 c _ _ b hb
abbrev E4 : (c : Dev nD) → (b : Ref sig .tc) → Buf (Elt F) ((c : Thread nD τ).loc b) := fun c b => L4 m ρ c b
theorem exit1_arr (c : Dev nD) (w : Fin cfg1.W) : (dat1 (E3 m ρ) c).arrAt w cfg1.N = E4 m ρ c (Pipeline.arrRef spec1 w) :=
  (L4_arr m ρ c w).symm
theorem exit1_rest (c : Dev nD) : ∀ b, b ∉ Finset.univ.image (Pipeline.arrRef spec1) → E4 m ρ c b = E3 m ρ c b :=
  fun b hb => L4_of_ne m ρ c b fun w e => hb (Finset.mem_image.mpr ⟨w, Finset.mem_univ _, e⟩)

/-! ### The arguments end as launched: no host operation writes one and no region stages one -/

theorem L4_main_arg0 (c : Dev nD) : L4 m ρ c (Proc.devRef .tc main_arg0) = m ((c : Thread nD τ).loc main_arg0) :=
  calc L4 m ρ c (Proc.devRef .tc main_arg0)
    _ = L3 m ρ c (Proc.devRef .tc main_arg0) := L4_of_ne m ρ c main_arg0 (by decide)
    _ = L2 m ρ c (Proc.devRef .tc main_arg0) := StableHlo.after_of_writes_sub hostOps1 _ hostOps1_writes (by decide)
    _ = L1 m ρ c (Proc.devRef .tc main_arg0) := L2_of_ne m ρ c main_arg0 (by decide)
    _ = L0 m ρ c (Proc.devRef .tc main_arg0) := StableHlo.after_of_writes_sub hostOps0 _ hostOps0_writes (by decide)
    _ = m ((c : Thread nD τ).loc main_arg0) := rfl
theorem L4_main_arg1 (c : Dev nD) : L4 m ρ c (Proc.devRef .tc main_arg1) = m ((c : Thread nD τ).loc main_arg1) :=
  calc L4 m ρ c (Proc.devRef .tc main_arg1)
    _ = L3 m ρ c (Proc.devRef .tc main_arg1) := L4_of_ne m ρ c main_arg1 (by decide)
    _ = L2 m ρ c (Proc.devRef .tc main_arg1) := StableHlo.after_of_writes_sub hostOps1 _ hostOps1_writes (by decide)
    _ = L1 m ρ c (Proc.devRef .tc main_arg1) := L2_of_ne m ρ c main_arg1 (by decide)
    _ = L0 m ρ c (Proc.devRef .tc main_arg1) := StableHlo.after_of_writes_sub hostOps0 _ hostOps0_writes (by decide)
    _ = m ((c : Thread nD τ).loc main_arg1) := rfl
theorem L4_main_arg2 (c : Dev nD) : L4 m ρ c (Proc.devRef .tc main_arg2) = m ((c : Thread nD τ).loc main_arg2) :=
  calc L4 m ρ c (Proc.devRef .tc main_arg2)
    _ = L3 m ρ c (Proc.devRef .tc main_arg2) := L4_of_ne m ρ c main_arg2 (by decide)
    _ = L2 m ρ c (Proc.devRef .tc main_arg2) := StableHlo.after_of_writes_sub hostOps1 _ hostOps1_writes (by decide)
    _ = L1 m ρ c (Proc.devRef .tc main_arg2) := L2_of_ne m ρ c main_arg2 (by decide)
    _ = L0 m ρ c (Proc.devRef .tc main_arg2) := StableHlo.after_of_writes_sub hostOps0 _ hostOps0_writes (by decide)
    _ = m ((c : Thread nD τ).loc main_arg2) := rfl
theorem L4_main_arg3 (c : Dev nD) : L4 m ρ c (Proc.devRef .tc main_arg3) = m ((c : Thread nD τ).loc main_arg3) :=
  calc L4 m ρ c (Proc.devRef .tc main_arg3)
    _ = L3 m ρ c (Proc.devRef .tc main_arg3) := L4_of_ne m ρ c main_arg3 (by decide)
    _ = L2 m ρ c (Proc.devRef .tc main_arg3) := StableHlo.after_of_writes_sub hostOps1 _ hostOps1_writes (by decide)
    _ = L1 m ρ c (Proc.devRef .tc main_arg3) := L2_of_ne m ρ c main_arg3 (by decide)
    _ = L0 m ρ c (Proc.devRef .tc main_arg3) := StableHlo.after_of_writes_sub hostOps0 _ hostOps0_writes (by decide)
    _ = m ((c : Thread nD τ).loc main_arg3) := rfl

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev noVariants : Variants := Variants.none
/-- No core owes another anything: no level is assigned. -/
abbrev noLevels : GSem nD τ sig → Finset Unit := fun _ => ∅
abbrev noLevel : GSem nD τ sig → Unit → ℕ := fun _ _ => 0
/-- Beside the buffers through every segment: the generator register at some state, and the core owing nothing. -/
abbrev Ride (c : Dev nD) : sProp 𝕄 := iprop((∃ r, prngReg c r) ∗ ∃ W, owes (c : Thread nD τ) (0 : CellTallies nD τ sig Unit) W)
/-- A host stretch as a segment from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (L4 m ρ c) ∗ ∃ r, prngReg c r)

/-! ## The regions as segments -/

set_option backward.isDefEq.respectTransparency.types false in
/-- The projection region: entered from every unscoped buffer at L1, left at L2. -/
def regProj : Pipeline.RegionSeg (pcfgs (F := F)) adm (pdats m ρ) () defs₀ noVariants noLevels noLevel 0 where
  hbody c := (body_obligation0 (E1 m ρ) c).loose
  win := launch0.win.to₀
  block_pos := launch0.block_pos
  stage_whole := launch0.stage_whole
  K := PEmpty
  osem k := k.elim
  ho := Pipeline.OwnSemFacts.none _
  hwaits := Pipeline.hwaits_of_owed_zero _ _ _ _ noLevels noLevel 0 fun _ _ => rfl
  pre c := iprop(StableHlo.held (c : Thread nD τ) (Pipeline.ucRefs τ sig) (L1 m ρ c) ∗ Ride c)
  post c := iprop(StableHlo.held (c : Thread nD τ) (Pipeline.ucRefs τ sig) (L2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at L3, left at L4. Its invariant takes the class
    invariant in at the first point and gives it back after the last. -/
def regFlash : Pipeline.RegionSeg (pcfgs (F := F)) adm (pdats m ρ) () defs₀ noVariants noLevels noLevel 1 where
  hbody c := (body_obligation1 (E3 m ρ) c).loose
  win := launch1.win.to₀
  block_pos := launch1.block_pos
  stage_whole := launch1.stage_whole
  K := PEmpty
  osem k := k.elim
  ho := Pipeline.OwnSemFacts.none _
  hwaits := Pipeline.hwaits_of_owed_zero _ _ _ _ noLevels noLevel 1 fun _ _ => rfl
  pre c := iprop(StableHlo.held (c : Thread nD τ) (Pipeline.ucRefs τ sig) (L3 m ρ c) ∗ Ride c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (E3 m ρ) c)
    unfold Pipeline.ΦA
    iintro ⟨Hp, -, Hr⟩
    isplitl [Hr]; · iexact Hr
    iexact Hp
  hout c := by
    refine (hout1 (E3 m ρ) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segList : List (Pipeline.Seg (pcfgs (F := F)) adm (pdats m ρ) () defs₀ noVariants noLevels noLevel) :=
  [ .host (hostSeg hostOps0 hostOps0_sub hostOps0_fresh (L0 m ρ)),
    .region (regProj m ρ),
    .host (hostSeg hostOps1 hostOps1_sub hostOps1_fresh (L2 m ρ)),
    .region (regFlash m ρ) ]

theorem main_run (c : Dev nD) : main (F := F) c = Pipeline.Seg.run (segList m ρ) := (main_chain c).trans (by chain_rfl)

set_option backward.isDefEq.respectTransparency.types false in
/-- THE RUN: from any memory with zero counters every weakly fair execution of @main terminates, nothing faulting,
    and in the final state every unscoped buffer holds the last boundary's contents L4. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = L4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ noVariants noLevels noLevel m ρ main (segList m ρ)
    (fun c Q => by rw [main_run m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (L0 m ρ c) ∗ Ride c)) (Tₙ := Tend m ρ)
    (hch := ⟨fun _ => .rfl, fun _ => .rfl, fun _ => .rfl, fun _ => .rfl, fun _ => .rfl⟩)
    (hinit := by
      refine Pipeline.initEach noLevels noLevel fun c => ?_
      rw [show unscopedBufs c (fun b => m ((c : Thread nD τ).loc b)) = StableHlo.held (c : Thread nD τ) (Pipeline.ucRefs τ sig) (L0 m ρ c)
        from Pipeline.unscopedBufs_held c (L0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = L4 m ρ c b)
    (hfin := fun c s' => by
      iintro ⟨⟨Hh, -⟩, HSI⟩
      unfold StableHlo.held
      imodintro
      iapply (pointsTo_read_all (Pipeline.ucRefs τ sig) (fun b => (((c : Thread nD τ)).1, b)) (L4 m ρ c) s')
      isplitl [Hh] <;> iassumption)
    (hQ := hQ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_all m ρ fun s h c =>
    ⟨(h c _ (mem_uc main_arg0 (by decide))).trans (L4_main_arg0 m ρ c),
     (h c _ (mem_uc main_arg1 (by decide))).trans (L4_main_arg1 m ρ c),
     (h c _ (mem_uc main_arg2 (by decide))).trans (L4_main_arg2 m ρ c),
     (h c _ (mem_uc main_arg3 (by decide))).trans (L4_main_arg3 m ρ c)⟩

end Cert.Kernel.Hand

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.ProjValue.lean ====
/-
  The value of the projection region at the ideal carrier: after the region, each of its three output arrays is the
  matrix product of the rows array with one weight array, entry by entry, and its input arrays are unchanged.

  The argument has three steps.  (a) At one grid point the body's payload is a product into a zero accumulator of the
  staged blocks (the format changes are the identity on ideal values, the shape casts are between equal shapes), so
  the block written back is the matching block of the product of the whole arrays: the rows block sits at row offset
  1024 · t, the weight blocks and the column offsets are at 0.  (b) Row r of an output lies in the block of point
  r / 1024, so the blocks cover the array.  (c) Hence the array ends holding the product.
-/
import proofs.«134109_j88158498718071_2_alg».proof.Proof.ProjRegion
import proofs.«134109_j88158498718071_2_alg».proof.Proof.LibMatmulPlain
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The offset of a whole-buffer rectangle is zero on both axes. -/
theorem hz2 : (![0, 0] : Fin 2 → Nat) = fun _ => 0 := funext fun a => by fin_cases a <;> rfl

/-- The product of a 16384 × 1024 array with a 1024 × 64 array, entry by entry. -/
def prodArr (a : S16384x1024.Idx → EReal) (w : S1024x64.Idx → EReal) : S16384x64.Idx → EReal :=
  fun i => ∑ e : Fin 1024, a (ix2 (i 0) e) * w (ix2 e (i 1))

/-! ## The payloads at an index -/

/-- The first payload at an index: the product of the two loaded blocks.  The casts are between equal shapes and the
    format changes are the identity on ideal values, so what is left is the product into the zero accumulator. -/
theorem pay2_apply (v0 : Vec Ideal S1024x1024 .f32) (v3 : Vec Ideal S1024x64 .f32) (a : Fin 1024) (b : Fin 64) :
    k0_pay2 v0 v3 (ix2 a b) = ∑ e : Fin 1024, v0 (ix2 a e) * v3 (ix2 e b) := by
  unfold k0_pay2 k0_pay1
  simp only [shapeCast_self]
  exact Cert.LibMatmulPlain.matmul_plain_zero_apply (φ₁ := .bf16) (φ₂ := .bf16) none v0 v3 a b

theorem pay3_apply (v0 : Vec Ideal S1024x1024 .f32) (v6 : Vec Ideal S1024x64 .f32) (a : Fin 1024) (b : Fin 64) :
    k0_pay3 v0 v6 (ix2 a b) = ∑ e : Fin 1024, v0 (ix2 a e) * v6 (ix2 e b) := by
  unfold k0_pay3 k0_pay1
  simp only [shapeCast_self]
  exact Cert.LibMatmulPlain.matmul_plain_zero_apply (φ₁ := .bf16) (φ₂ := .bf16) none v0 v6 a b

theorem pay4_apply (v0 : Vec Ideal S1024x1024 .f32) (v9 : Vec Ideal S1024x64 .f32) (a : Fin 1024) (b : Fin 64) :
    k0_pay4 v0 v9 (ix2 a b) = ∑ e : Fin 1024, v0 (ix2 a e) * v9 (ix2 e b) := by
  unfold k0_pay4 k0_pay1
  simp only [shapeCast_self]
  exact Cert.LibMatmulPlain.matmul_plain_zero_apply (φ₁ := .bf16) (φ₂ := .bf16) none v0 v9 a b

/-! ## Where the blocks sit -/

/-- The index maps over the grid: at point t the rows block and the three output blocks are at block row t, every
    other block coordinate is 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## What a point writes back -/

/-- What point t writes back to output window 4 is block t of the product of the rows array with the weight array of
    input window 1: the rows block sits at row offset 1024 · t of the rows array, as the output block does in the
    output; the weight block is the whole weight array. -/
theorem flushed4_eq (c : Dev nD) (t : Fin cfg0.N) :
    (dat0 V c).flushed 4 t = ((cfg0.win 4).blk t).view.read (Elt Ideal) (prodArr (V c main_v0) (V c main_v3)) := by
  show (cfg0.win 4).cut (grid0.coords t) ((dat0 V c).after 4 t) = _
  rw [after0_4]
  unfold out0_4
  rw [View.canon_unit_zero hz2]
  simp only [View.ld_unit_zero (S := S1024x1024) hz2, View.ld_unit_zero (S := S1024x64) hz2]
  obtain ⟨e00, e01, e10, e11, e20, e21, e30, e31, e40, e41, e50, e51, e60, e61⟩ := idx_facts0 t
  funext j
  obtain ⟨a, b, rfl⟩ : ∃ (a : Fin 1024) (b : Fin 64), j = ix2 a b := ⟨j 0, j 1, eq_ix2 (n0 := 1024) (n1 := 64) j⟩
  show k0_pay2 (iblk0 V c 0 t) (iblk0 V c 1 t) (ix2 a b)
    = prodArr (V c main_v0) (V c main_v3) (((cfg0.win 4).blk t).view.emb (ix2 a b))
  rw [pay2_apply]
  unfold prodArr
  refine Finset.sum_congr rfl fun e _ => ?_
  have h0 : iblk0 V c 0 t (ix2 a e) = V c main_v0 (ix2 (((cfg0.win 4).blk t).view.emb (ix2 a b) 0) e) := by
    show V c main_v0 (((cfg0.win 0).blk t).view.emb (ix2 a e)) = _
    refine congrArg (V c main_v0) ?_
    funext ax; apply Fin.ext
    match ax with
    | ⟨0, _⟩ => show win0_0.index t (0 : Fin 2) * 1024 + 1 * a.val = win0_4.index t (0 : Fin 2) * 1024 + 1 * a.val; omega
    | ⟨1, _⟩ => show win0_0.index t (1 : Fin 2) * 1024 + 1 * e.val = e.val; omega
  have h1 : iblk0 V c 1 t (ix2 e b) = V c main_v3 (ix2 e (((cfg0.win 4).blk t).view.emb (ix2 a b) 1)) := by
    show V c main_v3 (((cfg0.win 1).blk t).view.emb (ix2 e b)) = _
    refine congrArg (V c main_v3) ?_
    funext ax; apply Fin.ext
    match ax with
    | ⟨0, _⟩ => show win0_1.index t (0 : Fin 2) * 1024 + 1 * e.val = e.val; omega
    | ⟨1, _⟩ => show win0_1.index t (1 : Fin 2) * 64 + 1 * b.val = win0_4.index t (1 : Fin 2) * 64 + 1 * b.val; omega
  rw [h0, h1]

/-- What point t writes back to output window 5 is block t of the product of the rows array with the weight array of
    input window 2: the rows block sits at row offset 1024 · t of the rows array, as the output block does in the
    output; the weight block is the whole weight array. -/
theorem flushed5_eq (c : Dev nD) (t : Fin cfg0.N) :
    (dat0 V c).flushed 5 t = ((cfg0.win 5).blk t).view.read (Elt Ideal) (prodArr (V c main_v0) (V c main_v4)) := by
  show (cfg0.win 5).cut (grid0.coords t) ((dat0 V c).after 5 t) = _
  rw [after0_5]
  unfold out0_5
  rw [View.canon_unit_zero hz2]
  simp only [View.ld_unit_zero (S := S1024x1024) hz2, View.ld_unit_zero (S := S1024x64) hz2]
  obtain ⟨e00, e01, e10, e11, e20, e21, e30, e31, e40, e41, e50, e51, e60, e61⟩ := idx_facts0 t
  funext j
  obtain ⟨a, b, rfl⟩ : ∃ (a : Fin 1024) (b : Fin 64), j = ix2 a b := ⟨j 0, j 1, eq_ix2 (n0 := 1024) (n1 := 64) j⟩
  show k0_pay3 (iblk0 V c 0 t) (iblk0 V c 2 t) (ix2 a b)
    = prodArr (V c main_v0) (V c main_v4) (((cfg0.win 5).blk t).view.emb (ix2 a b))
  rw [pay3_apply]
  unfold prodArr
  refine Finset.sum_congr rfl fun e _ => ?_
  have h0 : iblk0 V c 0 t (ix2 a e) = V c main_v0 (ix2 (((cfg0.win 5).blk t).view.emb (ix2 a b) 0) e) := by
    show V c main_v0 (((cfg0.win 0).blk t).view.emb (ix2 a e)) = _
    refine congrArg (V c main_v0) ?_
    funext ax; apply Fin.ext
    match ax with
    | ⟨0, _⟩ => show win0_0.index t (0 : Fin 2) * 1024 + 1 * a.val = win0_5.index t (0 : Fin 2) * 1024 + 1 * a.val; omega
    | ⟨1, _⟩ => show win0_0.index t (1 : Fin 2) * 1024 + 1 * e.val = e.val; omega
  have h1 : iblk0 V c 2 t (ix2 e b) = V c main_v4 (ix2 e (((cfg0.win 5).blk t).view.emb (ix2 a b) 1)) := by
    show V c main_v4 (((cfg0.win 2).blk t).view.emb (ix2 e b)) = _
    refine congrArg (V c main_v4) ?_
    funext ax; apply Fin.ext
    match ax with
    | ⟨0, _⟩ => show win0_2.index t (0 : Fin 2) * 1024 + 1 * e.val = e.val; omega
    | ⟨1, _⟩ => show win0_2.index t (1 : Fin 2) * 64 + 1 * b.val = win0_5.index t (1 : Fin 2) * 64 + 1 * b.val; omega
  rw [h0, h1]

/-- What point t writes back to output window 6 is block t of the product of the rows array with the weight array of
    input window 3: the rows block sits at row offset 1024 · t of the rows array, as the output block does in the
    output; the weight block is the whole weight array. -/
theorem flushed6_eq (c : Dev nD) (t : Fin cfg0.N) :
    (dat0 V c).flushed 6 t = ((cfg0.win 6).blk t).view.read (Elt Ideal) (prodArr (V c main_v0) (V c main_v5)) := by
  show (cfg0.win 6).cut (grid0.coords t) ((dat0 V c).after 6 t) = _
  rw [after0_6]
  unfold out0_6
  rw [View.canon_unit_zero hz2]
  simp only [View.ld_unit_zero (S := S1024x1024) hz2, View.ld_unit_zero (S := S1024x64) hz2]
  obtain ⟨e00, e01, e10, e11, e20, e21, e30, e31, e40, e41, e50, e51, e60, e61⟩ := idx_facts0 t
  funext j
  obtain ⟨a, b, rfl⟩ : ∃ (a : Fin 1024) (b : Fin 64), j = ix2 a b := ⟨j 0, j 1, eq_ix2 (n0 := 1024) (n1 := 64) j⟩
  show k0_pay4 (iblk0 V c 0 t) (iblk0 V c 3 t) (ix2 a b)
    = prodArr (V c main_v0) (V c main_v5) (((cfg0.win 6).blk t).view.emb (ix2 a b))
  rw [pay4_apply]
  unfold prodArr
  refine Finset.sum_congr rfl fun e _ => ?_
  have h0 : iblk0 V c 0 t (ix2 a e) = V c main_v0 (ix2 (((cfg0.win 6).blk t).view.emb (ix2 a b) 0) e) := by
    show V c main_v0 (((cfg0.win 0).blk t).view.emb (ix2 a e)) = _
    refine congrArg (V c main_v0) ?_
    funext ax; apply Fin.ext
    match ax with
    | ⟨0, _⟩ => show win0_0.index t (0 : Fin 2) * 1024 + 1 * a.val = win0_6.index t (0 : Fin 2) * 1024 + 1 * a.val; omega
    | ⟨1, _⟩ => show win0_0.index t (1 : Fin 2) * 1024 + 1 * e.val = e.val; omega
  have h1 : iblk0 V c 3 t (ix2 e b) = V c main_v5 (ix2 e (((cfg0.win 6).blk t).view.emb (ix2 a b) 1)) := by
    show V c main_v5 (((cfg0.win 3).blk t).view.emb (ix2 e b)) = _
    refine congrArg (V c main_v5) ?_
    funext ax; apply Fin.ext
    match ax with
    | ⟨0, _⟩ => show win0_3.index t (0 : Fin 2) * 1024 + 1 * e.val = e.val; omega
    | ⟨1, _⟩ => show win0_3.index t (1 : Fin 2) * 64 + 1 * b.val = win0_6.index t (1 : Fin 2) * 64 + 1 * b.val; omega
  rw [h0, h1]

/-! ## The blocks cover the output arrays -/

/-- An index of the array of output window 4 is in point t's block iff each coordinate is in the block's range. -/
theorem mem_blk4 (t : Fin cfg0.N) (i : S16384x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v6_0).slice (win0_4.rect t)).set ↔ _
  rw [View.set_slice_whole, Rect.mem_set_unit]
  exact Iff.rfl

/-- Every index of that array is in the block of a point that writes back: row r is in the block of point r / 1024. -/
theorem cover4 (i : S16384x64.Idx) : ∃ t : Fin cfg0.N, (cfg0.win 4).flush t = true ∧ i ∈ ((cfg0.win 4).blk t).view.set := by
  have hi0 : (i 0).val < 16384 := (i 0).isLt
  have hi1 : (i 1).val < 64 := (i 1).isLt
  have hN : cfg0.N = 16 := N_0
  have hlt : (i 0).val / 1024 < cfg0.N := by rw [hN]; omega
  obtain ⟨e00, e01, e10, e11, e20, e21, e30, e31, e40, e41, e50, e51, e60, e61⟩ := idx_facts0 ⟨(i 0).val / 1024, hlt⟩
  refine ⟨⟨(i 0).val / 1024, hlt⟩, flush0_4 _, ?_⟩
  rw [mem_blk4]
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win0_4.index ⟨(i 0).val / 1024, hlt⟩ (1 : Fin 2) * 64 ≤ (i 1).val ∧ (i 1).val < win0_4.index ⟨(i 0).val / 1024, hlt⟩ (1 : Fin 2) * 64 + 64
    rw [e41]; omega

/-- An index of the array of output window 5 is in point t's block iff each coordinate is in the block's range. -/
theorem mem_blk5 (t : Fin cfg0.N) (i : S16384x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v6_1).slice (win0_5.rect t)).set ↔ _
  rw [View.set_slice_whole, Rect.mem_set_unit]
  exact Iff.rfl

/-- Every index of that array is in the block of a point that writes back: row r is in the block of point r / 1024. -/
theorem cover5 (i : S16384x64.Idx) : ∃ t : Fin cfg0.N, (cfg0.win 5).flush t = true ∧ i ∈ ((cfg0.win 5).blk t).view.set := by
  have hi0 : (i 0).val < 16384 := (i 0).isLt
  have hi1 : (i 1).val < 64 := (i 1).isLt
  have hN : cfg0.N = 16 := N_0
  have hlt : (i 0).val / 1024 < cfg0.N := by rw [hN]; omega
  obtain ⟨e00, e01, e10, e11, e20, e21, e30, e31, e40, e41, e50, e51, e60, e61⟩ := idx_facts0 ⟨(i 0).val / 1024, hlt⟩
  refine ⟨⟨(i 0).val / 1024, hlt⟩, flush0_5 _, ?_⟩
  rw [mem_blk5]
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win0_5.index ⟨(i 0).val / 1024, hlt⟩ (1 : Fin 2) * 64 ≤ (i 1).val ∧ (i 1).val < win0_5.index ⟨(i 0).val / 1024, hlt⟩ (1 : Fin 2) * 64 + 64
    rw [e51]; omega

/-- An index of the array of output window 6 is in point t's block iff each coordinate is in the block's range. -/
theorem mem_blk6 (t : Fin cfg0.N) (i : S16384x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v6_2).slice (win0_6.rect t)).set ↔ _
  rw [View.set_slice_whole, Rect.mem_set_unit]
  exact Iff.rfl

/-- Every index of that array is in the block of a point that writes back: row r is in the block of point r / 1024. -/
theorem cover6 (i : S16384x64.Idx) : ∃ t : Fin cfg0.N, (cfg0.win 6).flush t = true ∧ i ∈ ((cfg0.win 6).blk t).view.set := by
  have hi0 : (i 0).val < 16384 := (i 0).isLt
  have hi1 : (i 1).val < 64 := (i 1).isLt
  have hN : cfg0.N = 16 := N_0
  have hlt : (i 0).val / 1024 < cfg0.N := by rw [hN]; omega
  obtain ⟨e00, e01, e10, e11, e20, e21, e30, e31, e40, e41, e50, e51, e60, e61⟩ := idx_facts0 ⟨(i 0).val / 1024, hlt⟩
  refine ⟨⟨(i 0).val / 1024, hlt⟩, flush0_6 _, ?_⟩
  rw [mem_blk6]
  intro a
  match a with
  | ⟨0, _⟩ =>
    show win0_6.index ⟨(i 0).val / 1024, hlt⟩ (0 : Fin 2) * 1024 ≤ (i 0).val ∧ (i 0).val < win0_6.index ⟨(i 0).val / 1024, hlt⟩ (0 : Fin 2) * 1024 + 1024
    rw [e60]; show (i 0).val / 1024 * 1024 ≤ (i 0).val ∧ (i 0).val < (i 0).val / 1024 * 1024 + 1024; omega
  | ⟨1, _⟩ =>
    show win0_6.index ⟨(i 0).val / 1024, hlt⟩ (1 : Fin 2) * 64 ≤ (i 1).val ∧ (i 1).val < win0_6.index ⟨(i 0).val / 1024, hlt⟩ (1 : Fin 2) * 64 + 64
    rw [e61]; omega

/-! ## The arrays after the region -/

/-- After the region the array of output window 4 is the product of the rows array with the weight array of input
    window 1, both as the region found them. -/
theorem arr4 (c : Dev nD) : (dat0 V c).arrAt 4 cfg0.N = prodArr (V c main_v0) (V c main_v3) :=
  (dat0 V c).arrAt_eq_of_cover 4 _ (fun t _ => flushed4_eq V c t) cover4

/-- After the region the array of output window 5 is the product of the rows array with the weight array of input
    window 2, both as the region found them. -/
theorem arr5 (c : Dev nD) : (dat0 V c).arrAt 5 cfg0.N = prodArr (V c main_v0) (V c main_v4) :=
  (dat0 V c).arrAt_eq_of_cover 5 _ (fun t _ => flushed5_eq V c t) cover5

/-- After the region the array of output window 6 is the product of the rows array with the weight array of input
    window 3, both as the region found them. -/
theorem arr6 (c : Dev nD) : (dat0 V c).arrAt 6 cfg0.N = prodArr (V c main_v0) (V c main_v5) :=
  (dat0 V c).arrAt_eq_of_cover 6 _ (fun t _ => flushed6_eq V c t) cover6

/-- The product array read at an entry. -/
theorem prodArr_apply (a : S16384x1024.Idx → EReal) (w : S1024x64.Idx → EReal) (r : Fin 16384) (d : Fin 64) :
    prodArr a w (ix2 r d) = ∑ e : Fin 1024, a (ix2 r e) * w (ix2 e d) := rfl

/-- The input arrays are never written back: after any number of points each is as the region found it. -/
theorem arr_in0 (c : Dev nD) (n : Nat) : (dat0 V c).arrAt 0 n = V c main_v0 :=
  ((dat0 V c).arrAt_in 0 rfl n).trans (A_eq0 V c 0)
theorem arr_in1 (c : Dev nD) (n : Nat) : (dat0 V c).arrAt 1 n = V c main_v3 :=
  ((dat0 V c).arrAt_in 1 rfl n).trans (A_eq0 V c 1)
theorem arr_in2 (c : Dev nD) (n : Nat) : (dat0 V c).arrAt 2 n = V c main_v4 :=
  ((dat0 V c).arrAt_in 2 rfl n).trans (A_eq0 V c 2)
theorem arr_in3 (c : Dev nD) (n : Nat) : (dat0 V c).arrAt 3 n = V c main_v5 :=
  ((dat0 V c).arrAt_in 3 rfl n).trans (A_eq0 V c 3)

end Cert.KernelIdeal.Hand

end
-- ==== Proof.LibSoftmaxShift.lean ====
/-
  General lemmas on the softmax over the reals, for kernels that compute it blockwise with a running maximum.

  For scores s : J → ℝ and values v : J → ℝ over a finite index type, the softmax-weighted average is
  (∑ j, exp (s j) · v j) / (∑ j, exp (s j)). Subtracting any real shift r inside every exponential multiplies
  numerator and denominator by exp (−r) and leaves the quotient unchanged (`softmax_shift`); in particular the
  usual row-maximum form, which normalises the weights first, is the same number (`softmax_ref`). A blockwise
  evaluation keeps partial sums at the current shift m; when the shift moves to m', multiplying the partial sums by
  exp (m − m') restates them at the new shift (`exp_rescale`), so adding the next block's sums at m' gives the
  partial sums over both index sets at m' (`online_step`). None of this needs the shift to be the maximum.
-/
import Mathlib.Analysis.SpecialFunctions.Exp
import Mathlib.Algebra.BigOperators.Field
import Mathlib.Algebra.BigOperators.Ring.Finset
import Mathlib.Tactic.Ring

noncomputable section

open scoped BigOperators

namespace Cert.LibSoftmaxShift

/-- Changing the shift of an exponential weight: exp (m − m') · exp (s − m) = exp (s − m'). -/
theorem exp_rescale (m m' s : ℝ) : Real.exp (m - m') * Real.exp (s - m) = Real.exp (s - m') := by
  rw [← Real.exp_add]; congr 1; ring

/-- One step of the running form: the partial sums at shift m over the indices seen so far, rescaled by exp (m − m'),
    plus the new block's sums at shift m', are the partial sums at shift m' over both index sets. With v = 1 this is
    the normaliser's update, with v a column of values the weighted sum's. -/
theorem online_step {J : Type*} [DecidableEq J] (S B : Finset J) (hd : Disjoint S B) (s v : J → ℝ) (m m' : ℝ) :
    Real.exp (m - m') * (∑ j ∈ S, Real.exp (s j - m) * v j) + ∑ j ∈ B, Real.exp (s j - m') * v j
      = ∑ j ∈ S ∪ B, Real.exp (s j - m') * v j := by
  rw [Finset.sum_union hd, Finset.mul_sum]
  congr 1
  exact Finset.sum_congr rfl fun j _ => by rw [← mul_assoc, exp_rescale]

/-- The quotient of the weighted sum by the sum of the weights does not depend on the shift. -/
theorem softmax_shift {J : Type*} [Fintype J] (s v : J → ℝ) (r : ℝ) :
    (∑ j, Real.exp (s j - r) * v j) / (∑ j, Real.exp (s j - r)) = (∑ j, Real.exp (s j) * v j) / ∑ j, Real.exp (s j) := by
  have h1 : ∀ j, Real.exp (s j - r) = Real.exp (s j) * Real.exp (-r) := fun j => by rw [← Real.exp_add]; congr 1
  simp only [h1]
  rw [← Finset.sum_mul, show (∑ j, Real.exp (s j) * Real.exp (-r) * v j) = (∑ j, Real.exp (s j) * v j) * Real.exp (-r) from by
    rw [Finset.sum_mul]; exact Finset.sum_congr rfl fun j _ => by ring]
  rw [mul_div_mul_right _ _ (Real.exp_pos _).ne']

/-- The row-maximum form (any shift r): normalising the weights first and then averaging is the same quotient. -/
theorem softmax_ref {J : Type*} [Fintype J] (s v : J → ℝ) (r : ℝ) :
    ∑ j, (Real.exp (s j - r) / ∑ k, Real.exp (s k - r)) * v j = (∑ j, Real.exp (s j) * v j) / ∑ j, Real.exp (s j) := by
  rw [← softmax_shift s v r, Finset.sum_div]
  exact Finset.sum_congr rfl fun j _ => by ring

end Cert.LibSoftmaxShift

end
-- ==== Proof.Spec.lean ====
/-
  Single-head attention as one function of the argument arrays, over the real numbers.

  For x : [4, 4096, 1024] and three weights W : [64, 1024] put q = x·Wqᵀ, k = x·Wkᵀ, v = x·Wvᵀ (each [4, 4096, 64]),
  the scores s(b, i, j) = (∑ d, q(b,i,d)·k(b,j,d)) / 8 and the result
      out(b, i, d) = (∑ j, exp s(b,i,j) · v(b,j,d)) / (∑ j, exp s(b,i,j)).
  The softmax is written WITHOUT the subtraction of the row maximum: over the reals the quotient does not depend on
  the shift (`softmax_shift`), and both the row-maximum form (`softmax_ref`) and the blockwise running form
  (`online_step`: rescaling the partial sums by exp(m − m') moves them from the shift m to the shift m') reduce to it.
  `G` reads finite extended-real arrays as real arrays (`toReal`) and returns the result as extended reals.
-/
import Idealize.ShloMosaic.PureOps.Ideal
import Idealize.ShloMosaic.Lib.ValueIdx
import proofs.«134109_j88158498718071_2_alg».proof.Proof.LibSoftmaxShift

noncomputable section

open scoped BigOperators

namespace Cert.Attn

open Idealize.ShloMosaic Idealize.ShloMosaic.ValueIdx

/-- The shapes of the argument arrays and of the result. -/
abbrev SX : Shape := ⟨3, ![4, 4096, 1024]⟩
abbrev SW : Shape := ⟨2, ![64, 1024]⟩
abbrev SO : Shape := ⟨3, ![4, 4096, 64]⟩

/-- An array of extended reals all of whose entries are real numbers. -/
def Finite {S : Shape} (x : S.Idx → EReal) : Prop := ∀ i, x i = ((x i).toReal : EReal)

/-- The input read as a real array by coordinates. -/
def rx (x : SX.Idx → EReal) (b : Fin 4) (s : Fin 4096) (e : Fin 1024) : ℝ := (x (ix3 b s e)).toReal
/-- A weight read as a real array by coordinates. -/
def rw (w : SW.Idx → EReal) (d : Fin 64) (e : Fin 1024) : ℝ := (w (ix2 d e)).toReal

/-- A linear projection x·Wᵀ. -/
def proj (x : Fin 4 → Fin 4096 → Fin 1024 → ℝ) (w : Fin 64 → Fin 1024 → ℝ) (b : Fin 4) (s : Fin 4096) (d : Fin 64) : ℝ :=
  ∑ e, x b s e * w d e

/-- The scaled scores q·kᵀ / 8 (8 is the square root of the head dimension 64). -/
def score (q k : Fin 4 → Fin 4096 → Fin 64 → ℝ) (b : Fin 4) (i j : Fin 4096) : ℝ :=
  (∑ d, q b i d * k b j d) / 8

/-- Softmax-weighted average of the rows of v, the weights exp s(b,i,·) normalised. -/
def attn (sc : Fin 4 → Fin 4096 → Fin 4096 → ℝ) (v : Fin 4 → Fin 4096 → Fin 64 → ℝ) (b : Fin 4) (i : Fin 4096) (d : Fin 64) : ℝ :=
  (∑ j, Real.exp (sc b i j) * v b j d) / ∑ j, Real.exp (sc b i j)

/-- The attention head of real arrays. -/
def head (x : Fin 4 → Fin 4096 → Fin 1024 → ℝ) (wq wk wv : Fin 64 → Fin 1024 → ℝ) (b : Fin 4) (i : Fin 4096) (d : Fin 64) : ℝ :=
  attn (score (proj x wq) (proj x wk)) (proj x wv) b i d

/-- The result array as a function of the four argument arrays. -/
def G (x : SX.Idx → EReal) (wq wk wv : SW.Idx → EReal) : SO.Idx → EReal := fun i =>
  ((head (rx x) (rw wq) (rw wk) (rw wv) (i 0) (i 1) (i 2) : ℝ) : EReal)

/-! ## The algebra of the softmax over the reals (the general lemmas, restated here by name) -/

/-- Changing the shift of an exponential weight: exp(m − m')·exp(s − m) = exp(s − m'). -/
theorem exp_rescale (m m' s : ℝ) : Real.exp (m - m') * Real.exp (s - m) = Real.exp (s - m') :=
  Cert.LibSoftmaxShift.exp_rescale m m' s

/-- One step of the running form: the partial sums at shift m over the indices seen so far, rescaled by exp(m − m'),
    plus the new block's sums at shift m', are the partial sums at shift m' over both. -/
theorem online_step {J : Type*} [DecidableEq J] (S B : Finset J) (hd : Disjoint S B) (s v : J → ℝ) (m m' : ℝ) :
    Real.exp (m - m') * (∑ j ∈ S, Real.exp (s j - m) * v j) + ∑ j ∈ B, Real.exp (s j - m') * v j
      = ∑ j ∈ S ∪ B, Real.exp (s j - m') * v j :=
  Cert.LibSoftmaxShift.online_step S B hd s v m m'

/-- The quotient of the weighted sum by the sum of the weights does not depend on the shift. -/
theorem softmax_shift {J : Type*} [Fintype J] (s v : J → ℝ) (r : ℝ) :
    (∑ j, Real.exp (s j - r) * v j) / (∑ j, Real.exp (s j - r)) = (∑ j, Real.exp (s j) * v j) / ∑ j, Real.exp (s j) :=
  Cert.LibSoftmaxShift.softmax_shift s v r

/-- The row-maximum form: normalising the weights first and then averaging is the same quotient. -/
theorem softmax_ref {J : Type*} [Fintype J] (s v : J → ℝ) (r : ℝ) :
    ∑ j, (Real.exp (s j - r) / ∑ k, Real.exp (s k - r)) * v j = (∑ j, Real.exp (s j) * v j) / ∑ j, Real.exp (s j) :=
  Cert.LibSoftmaxShift.softmax_ref s v r

end Cert.Attn

end
-- ==== Proof.LibERealSum.lean ====
/-
  General lemmas on real numbers seen as extended reals: the coercion commutes with finite sums, with the maximum,
  with division by a nonzero real and with the reciprocal square root of a positive real. Each says that an
  operation of the extended reals, applied to finite arguments away from its corners, is the operation of the
  reals.
-/
import Idealize.ShloMosaic.PureOps.Ideal

noncomputable section

open scoped BigOperators

namespace Cert.LibERealSum

open Idealize.ShloMosaic

/-- The coercion of a finite sum of reals is the sum of the coercions (sum over a finite set). -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of a finite sum of reals is the sum of the coercions (sum over a finite type). -/
theorem coe_sum {ι : Type*} [Fintype ι] (f : ι → ℝ) :
    ((∑ i, f i : ℝ) : EReal) = ∑ i, ((f i : ℝ) : EReal) :=
  coe_finset_sum Finset.univ f

/-- A sum of extended reals each of which is the coercion of a real is the coercion of the real sum. -/
theorem sum_eq_coe {ι : Type*} (s : Finset ι) (g : ι → EReal) (f : ι → ℝ)
    (h : ∀ i ∈ s, g i = ((f i : ℝ) : EReal)) :
    ∑ i ∈ s, g i = ((∑ i ∈ s, f i : ℝ) : EReal) := by
  rw [coe_finset_sum]
  exact Finset.sum_congr rfl h

/-- Zero plus a sum of coerced reals is the coercion of the real sum (sum over a finite set). -/
theorem zero_add_finset_sum_coe {ι : Type*} (s : Finset ι) (f : ι → ℝ) :
    (0 : EReal) + ∑ i ∈ s, ((f i : ℝ) : EReal) = ((∑ i ∈ s, f i : ℝ) : EReal) := by
  rw [zero_add, coe_finset_sum]

/-- Zero plus a sum of coerced reals is the coercion of the real sum (sum over a finite type). -/
theorem zero_add_sum_coe {ι : Type*} [Fintype ι] (f : ι → ℝ) :
    (0 : EReal) + ∑ i, ((f i : ℝ) : EReal) = ((∑ i, f i : ℝ) : EReal) :=
  zero_add_finset_sum_coe Finset.univ f

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Dividing a coerced real by a coerced nonzero real gives the coerced quotient. -/
theorem div_coe_coe (a : ℝ) {b : ℝ} (hb : b ≠ 0) :
    Ideal.div (a : EReal) (b : EReal) = ((a / b : ℝ) : EReal) := by
  rw [Ideal.div_coe hb, ← EReal.coe_mul, one_div, div_eq_mul_inv]

/-- The reciprocal square root of a coerced positive real is the coerced reciprocal of its square root. -/
theorem rsqrt_coe_pos {r : ℝ} (hr : 0 < r) :
    Ideal.rsqrt ((r : ℝ) : EReal) = (((Real.sqrt r)⁻¹ : ℝ) : EReal) := by
  rw [Ideal.rsqrt_coe, if_neg (not_lt.2 hr.le), if_neg hr.ne']

/-- The square root of a coerced non-negative real is the coerced square root. -/
theorem sqrt_coe_nonneg {r : ℝ} (hr : 0 ≤ r) :
    Ideal.sqrt ((r : ℝ) : EReal) = ((Real.sqrt r : ℝ) : EReal) := by
  rw [Ideal.sqrt_coe, if_neg (not_lt.2 hr)]

end Cert.LibERealSum

end
-- ==== Proof.HostReads.lean ====
/-
  The host operations that join the launches, read entry by entry at the ideal carrier, for finite argument arrays.

  Before the first launch the host reshapes x to 16384 rows, transposes the three weights and scales the first by the
  constant 1/8; between the launches it reshapes the three projections back to [4, 4096, 64].  Each of these is an
  index bookkeeping: row b · 4096 + s of the flat array is entry (b, s) of the batched one, the transposed weight at
  (e, d) is the weight at (d, e).  With the product read of the projection region this gives the three arrays the
  attention region starts from as the real projections of the specification.
-/
import proofs.«134109_j88158498718071_2_alg».proof.Proof.AttnRun
import proofs.«134109_j88158498718071_2_alg».proof.Proof.ProjValue
import proofs.«134109_j88158498718071_2_alg».proof.Proof.Spec
import proofs.«134109_j88158498718071_2_alg».proof.Proof.LibERealSum
import Idealize.ShloMosaic.Lib.StableHlo.Run
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open Cert.Attn (Finite rx rw proj)

variable (m : (ℓ : Loc nD τ sig) → Buf (Elt Ideal) ℓ) (ρ : Dev nD → PrngReg)

/-! ## The host operations before the first launch, as terms -/

/-- The rows array is the reshape of x. -/
theorem E1_v0_term (c : Dev nD) : (E1 m ρ c main_v0 : S16384x1024.Idx → EReal)
    = shapeCast S16384x1024 (m ((c : Thread nD τ).loc main_arg0)) shapeCasts_S4x4096x1024_S16384x1024 := by
  show StableHlo.after hostOps0 (fun b => m (c, b)) (Proc.devRef .tc main_v0) = _
  after_results
  rfl

/-- The first weight array is the transposed first weight times the splat of the constant. -/
theorem E1_v3_term (c : Dev nD) : (E1 m ρ c main_v3 : S1024x64.Idx → EReal)
    = mulf (transpose S1024x64 [1, 0] (m ((c : Thread nD τ).loc main_arg1)) transposes_S64x1024_S1024x64_1_0)
        (broadcastInDim S1024x64 ![] bcast_S_S1024x64 (constant (F := Ideal) S_ .f32 0x3E000000#32)) := by
  show StableHlo.after hostOps0 (fun b => m (c, b)) (Proc.devRef .tc main_v3) = _
  after_results

/-- The second weight array is the transposed second weight. -/
theorem E1_v4_term (c : Dev nD) : (E1 m ρ c main_v4 : S1024x64.Idx → EReal)
    = transpose S1024x64 [1, 0] (m ((c : Thread nD τ).loc main_arg2)) transposes_S64x1024_S1024x64_1_0 := by
  show StableHlo.after hostOps0 (fun b => m (c, b)) (Proc.devRef .tc main_v4) = _
  after_results

/-- The third weight array is the transposed third weight. -/
theorem E1_v5_term (c : Dev nD) : (E1 m ρ c main_v5 : S1024x64.Idx → EReal)
    = transpose S1024x64 [1, 0] (m ((c : Thread nD τ).loc main_arg3)) transposes_S64x1024_S1024x64_1_0 := by
  show StableHlo.after hostOps0 (fun b => m (c, b)) (Proc.devRef .tc main_v5) = _
  after_results

/-! ## The same, entry by entry -/

/-- The single-precision pattern 0x3E000000 is the real number 1/8. -/
theorem ofBits_eighth : Ideal.ofBits .f32 0x3E000000#32 = (((1 : ℝ) / 8 : ℝ) : EReal) := by
  simp [Ideal.ofBits, Ideal.ieee, -EReal.coe_mul]; norm_num

/-- A transposed weight at (e, d) is the weight at (d, e). -/
theorem transpose_w_apply (w : S64x1024.Idx → EReal) (e : Fin 1024) (d : Fin 64) :
    transpose S1024x64 [1, 0] w transposes_S64x1024_S1024x64_1_0 (ix2 e d) = w (ix2 d e) :=
  transpose_apply [1, 0] w transposes_S64x1024_S1024x64_1_0 (ix2 e d) (ix2 d e) (fun b => by
    match b with
    | ⟨0, _⟩ => rfl
    | ⟨1, _⟩ => rfl)

/-- Row b · 4096 + s of the rows array is entry (b, s) of x. -/
theorem E1_v0_apply (c : Dev nD) (hx : Finite (m ((c : Thread nD τ).loc main_arg0))) (b : Fin 4) (s : Fin 4096) (e : Fin 1024) :
    (E1 m ρ c main_v0 : S16384x1024.Idx → EReal) (ix2 (⟨b.val * 4096 + s.val, by omega⟩ : Fin 16384) e)
      = ((rx (m ((c : Thread nD τ).loc main_arg0)) b s e : ℝ) : EReal) := by
  rw [E1_v0_term]
  rw [shapeCast_apply _ shapeCasts_S4x4096x1024_S16384x1024 (ix2 (⟨b.val * 4096 + s.val, by omega⟩ : Fin 16384) e) (ix3 b s e) (by
    rw [Shape.rowMajor_val_three, Shape.rowMajor_val_two]; rfl)]
  exact hx (ix3 b s e)

/-- The first weight array at (e, d) is the first weight at (d, e) times 1/8. -/
theorem E1_v3_apply (c : Dev nD) (hq : Finite (m ((c : Thread nD τ).loc main_arg1))) (e : Fin 1024) (d : Fin 64) :
    (E1 m ρ c main_v3 : S1024x64.Idx → EReal) (ix2 e d)
      = ((rw (m ((c : Thread nD τ).loc main_arg1)) d e * (1 / 8) : ℝ) : EReal) := by
  rw [E1_v3_term, mulf_apply, transpose_w_apply, broadcastInDim_scalar_apply, constant_apply, ofBits_eighth, EReal.coe_mul]
  exact congrArg (· * (((1 : ℝ) / 8 : ℝ) : EReal)) (hq (ix2 d e))

/-- The second weight array at (e, d) is the second weight at (d, e). -/
theorem E1_v4_apply (c : Dev nD) (hk : Finite (m ((c : Thread nD τ).loc main_arg2))) (e : Fin 1024) (d : Fin 64) :
    (E1 m ρ c main_v4 : S1024x64.Idx → EReal) (ix2 e d) = ((rw (m ((c : Thread nD τ).loc main_arg2)) d e : ℝ) : EReal) := by
  rw [E1_v4_term, transpose_w_apply]
  exact hk (ix2 d e)

/-- The third weight array at (e, d) is the third weight at (d, e). -/
theorem E1_v5_apply (c : Dev nD) (hv : Finite (m ((c : Thread nD τ).loc main_arg3))) (e : Fin 1024) (d : Fin 64) :
    (E1 m ρ c main_v5 : S1024x64.Idx → EReal) (ix2 e d) = ((rw (m ((c : Thread nD τ).loc main_arg3)) d e : ℝ) : EReal) := by
  rw [E1_v5_term, transpose_w_apply]
  exact hv (ix2 d e)

/-! ## The projection region's outputs, entry by entry -/

/-- A product of two arrays of real entries is the real sum of products. -/
theorem prodArr_coe (a : S16384x1024.Idx → EReal) (w : S1024x64.Idx → EReal) (r : Fin 16384) (d : Fin 64)
    (f g : Fin 1024 → ℝ) (ha : ∀ e, a (ix2 r e) = ((f e : ℝ) : EReal)) (hw : ∀ e, w (ix2 e d) = ((g e : ℝ) : EReal)) :
    prodArr a w (ix2 r d) = ((∑ e, f e * g e : ℝ) : EReal) := by
  rw [prodArr_apply]
  exact Cert.LibERealSum.sum_eq_coe Finset.univ _ _ fun e _ => by rw [ha e, hw e, EReal.coe_mul]

/-- The first output at row b · 4096 + s is the scaled first projection. -/
theorem L2_v6_0_apply (c : Dev nD) (hx : Finite (m ((c : Thread nD τ).loc main_arg0))) (hq : Finite (m ((c : Thread nD τ).loc main_arg1)))
    (b : Fin 4) (s : Fin 4096) (d : Fin 64) :
    (L2 m ρ c (Proc.devRef .tc main_v6_0) : S16384x64.Idx → EReal) (ix2 (⟨b.val * 4096 + s.val, by omega⟩ : Fin 16384) d)
      = ((proj (rx (m ((c : Thread nD τ).loc main_arg0))) (rw (m ((c : Thread nD τ).loc main_arg1))) b s d * (1 / 8) : ℝ) : EReal) := by
  have h := L2_arr m ρ c 4
  rw [arr4 (E1 m ρ) c] at h
  show L2 m ρ c (Proc.devRef .tc (Pipeline.arrRef spec0 4)) (ix2 (⟨b.val * 4096 + s.val, by omega⟩ : Fin 16384) d) = _
  rw [h]
  rw [prodArr_coe _ _ _ d _ _ (fun e => E1_v0_apply m ρ c hx b s e) (fun e => E1_v3_apply m ρ c hq e d)]
  congr 1
  unfold proj
  rw [Finset.sum_mul]
  exact Finset.sum_congr rfl fun e _ => by ring

/-- The second output at row b · 4096 + s is the second projection. -/
theorem L2_v6_1_apply (c : Dev nD) (hx : Finite (m ((c : Thread nD τ).loc main_arg0))) (hk : Finite (m ((c : Thread nD τ).loc main_arg2)))
    (b : Fin 4) (s : Fin 4096) (d : Fin 64) :
    (L2 m ρ c (Proc.devRef .tc main_v6_1) : S16384x64.Idx → EReal) (ix2 (⟨b.val * 4096 + s.val, by omega⟩ : Fin 16384) d)
      = ((proj (rx (m ((c : Thread nD τ).loc main_arg0))) (rw (m ((c : Thread nD τ).loc main_arg2))) b s d : ℝ) : EReal) := by
  have h := L2_arr m ρ c 5
  rw [arr5 (E1 m ρ) c] at h
  show L2 m ρ c (Proc.devRef .tc (Pipeline.arrRef spec0 5)) (ix2 (⟨b.val * 4096 + s.val, by omega⟩ : Fin 16384) d) = _
  rw [h]
  rw [prodArr_coe _ _ _ d _ _ (fun e => E1_v0_apply m ρ c hx b s e) (fun e => E1_v4_apply m ρ c hk e d)]
  rfl

/-- The third output at row b · 4096 + s is the third projection. -/
theorem L2_v6_2_apply (c : Dev nD) (hx : Finite (m ((c : Thread nD τ).loc main_arg0))) (hv : Finite (m ((c : Thread nD τ).loc main_arg3)))
    (b : Fin 4) (s : Fin 4096) (d : Fin 64) :
    (L2 m ρ c (Proc.devRef .tc main_v6_2) : S16384x64.Idx → EReal) (ix2 (⟨b.val * 4096 + s.val, by omega⟩ : Fin 16384) d)
      = ((proj (rx (m ((c : Thread nD τ).loc main_arg0))) (rw (m ((c : Thread nD τ).loc main_arg3))) b s d : ℝ) : EReal) := by
  have h := L2_arr m ρ c 6
  rw [arr6 (E1 m ρ) c] at h
  show L2 m ρ c (Proc.devRef .tc (Pipeline.arrRef spec0 6)) (ix2 (⟨b.val * 4096 + s.val, by omega⟩ : Fin 16384) d) = _
  rw [h]
  rw [prodArr_coe _ _ _ d _ _ (fun e => E1_v0_apply m ρ c hx b s e) (fun e => E1_v5_apply m ρ c hv e d)]
  rfl

/-! ## The reshapes between the launches -/

theorem E3_v7_term (c : Dev nD) : (E3 m ρ c main_v7 : S4x4096x64.Idx → EReal)
    = shapeCast S4x4096x64 (L2 m ρ c (Proc.devRef .tc main_v6_0)) shapeCasts_S16384x64_S4x4096x64 := by
  show StableHlo.after hostOps1 (L2 m ρ c) (Proc.devRef .tc main_v7) = _
  after_results
  rfl

theorem E3_v8_term (c : Dev nD) : (E3 m ρ c main_v8 : S4x4096x64.Idx → EReal)
    = shapeCast S4x4096x64 (L2 m ρ c (Proc.devRef .tc main_v6_1)) shapeCasts_S16384x64_S4x4096x64 := by
  show StableHlo.after hostOps1 (L2 m ρ c) (Proc.devRef .tc main_v8) = _
  after_results
  rfl

theorem E3_v9_term (c : Dev nD) : (E3 m ρ c main_v9 : S4x4096x64.Idx → EReal)
    = shapeCast S4x4096x64 (L2 m ρ c (Proc.devRef .tc main_v6_2)) shapeCasts_S16384x64_S4x4096x64 := by
  show StableHlo.after hostOps1 (L2 m ρ c) (Proc.devRef .tc main_v9) = _
  after_results
  rfl

/-- Entry (b, s, d) of a reshaped projection is row b · 4096 + s, column d of the flat one. -/
theorem unflat_apply (y : S16384x64.Idx → EReal) (b : Fin 4) (s : Fin 4096) (d : Fin 64) :
    shapeCast S4x4096x64 y shapeCasts_S16384x64_S4x4096x64 (ix3 b s d) = y (ix2 (⟨b.val * 4096 + s.val, by omega⟩ : Fin 16384) d) :=
  shapeCast_apply y shapeCasts_S16384x64_S4x4096x64 (ix3 b s d) (ix2 (⟨b.val * 4096 + s.val, by omega⟩ : Fin 16384) d) (by
    rw [Shape.rowMajor_val_three, Shape.rowMajor_val_two]; rfl)

/-- What the attention region starts from: its first operand is the scaled first projection, -/
theorem E3_v7_apply (c : Dev nD) (hx : Finite (m ((c : Thread nD τ).loc main_arg0))) (hq : Finite (m ((c : Thread nD τ).loc main_arg1)))
    (b : Fin 4) (s : Fin 4096) (d : Fin 64) :
    (E3 m ρ c main_v7 : S4x4096x64.Idx → EReal) (ix3 b s d)
      = ((proj (rx (m ((c : Thread nD τ).loc main_arg0))) (rw (m ((c : Thread nD τ).loc main_arg1))) b s d * (1 / 8) : ℝ) : EReal) := by
  rw [E3_v7_term, unflat_apply]
  exact L2_v6_0_apply m ρ c hx hq b s d

/-- its second the second projection, -/
theorem E3_v8_apply (c : Dev nD) (hx : Finite (m ((c : Thread nD τ).loc main_arg0))) (hk : Finite (m ((c : Thread nD τ).loc main_arg2)))
    (b : Fin 4) (s : Fin 4096) (d : Fin 64) :
    (E3 m ρ c main_v8 : S4x4096x64.Idx → EReal) (ix3 b s d)
      = ((proj (rx (m ((c : Thread nD τ).loc main_arg0))) (rw (m ((c : Thread nD τ).loc main_arg2))) b s d : ℝ) : EReal) := by
  rw [E3_v8_term, unflat_apply]
  exact L2_v6_1_apply m ρ c hx hk b s d

/-- its third the third projection. -/
theorem E3_v9_apply (c : Dev nD) (hx : Finite (m ((c : Thread nD τ).loc main_arg0))) (hv : Finite (m ((c : Thread nD τ).loc main_arg3)))
    (b : Fin 4) (s : Fin 4096) (d : Fin 64) :
    (E3 m ρ c main_v9 : S4x4096x64.Idx → EReal) (ix3 b s d)
      = ((proj (rx (m ((c : Thread nD τ).loc main_arg0))) (rw (m ((c : Thread nD τ).loc main_arg3))) b s d : ℝ) : EReal) := by
  rw [E3_v9_term, unflat_apply]
  exact L2_v6_2_apply m ρ c hx hv b s d

/-! ## The scores of the scaled projection are the specification's scores -/

/-- Scaling the first projection by 1/8 before the contraction is dividing the contraction by 8. -/
theorem score_of_scaled (q k : Fin 4 → Fin 4096 → Fin 64 → ℝ) :
    (fun b i j => ∑ d, (q b i d * (1 / 8)) * k b j d) = Cert.Attn.score q k := by
  funext b i j
  unfold Cert.Attn.score
  rw [Finset.sum_div]
  exact Finset.sum_congr rfl fun d _ => by ring

end Cert.KernelIdeal.Hand

end
-- ==== Proof.FlashArray.lean ====
/-
  The output array of the attention region, assembled from the tiles its grid points write back.

  The grid is 4 × 8: point t works on query tile t / 8 and key/value block t % 8, and the output tile — rows
  (t / 8) · 1024 … (t / 8) · 1024 + 1023 of the output array, all batches and all features — is written back exactly
  at the points with t % 8 = 7. If at each of those points the tile holds the matching rows of one array O, then after
  the region the output array is O: row s lies in the tile of the point (s / 1024) · 8 + 7, which writes back, so
  the four tiles cover the array.
-/
import proofs.«134109_j88158498718071_2_alg».proof.Proof.FlashData
import Idealize.ShloMosaic.Lib.Pipeline.Value
import Idealize.ShloMosaic.Lib.ValueIdx

noncomputable section

namespace Cert.FlashValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The output window's block index at every grid point: tile t / 8 along the rows, 0 along batches and features. -/
theorem idx_out : ∀ t : Fin cfg1.N,
    win1_3.index t (0 : Fin 3) = 0 ∧ win1_3.index t (1 : Fin 3) = t.val / 8 ∧ win1_3.index t (2 : Fin 3) = 0 :=
  (by decide +kernel : ∀ t : Fin grid1.N, _)

/-- Row i of the tile of point t is a row of the output array. -/
theorem row_lt (t : Fin cfg1.N) (i : Fin 1024) : t.val / 8 * 1024 + i.val < 4096 := by
  have ht : t.val < 32 := Nat.lt_of_lt_of_eq t.isLt N_1
  have hi := i.isLt
  omega

/-- The whole-array function of an array given by coordinates. -/
abbrev ofCoords (O : Fin 4 → Fin 4096 → Fin 64 → EReal) : S4x4096x64.Idx → EReal := fun j => O (j 0) (j 1) (j 2)

/-- What a writing point writes back is its tile of O. -/
theorem flushed_out (c : Dev nD) (O : Fin 4 → Fin 4096 → Fin 64 → EReal)
    (hO : ∀ t : Fin cfg1.N, t.val % 8 = 7 → ∀ (b : Fin 4) (i : Fin 1024) (d : Fin 64),
      outAt V c t (ix3 b i d) = O b ⟨t.val / 8 * 1024 + i.val, row_lt t i⟩ d)
    (t : Fin cfg1.N) (h7 : t.val % 8 = 7) :
    (dat1 V c).flushed 3 t = ((cfg1.win 3).blk t).view.read (Elt Ideal) (ofCoords O) := by
  show (cfg1.win 3).cut (grid1.coords t) ((dat1 V c).after 3 t) = _
  rw [after1_3]
  obtain ⟨e0, e1, e2⟩ := idx_out t
  funext j
  obtain ⟨b, i, d, rfl⟩ : ∃ (b : Fin 4) (i : Fin 1024) (d : Fin 64), j = ix3 b i d :=
    ⟨j 0, j 1, j 2, eq_ix3 (n0 := 4) (n1 := 1024) (n2 := 64) j⟩
  show outAt V c t (ix3 b i d) = ofCoords O (((cfg1.win 3).blk t).view.emb (ix3 b i d))
  rw [hO t h7 b i d]
  show O b ⟨t.val / 8 * 1024 + i.val, row_lt t i⟩ d
    = O (((cfg1.win 3).blk t).view.emb (ix3 b i d) 0) (((cfg1.win 3).blk t).view.emb (ix3 b i d) 1)
        (((cfg1.win 3).blk t).view.emb (ix3 b i d) 2)
  have h0 : ((cfg1.win 3).blk t).view.emb (ix3 b i d) 0 = b := Fin.ext (by
    show win1_3.index t (0 : Fin 3) * 4 + 1 * b.val = b.val; omega)
  have h1 : ((cfg1.win 3).blk t).view.emb (ix3 b i d) 1 = ⟨t.val / 8 * 1024 + i.val, row_lt t i⟩ := Fin.ext (by
    show win1_3.index t (1 : Fin 3) * 1024 + 1 * i.val = t.val / 8 * 1024 + i.val; omega)
  have h2 : ((cfg1.win 3).blk t).view.emb (ix3 b i d) 2 = d := Fin.ext (by
    show win1_3.index t (2 : Fin 3) * 64 + 1 * d.val = d.val; omega)
  exact (congr (congr (congrArg O h0) h1) h2).symm

/-- An index of the output array is in point t's tile iff each coordinate is in the tile's range. -/
theorem mem_out (t : Fin cfg1.N) (i : S4x4096x64.Idx) :
    i ∈ ((cfg1.win 3).blk t).view.set ↔ ∀ a : Fin 3, win1_3.index t a * S4x1024x64.size a ≤ (i a).val
      ∧ (i a).val < win1_3.index t a * S4x1024x64.size a + S4x1024x64.size a := by
  show i ∈ ((View.whole main_v10).slice (win1_3.rect t)).set ↔ _
  rw [View.set_slice_whole, Rect.mem_set_unit]
  exact Iff.rfl

/-- Every index of the output array is in the tile of a point that writes back: row s is in the tile of the point
    (s / 1024) · 8 + 7. -/
theorem cover_out (i : S4x4096x64.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  have hN : cfg1.N = 32 := N_1
  have hlt : (i 1).val / 1024 * 8 + 7 < cfg1.N := by rw [hN]; omega
  obtain ⟨e0, e1, e2⟩ := idx_out ⟨(i 1).val / 1024 * 8 + 7, hlt⟩
  refine ⟨⟨(i 1).val / 1024 * 8 + 7, hlt⟩, (flush1_3 _).mpr (by show ((i 1).val / 1024 * 8 + 7) % 8 = 7; omega), ?_⟩
  rw [mem_out]
  intro a
  match a with
  | ⟨0, _⟩ =>
    show win1_3.index ⟨(i 1).val / 1024 * 8 + 7, hlt⟩ (0 : Fin 3) * 4 ≤ (i 0).val
      ∧ (i 0).val < win1_3.index ⟨(i 1).val / 1024 * 8 + 7, hlt⟩ (0 : Fin 3) * 4 + 4
    rw [e0]; omega
  | ⟨1, _⟩ =>
    show win1_3.index ⟨(i 1).val / 1024 * 8 + 7, hlt⟩ (1 : Fin 3) * 1024 ≤ (i 1).val
      ∧ (i 1).val < win1_3.index ⟨(i 1).val / 1024 * 8 + 7, hlt⟩ (1 : Fin 3) * 1024 + 1024
    rw [e1]
    show ((i 1).val / 1024 * 8 + 7) / 8 * 1024 ≤ (i 1).val ∧ (i 1).val < ((i 1).val / 1024 * 8 + 7) / 8 * 1024 + 1024
    omega
  | ⟨2, _⟩ =>
    show win1_3.index ⟨(i 1).val / 1024 * 8 + 7, hlt⟩ (2 : Fin 3) * 64 ≤ (i 2).val
      ∧ (i 2).val < win1_3.index ⟨(i 1).val / 1024 * 8 + 7, hlt⟩ (2 : Fin 3) * 64 + 64
    rw [e2]; omega

/-- After the region the output array is O, as a whole-array function. -/
theorem out_array_eq (c : Dev nD) (O : Fin 4 → Fin 4096 → Fin 64 → EReal)
    (hO : ∀ t : Fin cfg1.N, t.val % 8 = 7 → ∀ (b : Fin 4) (i : Fin 1024) (d : Fin 64),
      outAt V c t (ix3 b i d) = O b ⟨t.val / 8 * 1024 + i.val, row_lt t i⟩ d) :
    (dat1 V c).arrAt 3 cfg1.N = ofCoords O :=
  (dat1 V c).arrAt_eq_of_cover 3 _ (fun t hf => flushed_out V c O hO t ((flush1_3 t).mp hf)) cover_out

/-- After the region the output array is O, entry by entry. -/
theorem out_array (c : Dev nD) (O : Fin 4 → Fin 4096 → Fin 64 → EReal)
    (hO : ∀ t : Fin cfg1.N, t.val % 8 = 7 → ∀ (b : Fin 4) (i : Fin 1024) (d : Fin 64),
      outAt V c t (ix3 b i d) = O b ⟨t.val / 8 * 1024 + i.val, row_lt t i⟩ d) :
    ∀ (b : Fin 4) (s : Fin 4096) (d : Fin 64), (dat1 V c).arrAt 3 cfg1.N (ix3 b s d) = O b s d := fun b s d => by
  rw [out_array_eq V c O hO]

end Cert.FlashValue

end
-- ==== Proof.FlashValueSums.lean ====
/-
  Sums over the keys seen so far. A query tile meets the 4096 keys in eight blocks of 512: after k blocks the keys
  seen are the j < k·512, and block k brings the keys k·512 + jj for jj < 512. Rescaling the partial sums taken at
  the shift r₀ over the keys seen so far by exp(r₀ − r) and adding the new block's sums taken at the shift r gives the
  partial sums at the shift r over the larger set of keys.
-/
import proofs.«134109_j88158498718071_2_alg».proof.Proof.Spec

noncomputable section

open scoped BigOperators

namespace Cert.FlashValue

/-- The keys of the first k blocks. -/
def keys (k : ℕ) : Finset (Fin 4096) := Finset.univ.filter fun j => j.val < k * 512

/-- The keys of block k. -/
def blockKeys (k : ℕ) : Finset (Fin 4096) := Finset.univ.filter fun j => k * 512 ≤ j.val ∧ j.val < (k + 1) * 512

/-- Key jj of block k, as a key of the whole sequence. -/
def krow (k : ℕ) (hk : k < 8) (jj : Fin 512) : Fin 4096 := ⟨k * 512 + jj.val, by have := jj.isLt; omega⟩

theorem keys_zero : keys 0 = ∅ := by
  unfold keys
  exact Finset.filter_false_of_mem fun j _ => by omega

theorem keys_eight : keys 8 = Finset.univ := by
  unfold keys
  exact Finset.filter_true_of_mem fun j _ => by have := j.isLt; omega

theorem keys_succ (k : ℕ) : keys (k + 1) = keys k ∪ blockKeys k := by
  unfold keys blockKeys
  ext j
  simp only [Finset.mem_union, Finset.mem_filter, Finset.mem_univ, true_and]
  omega

theorem keys_disjoint (k : ℕ) : Disjoint (keys k) (blockKeys k) := by
  unfold keys blockKeys
  rw [Finset.disjoint_left]
  intro j h1 h2
  simp only [Finset.mem_filter, Finset.mem_univ, true_and] at h1 h2
  omega

/-- A sum over the keys of block k is the sum over the 512 positions in the block. -/
theorem sum_blockKeys (k : ℕ) (hk : k < 8) (g : Fin 4096 → ℝ) :
    ∑ j ∈ blockKeys k, g j = ∑ jj : Fin 512, g (krow k hk jj) := by
  symm
  refine Finset.sum_bij (fun jj _ => krow k hk jj) (fun jj _ => ?_) (fun a _ b _ e => ?_) (fun j hj => ?_) (fun _ _ => rfl)
  · unfold blockKeys krow
    simp only [Finset.mem_filter, Finset.mem_univ, true_and]
    have := jj.isLt
    omega
  · have := congrArg Fin.val e
    unfold krow at this
    exact Fin.ext (by simp only at this; omega)
  · unfold blockKeys at hj
    simp only [Finset.mem_filter, Finset.mem_univ, true_and] at hj
    exact ⟨⟨j.val - k * 512, by omega⟩, Finset.mem_univ _, Fin.ext (by unfold krow; simp only; omega)⟩

/-- The sums over the first block alone. -/
theorem sum_first (k : ℕ) (hk : k < 8) (h0 : k = 0) (g : Fin 4096 → ℝ) :
    ∑ jj : Fin 512, g (krow k hk jj) = ∑ j ∈ keys (k + 1), g j := by
  rw [keys_succ, Finset.sum_union (keys_disjoint k), sum_blockKeys k hk]
  subst h0
  rw [keys_zero, Finset.sum_empty, zero_add]

/-- Rescaled old weighted sums plus the new block's weighted sums are the weighted sums over the larger key set. -/
theorem merge (k : ℕ) (hk : k < 8) (s v : Fin 4096 → ℝ) (r0 r : ℝ) :
    Real.exp (r0 - r) * (∑ j ∈ keys k, Real.exp (s j - r0) * v j)
        + ∑ jj : Fin 512, Real.exp (s (krow k hk jj) - r) * v (krow k hk jj)
      = ∑ j ∈ keys (k + 1), Real.exp (s j - r) * v j := by
  rw [keys_succ, ← sum_blockKeys k hk fun j => Real.exp (s j - r) * v j]
  exact Cert.Attn.online_step (keys k) (blockKeys k) (keys_disjoint k) s v r0 r

/-- The same for the normaliser (all values 1). -/
theorem merge_norm (k : ℕ) (hk : k < 8) (s : Fin 4096 → ℝ) (r0 r : ℝ) :
    Real.exp (r0 - r) * (∑ j ∈ keys k, Real.exp (s j - r0)) + ∑ jj : Fin 512, Real.exp (s (krow k hk jj) - r)
      = ∑ j ∈ keys (k + 1), Real.exp (s j - r) := by
  have h := merge k hk s (fun _ => 1) r0 r
  simp only [mul_one] at h
  exact h

end Cert.FlashValue

end
-- ==== Proof.FlashDot.lean ====
/-
  The two batched contractions of one block step, read at an index.

  The scores of a query tile against a key block contract the feature axis of both operands, batch by batch:
      S(b, i, j) = ∑ d, x(b, i, d) · y(b, j, d).
  The weighted values contract the key axis of the weights with the key axis of the value block:
      P(b, i, d) = ∑ j, w(b, i, j) · y(b, j, d).
  Each contraction accumulates into the zero array, so its value at an output index is just the sum over the one
  contracted coordinate; the operand indices are the output index with that coordinate put in place.
-/
import proofs.«134109_j88158498718071_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.FlashStep

open Cert.KernelIdeal Cert.KernelIdeal.Gen Idealize.ShloMosaic Idealize.ShloMosaic.ValueIdx

/-- The dimension numbers of the score contraction: feature axis against feature axis, batch axis 0. -/
abbrev Dqk : DotDims S4x1024x64 S4x512x64 S4x1024x512 := dot_S4x1024x64_S4x512x64_S4x1024x512_2_2_1_1_0_0
/-- The dimension numbers of the value contraction: key axis of the weights against key axis of the values. -/
abbrev Dpv : DotDims S4x1024x512 S4x512x64 S4x1024x64 := dot_S4x1024x512_S4x512x64_S4x1024x64_2_1_1_2_0_0

/-! ## The score contraction -/

theorem qk_lhs_0 (j : S4x1024x512.Idx) (q : Dqk.contr.Idx) : (Dqk.lhsIdx j q 0).val = (j 0).val := by
  unfold DotDims.lhsIdx
  rw [dif_pos (show (0 : Fin S4x1024x64.rank) ∈ Dqk.lhsBatch by decide)]
  rfl
theorem qk_lhs_1 (j : S4x1024x512.Idx) (q : Dqk.contr.Idx) : (Dqk.lhsIdx j q 1).val = (j 1).val := by
  unfold DotDims.lhsIdx
  rw [dif_neg (show ¬(1 : Fin S4x1024x64.rank) ∈ Dqk.lhsBatch by decide),
    dif_pos (show (1 : Fin S4x1024x64.rank) ∈ Dqk.lhsNonContracting by decide)]
  rfl
theorem qk_lhs_2 (j : S4x1024x512.Idx) (q : Dqk.contr.Idx) : (Dqk.lhsIdx j q 2).val = (q ⟨0, by decide⟩).val :=
  Dqk.lhsIdx_val_of_single rfl j q
theorem qk_rhs_0 (j : S4x1024x512.Idx) (q : Dqk.contr.Idx) : (Dqk.rhsIdx j q 0).val = (j 0).val := by
  unfold DotDims.rhsIdx
  rw [dif_pos (show (0 : Fin S4x512x64.rank) ∈ Dqk.rhsBatch by decide)]
  rfl
theorem qk_rhs_1 (j : S4x1024x512.Idx) (q : Dqk.contr.Idx) : (Dqk.rhsIdx j q 1).val = (j 2).val := by
  unfold DotDims.rhsIdx
  rw [dif_neg (show ¬(1 : Fin S4x512x64.rank) ∈ Dqk.rhsBatch by decide),
    dif_pos (show (1 : Fin S4x512x64.rank) ∈ Dqk.rhsNonContracting by decide)]
  rfl
theorem qk_rhs_2 (j : S4x1024x512.Idx) (q : Dqk.contr.Idx) : (Dqk.rhsIdx j q 2).val = (q ⟨0, by decide⟩).val :=
  Dqk.rhsIdx_val_of_single rfl j q

/-- The score contraction into the zero array at `(b, i, j)` is `∑ d, x(b, i, d) · y(b, j, d)`. -/
theorem scores_apply (x : FVec Ideal S4x1024x64 .bf16) (y : FVec Ideal S4x512x64 .bf16)
    (b : Fin 4) (i : Fin 1024) (j : Fin 512) :
    matmul Dqk none x y (constant (F := Ideal) S4x1024x512 .f32 0x00000000#32) (ix3 b i j)
      = ∑ d : Fin 64, x (ix3 b i d) * y (ix3 b j d) := by
  refine (Ideal.matmul_constant_zero_apply Dqk none x y (ix3 b i j)).trans ?_
  rw [← Equiv.sum_comp (contrEquiv1 Dqk 64 rfl rfl).symm]
  refine Finset.sum_congr rfl fun d _ => ?_
  have hd := contrEquiv1_symm_val Dqk 64 rfl rfl d
  have el : Dqk.lhsIdx (ix3 b i j) ((contrEquiv1 Dqk 64 rfl rfl).symm d) = ix3 b i d := funext fun a => Fin.ext (by
    match a with
    | ⟨0, _⟩ => exact qk_lhs_0 _ _
    | ⟨1, _⟩ => exact qk_lhs_1 _ _
    | ⟨2, _⟩ => exact (qk_lhs_2 _ _).trans hd)
  have er : Dqk.rhsIdx (ix3 b i j) ((contrEquiv1 Dqk 64 rfl rfl).symm d) = ix3 b j d := funext fun a => Fin.ext (by
    match a with
    | ⟨0, _⟩ => exact qk_rhs_0 _ _
    | ⟨1, _⟩ => exact qk_rhs_1 _ _
    | ⟨2, _⟩ => exact (qk_rhs_2 _ _).trans hd)
  rw [el, er]

/-! ## The value contraction -/

theorem pv_lhs_0 (j : S4x1024x64.Idx) (q : Dpv.contr.Idx) : (Dpv.lhsIdx j q 0).val = (j 0).val := by
  unfold DotDims.lhsIdx
  rw [dif_pos (show (0 : Fin S4x1024x512.rank) ∈ Dpv.lhsBatch by decide)]
  rfl
theorem pv_lhs_1 (j : S4x1024x64.Idx) (q : Dpv.contr.Idx) : (Dpv.lhsIdx j q 1).val = (j 1).val := by
  unfold DotDims.lhsIdx
  rw [dif_neg (show ¬(1 : Fin S4x1024x512.rank) ∈ Dpv.lhsBatch by decide),
    dif_pos (show (1 : Fin S4x1024x512.rank) ∈ Dpv.lhsNonContracting by decide)]
  rfl
theorem pv_lhs_2 (j : S4x1024x64.Idx) (q : Dpv.contr.Idx) : (Dpv.lhsIdx j q 2).val = (q ⟨0, by decide⟩).val :=
  Dpv.lhsIdx_val_of_single rfl j q
theorem pv_rhs_0 (j : S4x1024x64.Idx) (q : Dpv.contr.Idx) : (Dpv.rhsIdx j q 0).val = (j 0).val := by
  unfold DotDims.rhsIdx
  rw [dif_pos (show (0 : Fin S4x512x64.rank) ∈ Dpv.rhsBatch by decide)]
  rfl
theorem pv_rhs_1 (j : S4x1024x64.Idx) (q : Dpv.contr.Idx) : (Dpv.rhsIdx j q 1).val = (q ⟨0, by decide⟩).val :=
  Dpv.rhsIdx_val_of_single rfl j q
theorem pv_rhs_2 (j : S4x1024x64.Idx) (q : Dpv.contr.Idx) : (Dpv.rhsIdx j q 2).val = (j 2).val := by
  unfold DotDims.rhsIdx
  rw [dif_neg (show ¬(2 : Fin S4x512x64.rank) ∈ Dpv.rhsBatch by decide),
    dif_pos (show (2 : Fin S4x512x64.rank) ∈ Dpv.rhsNonContracting by decide)]
  rfl

/-- The value contraction into the zero array at `(b, i, d)` is `∑ j, w(b, i, j) · y(b, j, d)`. -/
theorem values_apply (w : FVec Ideal S4x1024x512 .bf16) (y : FVec Ideal S4x512x64 .bf16)
    (b : Fin 4) (i : Fin 1024) (d : Fin 64) :
    matmul Dpv none w y (constant (F := Ideal) S4x1024x64 .f32 0x00000000#32) (ix3 b i d)
      = ∑ j : Fin 512, w (ix3 b i j) * y (ix3 b j d) := by
  refine (Ideal.matmul_constant_zero_apply Dpv none w y (ix3 b i d)).trans ?_
  rw [← Equiv.sum_comp (contrEquiv1 Dpv 512 rfl rfl).symm]
  refine Finset.sum_congr rfl fun j _ => ?_
  have hj := contrEquiv1_symm_val Dpv 512 rfl rfl j
  have el : Dpv.lhsIdx (ix3 b i d) ((contrEquiv1 Dpv 512 rfl rfl).symm j) = ix3 b i j := funext fun a => Fin.ext (by
    match a with
    | ⟨0, _⟩ => exact pv_lhs_0 _ _
    | ⟨1, _⟩ => exact pv_lhs_1 _ _
    | ⟨2, _⟩ => exact (pv_lhs_2 _ _).trans hj)
  have er : Dpv.rhsIdx (ix3 b i d) ((contrEquiv1 Dpv 512 rfl rfl).symm j) = ix3 b j d := funext fun a => Fin.ext (by
    match a with
    | ⟨0, _⟩ => exact pv_rhs_0 _ _
    | ⟨1, _⟩ => exact (pv_rhs_1 _ _).trans hj
    | ⟨2, _⟩ => exact pv_rhs_2 _ _)
  rw [el, er]

end Cert.FlashStep

end
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.FlashRead.lean ====
/-
  One block step of the running softmax, read at an index.

  A query tile x : [4, 1024, 64], a key block y and a value block z : [4, 512, 64], and the running state — the
  weighted sums acc : [4, 1024, 64], the running maximum m and the running normaliser l : [4, 1024, 1] — give
      S(b, i, j)  = ∑ d, x(b, i, d) · y(b, j, d)                              the block's scores,
      m'(b, i)    = max (m(b, i)) (max over j of S(b, i, j))                  the new maximum,
      a(b, i)     = exp (m(b, i) − m'(b, i))                                  the rescaling factor,
      w(b, i, j)  = exp (S(b, i, j) − m'(b, i))                               the block's weights,
      l'(b, i)    = a(b, i) · l(b, i) + ∑ j, w(b, i, j)                       the new normaliser,
      acc'(b,i,d) = a(b, i) · acc(b, i, d) + ∑ j, w(b, i, j) · z(b, j, d)     the new weighted sums,
  and at the end of a tile the result acc(b, i, d) / l(b, i). This file reads each of these arrays at an index given
  by coordinates: the layout operations (casts to the same shape, the cast that appends the unit axis, the broadcast
  of the unit axis) move coordinates, the lane reductions are a sum and a fold of max over the key coordinate, and
  the two contractions are sums over the contracted coordinate.
-/
import proofs.«134109_j88158498718071_2_alg».proof.Proof.FlashDot
import proofs.«134109_j88158498718071_2_alg».proof.Proof.LibKeepdims
import Idealize.ShloMosaic.Lib.ValueLayout

noncomputable section

open scoped BigOperators

namespace Cert.FlashStep

open Cert.KernelIdeal Cert.KernelIdeal.Gen Idealize.ShloMosaic Idealize.ShloMosaic.ValueIdx

/-- The exponential of an array, at an index. -/
theorem exp_apply {s : Shape} {φ : FTy} (a : FVec Ideal s φ) (i : s.Idx) : exp a i = Ideal.exp (a i) := rfl

/-- The single-precision pattern of −∞ denotes ⊥. -/
theorem ofBits_neg_inf : Ideal.ofBits .f32 0xFF800000#32 = (⊥ : EReal) := by
  simp [Ideal.ofBits, Ideal.ieee]

/-- The maximum of an `[a, b, c]` array over its last axis reads, at `(i, j)`, the fold of max from the initial value
    over `k` of the operand at `(i, j, k)`. At the ideal values. -/
theorem max_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (Finset.fold_congr fun k _ => congrArg src (funext fun ax => Fin.ext
      (match ax with | ⟨0, _⟩ => rfl | ⟨1, _⟩ => rfl | ⟨2, _⟩ => rfl)))

/-! ## The reset values -/

theorem reset_acc (j : S4x1024x64.Idx) : k1_pay4 (F := Ideal) j = 0 := by
  unfold k1_pay4
  rw [shapeCast_self]
  exact Ideal.ofBits_zero_f32

theorem reset_max (j : S4x1024x1.Idx) : k1_pay5 (F := Ideal) j = (⊥ : EReal) := by
  unfold k1_pay5
  rw [shapeCast_self]
  exact ofBits_neg_inf

theorem reset_norm (j : S4x1024x1.Idx) : k1_pay6 (F := Ideal) j = 0 := by
  unfold k1_pay6
  rw [shapeCast_self]
  exact Ideal.ofBits_zero_f32

/-! ## The arrays of one step at an index -/

section
variable (x : FVec Ideal S4x1024x64 .bf16) (y z : FVec Ideal S4x512x64 .bf16)
  (m l : FVec Ideal S4x1024x1 .f32) (acc : FVec Ideal S4x1024x64 .f32)

/-- The block's scores. -/
theorem scores_read (b : Fin 4) (i : Fin 1024) (j : Fin 512) :
    k1_pay7 (F := Ideal) x y (ix3 b i j) = ∑ d : Fin 64, x (ix3 b i d) * y (ix3 b j d) := by
  unfold k1_pay7
  rw [shapeCast_self, shapeCast_self]
  exact scores_apply x y b i j

/-- The new maximum: the old one against the fold of max over the block's scores. -/
theorem newmax_read (b : Fin 4) (i : Fin 1024) :
    k1_pay8 (F := Ideal) x y m (ix3 b i 0)
      = max (m (ix3 b i 0)) ((Finset.univ : Finset (Fin 512)).fold max (⊥ : EReal) (fun j => k1_pay7 (F := Ideal) x y (ix3 b i j))) := by
  unfold k1_pay8
  refine (maximumf_apply _ _ _).trans ?_
  refine congrArg (max (m (ix3 b i 0))) ?_
  refine (Cert.LibKeepdims.shapeCast_ab_ab1_apply _ _ b i 0).trans ?_
  refine (max_last_apply _ _ _ _ _ b i).trans ?_
  rw [ofBits_neg_inf]

/-- The stored maximum is the new maximum. -/
theorem storedmax_read (v : FVec Ideal S4x1024x1 .f32) (j : S4x1024x1.Idx) : k1_pay2 (F := Ideal) v j = v j := by
  unfold k1_pay2
  rw [shapeCast_self]

/-- The rescaling factor. -/
theorem rescale_read (b : Fin 4) (i : Fin 1024) :
    k1_pay9 (F := Ideal) x y m (ix3 b i 0) = Ideal.exp (m (ix3 b i 0) - k1_pay8 (F := Ideal) x y m (ix3 b i 0)) := rfl

/-- The block's weights. -/
theorem weights_read (b : Fin 4) (i : Fin 1024) (j : Fin 512) :
    k1_pay10 (F := Ideal) x y m (ix3 b i j)
      = Ideal.exp (k1_pay7 (F := Ideal) x y (ix3 b i j) - k1_pay8 (F := Ideal) x y m (ix3 b i 0)) := by
  unfold k1_pay10
  refine (exp_apply _ _).trans ?_
  refine congrArg Ideal.exp ?_
  refine (subf_apply _ _ _).trans ?_
  exact congrArg (k1_pay7 (F := Ideal) x y (ix3 b i j) - ·) (Cert.LibKeepdims.broadcastTo_ab1_abc_apply _ _ b i j)

/-- The new normaliser. -/
theorem newnorm_read (b : Fin 4) (i : Fin 1024) :
    k1_pay11 (F := Ideal) x y m l (ix3 b i 0)
      = k1_pay9 (F := Ideal) x y m (ix3 b i 0) * l (ix3 b i 0) + ∑ j : Fin 512, k1_pay10 (F := Ideal) x y m (ix3 b i j) := by
  unfold k1_pay11
  rw [shapeCast_self]
  refine (addf_apply _ _ _).trans ?_
  refine congrArg (k1_pay9 (F := Ideal) x y m (ix3 b i 0) * l (ix3 b i 0) + ·) ?_
  refine (Cert.LibKeepdims.shapeCast_ab_ab1_apply _ _ b i 0).trans ?_
  exact Cert.LibKeepdims.sum_last_apply _ _ _ _ _ b i

/-- The block's weighted values. -/
theorem wvalues_read (b : Fin 4) (i : Fin 1024) (d : Fin 64) :
    k1_pay12 (F := Ideal) x y z m (ix3 b i d)
      = ∑ j : Fin 512, k1_pay10 (F := Ideal) x y m (ix3 b i j) * z (ix3 b j d) := by
  unfold k1_pay12
  rw [shapeCast_self]
  exact values_apply _ z b i d

/-- The new weighted sums, from a rescaling factor `a`, the block's weighted values `p` and the old sums. -/
theorem newacc_read (a : FVec Ideal S4x1024x1 .f32) (p : FVec Ideal S4x1024x64 .f32) (b : Fin 4) (i : Fin 1024) (d : Fin 64) :
    k1_pay1 (F := Ideal) a p acc (ix3 b i d) = a (ix3 b i 0) * acc (ix3 b i d) + p (ix3 b i d) := by
  unfold k1_pay1
  rw [shapeCast_self]
  refine (addf_apply _ _ _).trans ?_
  refine congrArg (· + p (ix3 b i d)) ?_
  refine (mulf_apply _ _ _).trans ?_
  exact congrArg (· * acc (ix3 b i d)) (Cert.LibKeepdims.broadcastTo_ab1_abc_apply _ _ b i d)

/-- The result of a tile: the weighted sums divided by the normaliser. -/
theorem result_read (b : Fin 4) (i : Fin 1024) (d : Fin 64) :
    k1_pay3 (F := Ideal) acc l (ix3 b i d) = Ideal.div (acc (ix3 b i d)) (l (ix3 b i 0)) := by
  unfold k1_pay3
  refine (divf_apply _ _ _).trans ?_
  exact congrArg (Ideal.div (acc (ix3 b i d))) (Cert.LibKeepdims.broadcastTo_ab1_abc_apply _ _ b i d)

end

end Cert.FlashStep

end
-- ==== Proof.FlashAlg.lean ====
/-
  Extended-real arithmetic on real arguments, as one block step of the running softmax uses it.

  The maximum over a nonempty finite family of real numbers, taken as a fold of max from ⊥ in the extended reals, is
  a real number; the maximum of ⊥ or of a real with a real is a real; the exponential of ⊥ is 0 and that of a
  difference of reals is the real exponential; sums and products of reals stay real.
-/
import proofs.«134109_j88158498718071_2_alg».proof.Proof.LibERealSum

noncomputable section

open scoped BigOperators

namespace Cert.FlashStep

open Idealize.ShloMosaic

/-- A fold of max from ⊥ over coerced reals is ⊥ or the coercion of a real. -/
theorem fold_max_bot_or_coe {ι : Type*} [DecidableEq ι] (s : Finset ι) (f : ι → ℝ) :
    s.fold max (⊥ : EReal) (fun j => ((f j : ℝ) : EReal)) = ⊥
      ∨ ∃ r : ℝ, s.fold max (⊥ : EReal) (fun j => ((f j : ℝ) : EReal)) = (r : EReal) := by
  induction s using Finset.induction_on with
  | empty => exact Or.inl Finset.fold_empty
  | insert a s ha ih =>
    right
    rw [Finset.fold_insert ha]
    rcases ih with h | ⟨r, h⟩
    · exact ⟨f a, by rw [h, max_eq_left bot_le]⟩
    · exact ⟨max (f a) r, by rw [h, Cert.LibERealSum.max_coe]⟩

/-- Over a nonempty index set it is the coercion of a real. -/
theorem fold_max_coe_real {ι : Type*} [DecidableEq ι] (s : Finset ι) (hs : s.Nonempty) (f : ι → ℝ) :
    ∃ r : ℝ, s.fold max (⊥ : EReal) (fun j => ((f j : ℝ) : EReal)) = (r : EReal) := by
  obtain ⟨a, ha⟩ := hs
  rw [← Finset.insert_erase ha, Finset.fold_insert (Finset.notMem_erase a s)]
  rcases fold_max_bot_or_coe (s.erase a) f with h | ⟨r, h⟩
  · exact ⟨f a, by rw [h, max_eq_left bot_le]⟩
  · exact ⟨max (f a) r, by rw [h, Cert.LibERealSum.max_coe]⟩

/-- The exponential of ⊥ minus a real is 0. -/
theorem exp_bot_sub (r : ℝ) : Ideal.exp ((⊥ : EReal) - (r : EReal)) = 0 := by
  rw [EReal.bot_sub]; rfl

/-- The exponential of a difference of reals is the real exponential of the difference. -/
theorem exp_coe_sub (a r : ℝ) : Ideal.exp ((a : EReal) - (r : EReal)) = ((Real.exp (a - r) : ℝ) : EReal) := by
  rw [← EReal.coe_sub]; rfl

/-- A real multiple of a real plus a sum of reals, all in the extended reals, is the coercion of the real expression. -/
theorem affine_coe {ι : Type*} (s : Finset ι) (α β : ℝ) (g : ι → EReal) (f : ι → ℝ)
    (h : ∀ j ∈ s, g j = ((f j : ℝ) : EReal)) :
    (α : EReal) * (β : EReal) + ∑ j ∈ s, g j = ((α * β + ∑ j ∈ s, f j : ℝ) : EReal) := by
  rw [Cert.LibERealSum.sum_eq_coe s g f h, ← EReal.coe_mul, ← EReal.coe_add]

end Cert.FlashStep

end
-- ==== Proof.FlashStep.lean ====
/-
  One block step of the running softmax on real data.

  When the query tile, the key block and the value block hold real numbers q, k, v, the block's scores are the reals
      sB(b, i, j) = ∑ d, q(b, i, d) · k(b, j, d),
  their maximum over the 512 keys of the block is a real, and so is the new running maximum r(b, i), whether the old
  one was −∞ (the state after a reset) or a real r₀(b, i). With the old normaliser L₀ and the old weighted sums A₀
      l'(b, i)      = exp(r₀ − r) · L₀(b, i)    + ∑ j, exp(sB(b, i, j) − r(b, i)),
      acc'(b, i, d) = exp(r₀ − r) · A₀(b, i, d) + ∑ j, exp(sB(b, i, j) − r(b, i)) · v(b, j, d),
  and after a reset (maximum −∞, normaliser and sums 0) the rescaling factor is exp(−∞) = 0 and only the block's sums
  remain. The result of a tile is the quotient of the weighted sums by the normaliser when that is not zero.
  Which real r is plays no role: only that the weights and the rescaling use the same one.
-/
import proofs.«134109_j88158498718071_2_alg».proof.Proof.FlashRead
import proofs.«134109_j88158498718071_2_alg».proof.Proof.FlashAlg

noncomputable section

open scoped BigOperators

namespace Cert.FlashStep

open Cert.KernelIdeal Cert.KernelIdeal.Gen Idealize.ShloMosaic Idealize.ShloMosaic.ValueIdx

/-- The scores of a query tile against a key block, over the reals. -/
def sB (q : Fin 4 → Fin 1024 → Fin 64 → ℝ) (k : Fin 4 → Fin 512 → Fin 64 → ℝ) (b : Fin 4) (i : Fin 1024) (j : Fin 512) : ℝ :=
  ∑ d, q b i d * k b j d

section
variable (x : FVec Ideal S4x1024x64 .bf16) (y z : FVec Ideal S4x512x64 .bf16)
  (m l : FVec Ideal S4x1024x1 .f32) (acc : FVec Ideal S4x1024x64 .f32)
  (q : Fin 4 → Fin 1024 → Fin 64 → ℝ) (k v : Fin 4 → Fin 512 → Fin 64 → ℝ)

/-- On real operands the block's scores are the real scores. -/
theorem scores_real (hq : ∀ b i d, x (ix3 b i d) = ((q b i d : ℝ) : EReal)) (hk : ∀ b j d, y (ix3 b j d) = ((k b j d : ℝ) : EReal))
    (b : Fin 4) (i : Fin 1024) (j : Fin 512) :
    k1_pay7 (F := Ideal) x y (ix3 b i j) = ((sB q k b i j : ℝ) : EReal) := by
  rw [scores_read]
  exact Cert.LibERealSum.sum_eq_coe Finset.univ _ _ fun d _ => by rw [hq, hk, ← EReal.coe_mul]

/-- The maximum of a row of the block's scores is a real. -/
theorem rowmax_real (hq : ∀ b i d, x (ix3 b i d) = ((q b i d : ℝ) : EReal)) (hk : ∀ b j d, y (ix3 b j d) = ((k b j d : ℝ) : EReal))
    (b : Fin 4) (i : Fin 1024) :
    ∃ ρ : ℝ, (Finset.univ : Finset (Fin 512)).fold max (⊥ : EReal) (fun j => k1_pay7 (F := Ideal) x y (ix3 b i j)) = (ρ : EReal) := by
  rw [show (fun j => k1_pay7 (F := Ideal) x y (ix3 b i j)) = fun j => ((sB q k b i j : ℝ) : EReal) from
    funext fun j => scores_real x y q k hq hk b i j]
  exact fold_max_coe_real Finset.univ ⟨⟨0, by decide⟩, Finset.mem_univ _⟩ _

/-- Once the new maximum at a row is the real r, the block's weights there are exp(sB − r). -/
theorem weights_real (hq : ∀ b i d, x (ix3 b i d) = ((q b i d : ℝ) : EReal)) (hk : ∀ b j d, y (ix3 b j d) = ((k b j d : ℝ) : EReal))
    (b : Fin 4) (i : Fin 1024) (r : ℝ) (hr : k1_pay8 (F := Ideal) x y m (ix3 b i 0) = (r : EReal)) (j : Fin 512) :
    k1_pay10 (F := Ideal) x y m (ix3 b i j) = ((Real.exp (sB q k b i j - r) : ℝ) : EReal) := by
  rw [weights_read, scores_real x y q k hq hk, hr, exp_coe_sub]

/-- One step at a row whose new maximum is the real r and whose rescaling factor is the real α: the new normaliser
    and the new weighted sums. -/
theorem step_row (hq : ∀ b i d, x (ix3 b i d) = ((q b i d : ℝ) : EReal)) (hk : ∀ b j d, y (ix3 b j d) = ((k b j d : ℝ) : EReal))
    (hv : ∀ b j d, z (ix3 b j d) = ((v b j d : ℝ) : EReal))
    (b : Fin 4) (i : Fin 1024) (r α L0 : ℝ) (A0 : Fin 64 → ℝ)
    (hr : k1_pay8 (F := Ideal) x y m (ix3 b i 0) = (r : EReal))
    (hα : k1_pay9 (F := Ideal) x y m (ix3 b i 0) = (α : EReal))
    (hl : l (ix3 b i 0) = (L0 : EReal)) (hacc : ∀ d, acc (ix3 b i d) = ((A0 d : ℝ) : EReal)) :
    k1_pay11 (F := Ideal) x y m l (ix3 b i 0) = ((α * L0 + ∑ j, Real.exp (sB q k b i j - r) : ℝ) : EReal)
    ∧ ∀ d, k1_pay1 (F := Ideal) (k1_pay9 (F := Ideal) x y m) (k1_pay12 (F := Ideal) x y z m) acc (ix3 b i d)
        = ((α * A0 d + ∑ j, Real.exp (sB q k b i j - r) * v b j d : ℝ) : EReal) := by
  refine ⟨?_, fun d => ?_⟩
  · rw [newnorm_read, hα, hl]
    exact affine_coe Finset.univ α L0 _ _ fun j _ => weights_real x y m q k hq hk b i r hr j
  · rw [newacc_read, hα, hacc d, wvalues_read]
    exact affine_coe Finset.univ α (A0 d) _ _ fun j _ => by
      rw [weights_real x y m q k hq hk b i r hr j, hv, ← EReal.coe_mul]

/-- The step from the state after a reset: maximum −∞, normaliser 0, weighted sums 0. -/
theorem step_from_reset (hq : ∀ b i d, x (ix3 b i d) = ((q b i d : ℝ) : EReal)) (hk : ∀ b j d, y (ix3 b j d) = ((k b j d : ℝ) : EReal))
    (hv : ∀ b j d, z (ix3 b j d) = ((v b j d : ℝ) : EReal))
    (hm : ∀ j, m j = (⊥ : EReal)) (hl : ∀ j, l j = 0) (hacc : ∀ j, acc j = 0) :
    ∃ r : Fin 4 → Fin 1024 → ℝ, ∀ b i,
      k1_pay2 (F := Ideal) (k1_pay8 (F := Ideal) x y m) (ix3 b i 0) = ((r b i : ℝ) : EReal)
      ∧ k1_pay11 (F := Ideal) x y m l (ix3 b i 0) = ((∑ j, Real.exp (sB q k b i j - r b i) : ℝ) : EReal)
      ∧ ∀ d, k1_pay1 (F := Ideal) (k1_pay9 (F := Ideal) x y m) (k1_pay12 (F := Ideal) x y z m) acc (ix3 b i d)
          = ((∑ j, Real.exp (sB q k b i j - r b i) * v b j d : ℝ) : EReal) := by
  choose ρ hρ using fun b i => rowmax_real x y q k hq hk b i
  refine ⟨ρ, fun b i => ?_⟩
  have hr : k1_pay8 (F := Ideal) x y m (ix3 b i 0) = ((ρ b i : ℝ) : EReal) := by
    rw [newmax_read, hρ, hm, max_eq_right bot_le]
  have hα : k1_pay9 (F := Ideal) x y m (ix3 b i 0) = (((0 : ℝ) : ℝ) : EReal) := by
    rw [rescale_read, hr, hm, exp_bot_sub, EReal.coe_zero]
  obtain ⟨h1, h2⟩ := step_row x y z m l acc q k v hq hk hv b i (ρ b i) 0 0 (fun _ => 0) hr hα
    (by rw [hl, EReal.coe_zero]) (fun d => by rw [hacc, EReal.coe_zero])
  refine ⟨by rw [storedmax_read, hr], ?_, fun d => ?_⟩
  · rw [h1, zero_mul, zero_add]
  · rw [h2 d, zero_mul, zero_add]

/-- The step from a real state: maximum r₀, normaliser L₀, weighted sums A₀. -/
theorem step_from_real (hq : ∀ b i d, x (ix3 b i d) = ((q b i d : ℝ) : EReal)) (hk : ∀ b j d, y (ix3 b j d) = ((k b j d : ℝ) : EReal))
    (hv : ∀ b j d, z (ix3 b j d) = ((v b j d : ℝ) : EReal))
    (r0 L0 : Fin 4 → Fin 1024 → ℝ) (A0 : Fin 4 → Fin 1024 → Fin 64 → ℝ)
    (hm : ∀ b i, m (ix3 b i 0) = ((r0 b i : ℝ) : EReal)) (hl : ∀ b i, l (ix3 b i 0) = ((L0 b i : ℝ) : EReal))
    (hacc : ∀ b i d, acc (ix3 b i d) = ((A0 b i d : ℝ) : EReal)) :
    ∃ r : Fin 4 → Fin 1024 → ℝ, ∀ b i,
      k1_pay2 (F := Ideal) (k1_pay8 (F := Ideal) x y m) (ix3 b i 0) = ((r b i : ℝ) : EReal)
      ∧ k1_pay11 (F := Ideal) x y m l (ix3 b i 0)
          = ((Real.exp (r0 b i - r b i) * L0 b i + ∑ j, Real.exp (sB q k b i j - r b i) : ℝ) : EReal)
      ∧ ∀ d, k1_pay1 (F := Ideal) (k1_pay9 (F := Ideal) x y m) (k1_pay12 (F := Ideal) x y z m) acc (ix3 b i d)
          = ((Real.exp (r0 b i - r b i) * A0 b i d + ∑ j, Real.exp (sB q k b i j - r b i) * v b j d : ℝ) : EReal) := by
  choose ρ hρ using fun b i => rowmax_real x y q k hq hk b i
  refine ⟨fun b i => max (r0 b i) (ρ b i), fun b i => ?_⟩
  have hr : k1_pay8 (F := Ideal) x y m (ix3 b i 0) = ((max (r0 b i) (ρ b i) : ℝ) : EReal) := by
    rw [newmax_read, hρ, hm, Cert.LibERealSum.max_coe]
  have hα : k1_pay9 (F := Ideal) x y m (ix3 b i 0) = ((Real.exp (r0 b i - max (r0 b i) (ρ b i)) : ℝ) : EReal) := by
    rw [rescale_read, hr, hm, exp_coe_sub]
  obtain ⟨h1, h2⟩ := step_row x y z m l acc q k v hq hk hv b i (max (r0 b i) (ρ b i)) _ (L0 b i) (A0 b i) hr hα
    (hl b i) (hacc b i)
  exact ⟨by rw [storedmax_read, hr], h1, h2⟩

/-- The result of a tile at a point where the weighted sum and the normaliser are reals, the normaliser not zero. -/
theorem result_real (b : Fin 4) (i : Fin 1024) (d : Fin 64) (A L : ℝ)
    (hA : acc (ix3 b i d) = (A : EReal)) (hL : l (ix3 b i 0) = (L : EReal)) (hne : L ≠ 0) :
    k1_pay3 (F := Ideal) acc l (ix3 b i d) = ((A / L : ℝ) : EReal) := by
  rw [result_read, hA, hL, Cert.LibERealSum.div_coe_coe A hne]

end

end Cert.FlashStep

end
-- ==== Proof.FlashValueStep.lean ====
/-
  The running softmax over a query tile, at the ideal values, on real data.

  With s(b, i, j) the score of row i of the tile against key j and K the set of keys seen so far, the scratch
  accumulators hold, for some real shift r(b, i) (the running maximum; which real it is plays no role),
      m(b, i) = r(b, i),   l(b, i) = ∑ j ∈ K, exp(s(b,i,j) − r(b,i)),   acc(b, i, d) = ∑ j ∈ K, exp(s(b,i,j) − r(b,i)) · v(j, d).
  A tile's first block establishes this for the first 512 keys from the reset values; every further block extends
  K by its 512 keys, rescaling the old sums to the new shift. After the eighth block K is every key, and the output
  tile, the quotient of the weighted sums by the normaliser, is the softmax-weighted average: the shift cancels.
-/
import proofs.«134109_j88158498718071_2_alg».proof.Proof.FlashValueSums
import proofs.«134109_j88158498718071_2_alg».proof.Proof.FlashStep

set_option maxRecDepth 16384

noncomputable section

open scoped BigOperators

namespace Cert.FlashValue

open Cert.KernelIdeal Cert.KernelIdeal.Gen Cert.FlashStep
open Idealize.ShloMosaic Idealize.ShloMosaic.TcCoe Idealize.ShloMosaic.ValueIdx

/-- The scores of the real query and key arrays. -/
def sc (Qr Kr : Fin 4 → Fin 4096 → Fin 64 → ℝ) (b : Fin 4) (s j : Fin 4096) : ℝ := ∑ d, Qr b s d * Kr b j d

/-- The state of the running softmax over the key set K, for the tile scores s and the values Vr. -/
def Inv (st : FVec Ideal S4x1024x64 .f32 × FVec Ideal S4x1024x1 .f32 × FVec Ideal S4x1024x1 .f32)
    (s : Fin 4 → Fin 1024 → Fin 4096 → ℝ) (Vr : Fin 4 → Fin 4096 → Fin 64 → ℝ) (K : Finset (Fin 4096)) : Prop :=
  ∃ r : Fin 4 → Fin 1024 → ℝ, ∀ b i,
    st.2.1 (ix3 b i 0) = ((r b i : ℝ) : EReal)
    ∧ st.2.2 (ix3 b i 0) = ((∑ j ∈ K, Real.exp (s b i j - r b i) : ℝ) : EReal)
    ∧ ∀ d, st.1 (ix3 b i d) = ((∑ j ∈ K, Real.exp (s b i j - r b i) * Vr b j d : ℝ) : EReal)

/-! ## One block step, on the state -/

section Step
variable (x : FVec Ideal S4x1024x64 .bf16) (y z : FVec Ideal S4x512x64 .bf16)
  (q : Fin 4 → Fin 1024 → Fin 64 → ℝ) (k v : Fin 4 → Fin 512 → Fin 64 → ℝ)
  (hq : ∀ b i d, x (ix3 b i d) = ((q b i d : ℝ) : EReal)) (hk : ∀ b j d, y (ix3 b j d) = ((k b j d : ℝ) : EReal))
  (hv : ∀ b j d, z (ix3 b j d) = ((v b j d : ℝ) : EReal))
  (s : Fin 4 → Fin 1024 → Fin 4096 → ℝ) (Vr : Fin 4 → Fin 4096 → Fin 64 → ℝ) (kk : ℕ) (hkk : kk < 8)
  (hs : ∀ b i jj, sB q k b i jj = s b i (krow kk hkk jj)) (hvr : ∀ b jj d, v b jj d = Vr b (krow kk hkk jj) d)

include hq hk hv hs hvr

/-- A tile's first block: from the reset values the state is that of the first 512 keys. -/
theorem inv_first (h0 : kk = 0) :
    Inv (k1_pay1 (F := Ideal) (k1_pay9 (F := Ideal) x y (k1_pay5 (F := Ideal))) (k1_pay12 (F := Ideal) x y z (k1_pay5 (F := Ideal))) (k1_pay4 (F := Ideal)),
         k1_pay2 (F := Ideal) (k1_pay8 (F := Ideal) x y (k1_pay5 (F := Ideal))),
         k1_pay11 (F := Ideal) x y (k1_pay5 (F := Ideal)) (k1_pay6 (F := Ideal))) s Vr (keys (kk + 1)) := by
  obtain ⟨r, hr⟩ := step_from_reset x y z (k1_pay5 (F := Ideal)) (k1_pay6 (F := Ideal)) (k1_pay4 (F := Ideal)) q k v hq hk hv
    reset_max reset_norm reset_acc
  refine ⟨r, fun b i => ?_⟩
  obtain ⟨h1, h2, h3⟩ := hr b i
  refine ⟨h1, h2.trans (congrArg (fun w : ℝ => (w : EReal)) ?_), fun d => (h3 d).trans (congrArg (fun w : ℝ => (w : EReal)) ?_)⟩
  · exact (Finset.sum_congr rfl fun jj _ => by rw [hs]).trans
      (sum_first kk hkk h0 fun j => Real.exp (s b i j - r b i))
  · exact (Finset.sum_congr rfl fun jj _ => by rw [hs, hvr]).trans
      (sum_first kk hkk h0 fun j => Real.exp (s b i j - r b i) * Vr b j d)

/-- Any further block: the state over the keys of the first kk blocks becomes the state over those of kk + 1. -/
theorem inv_step (sa : FVec Ideal S4x1024x64 .f32) (sm sl : FVec Ideal S4x1024x1 .f32)
    (hprev : Inv (sa, sm, sl) s Vr (keys kk)) :
    Inv (k1_pay1 (F := Ideal) (k1_pay9 (F := Ideal) x y sm) (k1_pay12 (F := Ideal) x y z sm) sa, k1_pay2 (F := Ideal) (k1_pay8 (F := Ideal) x y sm), k1_pay11 (F := Ideal) x y sm sl) s Vr (keys (kk + 1)) := by
  obtain ⟨r0, hp⟩ := hprev
  obtain ⟨r, hr⟩ := step_from_real x y z sm sl sa q k v hq hk hv r0
    (fun b i => ∑ j ∈ keys kk, Real.exp (s b i j - r0 b i))
    (fun b i d => ∑ j ∈ keys kk, Real.exp (s b i j - r0 b i) * Vr b j d)
    (fun b i => (hp b i).1) (fun b i => (hp b i).2.1) (fun b i d => (hp b i).2.2 d)
  refine ⟨r, fun b i => ?_⟩
  obtain ⟨h1, h2, h3⟩ := hr b i
  refine ⟨h1, h2.trans (congrArg (fun w : ℝ => (w : EReal)) ?_), fun d => (h3 d).trans (congrArg (fun w : ℝ => (w : EReal)) ?_)⟩
  · exact (congrArg (Real.exp (r0 b i - r b i) * (∑ j ∈ keys kk, Real.exp (s b i j - r0 b i)) + ·)
        (Finset.sum_congr rfl fun jj _ => by rw [hs])).trans
      (merge_norm kk hkk (fun j => s b i j) (r0 b i) (r b i))
  · exact (congrArg (Real.exp (r0 b i - r b i) * (∑ j ∈ keys kk, Real.exp (s b i j - r0 b i) * Vr b j d) + ·)
        (Finset.sum_congr rfl fun jj _ => by rw [hs, hvr])).trans
      (merge kk hkk (fun j => s b i j) (fun j => Vr b j d) (r0 b i) (r b i))

end Step

/-- Once every key has been seen the quotient of the weighted sums by the normaliser is the softmax-weighted
    average of the values: the shift cancels. -/
theorem out_of_inv (acc : FVec Ideal S4x1024x64 .f32) (m l : FVec Ideal S4x1024x1 .f32)
    (s : Fin 4 → Fin 1024 → Fin 4096 → ℝ) (Vr : Fin 4 → Fin 4096 → Fin 64 → ℝ)
    (h : Inv (acc, m, l) s Vr Finset.univ) (b : Fin 4) (i : Fin 1024) (d : Fin 64) :
    k1_pay3 (F := Ideal) acc l (ix3 b i d)
      = (((∑ j, Real.exp (s b i j) * Vr b j d) / ∑ j, Real.exp (s b i j) : ℝ) : EReal) := by
  obtain ⟨r, hr⟩ := h
  obtain ⟨-, h2, h3⟩ := hr b i
  rw [result_real (l := l) (acc := acc) b i d _ _ (h3 d) h2
    (ne_of_gt (Finset.sum_pos (fun j _ => Real.exp_pos _) ⟨⟨0, by norm_num⟩, Finset.mem_univ _⟩))]
  exact congrArg (fun w : ℝ => (w : EReal)) (Cert.Attn.softmax_shift (fun j => s b i j) (fun j => Vr b j d) (r b i))

end Cert.FlashValue

end
-- ==== Proof.FlashValuePieces.lean ====
/-
  What the attention body leaves in its scratch accumulators and in the output tile, case by case: the pieces found
  by running the body, read back as arrays, are the arithmetic of one block step of the running softmax. At a tile's
  first block the step starts from the reset values (zero sums, maximum −∞, zero normaliser) whatever the scratch
  held; at every other block from the scratch contents; at a tile's last block the output tile is the quotient of
  the new weighted sums by the new normaliser. For any float instance.
-/
import proofs.«134109_j88158498718071_2_alg».proof.Proof.FlashRunC
import Idealize.ShloMosaic.Lib.Pipeline.Value
set_option maxRecDepth 16384

noncomputable section

namespace Cert.FlashValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-3 rectangle. -/
theorem hz3 : (![0, 0, 0] : Fin 3 → ℕ) = fun _ => 0 := funext fun a => by fin_cases a <;> rfl

/-! ## A tile's first block -/

theorem first_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) :
    View.canon (runFirst c i arg2 harg2 arg3 harg3 arg4 harg4 arg5 harg5 arg6 harg6 arg7 harg7 arg8 harg8 hc0 hc1 x0 x1 x2).1
      = k1_pay1 (k1_pay9 x0 x1 k1_pay5) (k1_pay12 x0 x1 x2 k1_pay5) k1_pay4 := by
  unfold runFirst; dsimp only
  sl_unfold_words
  rw [View.canon_cons_unit_zero (S := S4x1024x64) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

theorem first_max (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) :
    View.canon (runFirst c i arg2 harg2 arg3 harg3 arg4 harg4 arg5 harg5 arg6 harg6 arg7 harg7 arg8 harg8 hc0 hc1 x0 x1 x2).2.1 = k1_pay2 (k1_pay8 x0 x1 k1_pay5) := by
  unfold runFirst; dsimp only
  sl_unfold_words
  rw [View.canon_cons_unit_zero (S := S4x1024x1) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

theorem first_norm (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : isFirst i) (hc1 : ¬isLast i) (x0 : Vec F S4x1024x64 .bf16) (x1 x2 : Vec F S4x512x64 .bf16) :
    View.canon (runFirst c i arg2 harg2 arg3 harg3 arg4 harg4 arg5 harg5 arg6 harg6 arg7 harg7 arg8 harg8 hc0 hc1 x0 x1 x2).2.2.1 = k1_pay11 x0 x1 k1_pay5 k1_pay6 := by
  unfold runFirst; dsimp only
  sl_unfold_words
  rw [View.canon_cons_unit_zero (S := S4x1024x1) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

/-! ## A block that is neither first nor last -/

theorem middle_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) :
    View.canon (runMiddle c i arg2 harg2 arg3 harg3 arg4 harg4 arg5 harg5 arg6 harg6 arg7 harg7 arg8 harg8 hc0 hc1 x0 x1 x2 sa sm sl).1 = k1_pay1 (k1_pay9 x0 x1 sm) (k1_pay12 x0 x1 x2 sm) sa := by
  unfold runMiddle; dsimp only
  sl_unfold_words
  rw [View.canon_cons_unit_zero (S := S4x1024x64) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

theorem middle_max (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) :
    View.canon (runMiddle c i arg2 harg2 arg3 harg3 arg4 harg4 arg5 harg5 arg6 harg6 arg7 harg7 arg8 harg8 hc0 hc1 x0 x1 x2 sa sm sl).2.1 = k1_pay2 (k1_pay8 x0 x1 sm) := by
  unfold runMiddle; dsimp only
  sl_unfold_words
  rw [View.canon_cons_unit_zero (S := S4x1024x1) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

theorem middle_norm (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : ¬isLast i) (x0 : Vec F S4x1024x64 .bf16) (x1 x2 : Vec F S4x512x64 .bf16) (sa : Vec F S4x1024x64 .f32) (sm sl : Vec F S4x1024x1 .f32) :
    View.canon (runMiddle c i arg2 harg2 arg3 harg3 arg4 harg4 arg5 harg5 arg6 harg6 arg7 harg7 arg8 harg8 hc0 hc1 x0 x1 x2 sa sm sl).2.2.1 = k1_pay11 x0 x1 sm sl := by
  unfold runMiddle; dsimp only
  sl_unfold_words
  rw [View.canon_cons_unit_zero (S := S4x1024x1) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

/-! ## A tile's last block -/

theorem last_out (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) :
    View.canon (runLast c i arg2 harg2 arg3 harg3 arg4 harg4 arg5 harg5 arg6 harg6 arg7 harg7 arg8 harg8 hc0 hc1 x0 x1 x2 sa sm sl).1 = k1_pay3 (k1_pay1 (k1_pay9 x0 x1 sm) (k1_pay12 x0 x1 x2 sm) sa) (k1_pay11 x0 x1 sm sl) := by
  unfold runLast; dsimp only
  sl_unfold_words
  rw [View.canon_cons_unit_zero (S := S4x1024x64) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

theorem last_acc (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) :
    View.canon (runLast c i arg2 harg2 arg3 harg3 arg4 harg4 arg5 harg5 arg6 harg6 arg7 harg7 arg8 harg8 hc0 hc1 x0 x1 x2 sa sm sl).2.1 = k1_pay1 (k1_pay9 x0 x1 sm) (k1_pay12 x0 x1 x2 sm) sa := by
  unfold runLast; dsimp only
  sl_unfold_words
  rw [View.canon_cons_unit_zero (S := S4x1024x64) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

theorem last_max (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) :
    View.canon (runLast c i arg2 harg2 arg3 harg3 arg4 harg4 arg5 harg5 arg6 harg6 arg7 harg7 arg8 harg8 hc0 hc1 x0 x1 x2 sa sm sl).2.2.1 = k1_pay2 (k1_pay8 x0 x1 sm) := by
  unfold runLast; dsimp only
  sl_unfold_words
  rw [View.canon_cons_unit_zero (S := S4x1024x1) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

theorem last_norm (c : Dev nD) (i : grid1.Coords) (arg2 : Memref sig .tc .vmem S4x1024x64 .bf16) (harg2 : arg2.IsWhole) (arg3 : Memref sig .tc .vmem S4x512x64 .bf16) (harg3 : arg3.IsWhole) (arg4 : Memref sig .tc .vmem S4x512x64 .bf16) (harg4 : arg4.IsWhole) (arg5 : Memref sig .tc .vmem S4x1024x64 .f32) (harg5 : arg5.IsWhole) (arg6 : Memref sig .tc .vmem S4x1024x64 .f32) (harg6 : arg6.IsWhole) (arg7 : Memref sig .tc .vmem S4x1024x1 .f32) (harg7 : arg7.IsWhole) (arg8 : Memref sig .tc .vmem S4x1024x1 .f32) (harg8 : arg8.IsWhole) (hc0 : ¬isFirst i) (hc1 : isLast i) (x0 : Vec F S4x1024x64 .bf16) (x1 x2 : Vec F S4x512x64 .bf16) (sa : Vec F S4x1024x64 .f32) (sm sl : Vec F S4x1024x1 .f32) :
    View.canon (runLast c i arg2 harg2 arg3 harg3 arg4 harg4 arg5 harg5 arg6 harg6 arg7 harg7 arg8 harg8 hc0 hc1 x0 x1 x2 sa sm sl).2.2.2.1 = k1_pay11 x0 x1 sm sl := by
  unfold runLast; dsimp only
  sl_unfold_words
  rw [View.canon_cons_unit_zero (S := S4x1024x1) hz3]
  simp only [View.readCov_unit_zero (S := S4x1024x1) _ hz3, View.readCov_unit_zero (S := S4x1024x64) _ hz3,
    View.readAt_eq_ld, harg2.read_unread, harg3.read_unread, harg4.read_unread, harg6.read_unread, harg7.read_unread,
    harg8.read_unread, View.ld_unit_zero (S := S4x1024x64) hz3, View.ld_unit_zero (S := S4x512x64) hz3,
    View.ld_unit_zero (S := S4x1024x1) hz3]

end Cert.FlashValue

end
-- ==== Proof.FlashValueAt.lean ====
/-
  The scratch accumulators after a grid point and the output tile at a tile's last block, as the arithmetic of one
  block step applied to the point's blocks: from the reset values at a tile's first block, from what the point
  before left at every other block. For any float instance.
-/
import proofs.«134109_j88158498718071_2_alg».proof.Proof.FlashValuePieces
import proofs.«134109_j88158498718071_2_alg».proof.Proof.FlashData
set_option maxRecDepth 16384

noncomputable section

namespace Cert.FlashValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (V : (c : Dev nD) → (b : Ref sig .tc) → Buf (Elt F) ((c : Thread nD τ).loc b))

/-- After a tile's first block: one step from the reset values on the point's blocks. -/
theorem stAt_first_eq (c : Dev nD) (t : Fin cfg1.N) (h0 : t.val % 8 = 0) (h1 : ¬t.val % 8 = 7) :
    stAt V c t.val t.isLt
      = (k1_pay1 (k1_pay9 (blk1 V c 0 t) (blk1 V c 1 t) k1_pay5) (k1_pay12 (blk1 V c 0 t) (blk1 V c 1 t) (blk1 V c 2 t) k1_pay5) k1_pay4,
         k1_pay2 (k1_pay8 (blk1 V c 0 t) (blk1 V c 1 t) k1_pay5),
         k1_pay11 (blk1 V c 0 t) (blk1 V c 1 t) k1_pay5 k1_pay6) := by
  rw [stAt_first V c t h0 h1]
  unfold firstAt
  rw [first_acc c (grid1.coords t) (qM t) (qW t) (kM t) (kW t) (vM t) (vW t) (oM t) (oW t) accM (Memref.isWhole_whole _) mxM (Memref.isWhole_whole _) lsM (Memref.isWhole_whole _) ((isFirst_iff t).mpr h0) (fun h => h1 ((isLast_iff t).mp h)) (blk1 V c 0 t) (blk1 V c 1 t) (blk1 V c 2 t),
    first_max c (grid1.coords t) (qM t) (qW t) (kM t) (kW t) (vM t) (vW t) (oM t) (oW t) accM (Memref.isWhole_whole _) mxM (Memref.isWhole_whole _) lsM (Memref.isWhole_whole _) ((isFirst_iff t).mpr h0) (fun h => h1 ((isLast_iff t).mp h)) (blk1 V c 0 t) (blk1 V c 1 t) (blk1 V c 2 t),
    first_norm c (grid1.coords t) (qM t) (qW t) (kM t) (kW t) (vM t) (vW t) (oM t) (oW t) accM (Memref.isWhole_whole _) mxM (Memref.isWhole_whole _) lsM (Memref.isWhole_whole _) ((isFirst_iff t).mpr h0) (fun h => h1 ((isLast_iff t).mp h)) (blk1 V c 0 t) (blk1 V c 1 t) (blk1 V c 2 t)]

/-- After a block that is neither first nor last: one step from what the point before left. -/
theorem stAt_middle_eq (c : Dev nD) (t : Fin cfg1.N) (h0 : ¬t.val % 8 = 0) (h1 : ¬t.val % 8 = 7) :
    stAt V c t.val t.isLt
      = (k1_pay1 (k1_pay9 (blk1 V c 0 t) (blk1 V c 1 t) (prevSt V c t).2.1) (k1_pay12 (blk1 V c 0 t) (blk1 V c 1 t) (blk1 V c 2 t) (prevSt V c t).2.1) (prevSt V c t).1,
         k1_pay2 (k1_pay8 (blk1 V c 0 t) (blk1 V c 1 t) (prevSt V c t).2.1),
         k1_pay11 (blk1 V c 0 t) (blk1 V c 1 t) (prevSt V c t).2.1 (prevSt V c t).2.2) := by
  rw [stAt_middle V c t h0 h1]
  unfold middleAt
  rw [middle_acc c (grid1.coords t) (qM t) (qW t) (kM t) (kW t) (vM t) (vW t) (oM t) (oW t) accM (Memref.isWhole_whole _) mxM (Memref.isWhole_whole _) lsM (Memref.isWhole_whole _) (fun h => h0 ((isFirst_iff t).mp h)) (fun h => h1 ((isLast_iff t).mp h)) (blk1 V c 0 t) (blk1 V c 1 t) (blk1 V c 2 t) (prevSt V c t).1 (prevSt V c t).2.1 (prevSt V c t).2.2,
    middle_max c (grid1.coords t) (qM t) (qW t) (kM t) (kW t) (vM t) (vW t) (oM t) (oW t) accM (Memref.isWhole_whole _) mxM (Memref.isWhole_whole _) lsM (Memref.isWhole_whole _) (fun h => h0 ((isFirst_iff t).mp h)) (fun h => h1 ((isLast_iff t).mp h)) (blk1 V c 0 t) (blk1 V c 1 t) (blk1 V c 2 t) (prevSt V c t).1 (prevSt V c t).2.1 (prevSt V c t).2.2,
    middle_norm c (grid1.coords t) (qM t) (qW t) (kM t) (kW t) (vM t) (vW t) (oM t) (oW t) accM (Memref.isWhole_whole _) mxM (Memref.isWhole_whole _) lsM (Memref.isWhole_whole _) (fun h => h0 ((isFirst_iff t).mp h)) (fun h => h1 ((isLast_iff t).mp h)) (blk1 V c 0 t) (blk1 V c 1 t) (blk1 V c 2 t) (prevSt V c t).1 (prevSt V c t).2.1 (prevSt V c t).2.2]

/-- After a tile's last block: the same step. -/
theorem stAt_last_eq (c : Dev nD) (t : Fin cfg1.N) (h0 : ¬t.val % 8 = 0) (h1 : t.val % 8 = 7) :
    stAt V c t.val t.isLt
      = (k1_pay1 (k1_pay9 (blk1 V c 0 t) (blk1 V c 1 t) (prevSt V c t).2.1) (k1_pay12 (blk1 V c 0 t) (blk1 V c 1 t) (blk1 V c 2 t) (prevSt V c t).2.1) (prevSt V c t).1,
         k1_pay2 (k1_pay8 (blk1 V c 0 t) (blk1 V c 1 t) (prevSt V c t).2.1),
         k1_pay11 (blk1 V c 0 t) (blk1 V c 1 t) (prevSt V c t).2.1 (prevSt V c t).2.2) := by
  rw [stAt_last V c t h0 h1]
  unfold lastAt
  rw [last_acc c (grid1.coords t) (qM t) (qW t) (kM t) (kW t) (vM t) (vW t) (oM t) (oW t) accM (Memref.isWhole_whole _) mxM (Memref.isWhole_whole _) lsM (Memref.isWhole_whole _) (fun h => h0 ((isFirst_iff t).mp h)) ((isLast_iff t).mpr h1) (blk1 V c 0 t) (blk1 V c 1 t) (blk1 V c 2 t) (prevSt V c t).1 (prevSt V c t).2.1 (prevSt V c t).2.2,
    last_max c (grid1.coords t) (qM t) (qW t) (kM t) (kW t) (vM t) (vW t) (oM t) (oW t) accM (Memref.isWhole_whole _) mxM (Memref.isWhole_whole _) lsM (Memref.isWhole_whole _) (fun h => h0 ((isFirst_iff t).mp h)) ((isLast_iff t).mpr h1) (blk1 V c 0 t) (blk1 V c 1 t) (blk1 V c 2 t) (prevSt V c t).1 (prevSt V c t).2.1 (prevSt V c t).2.2,
    last_norm c (grid1.coords t) (qM t) (qW t) (kM t) (kW t) (vM t) (vW t) (oM t) (oW t) accM (Memref.isWhole_whole _) mxM (Memref.isWhole_whole _) lsM (Memref.isWhole_whole _) (fun h => h0 ((isFirst_iff t).mp h)) ((isLast_iff t).mpr h1) (blk1 V c 0 t) (blk1 V c 1 t) (blk1 V c 2 t) (prevSt V c t).1 (prevSt V c t).2.1 (prevSt V c t).2.2]

/-- The output tile at a tile's last block: the new weighted sums divided by the new normaliser. -/
theorem outAt_last_eq (c : Dev nD) (t : Fin cfg1.N) (h0 : ¬t.val % 8 = 0) (h1 : t.val % 8 = 7) :
    outAt V c t = k1_pay3 (k1_pay1 (k1_pay9 (blk1 V c 0 t) (blk1 V c 1 t) (prevSt V c t).2.1) (k1_pay12 (blk1 V c 0 t) (blk1 V c 1 t) (blk1 V c 2 t) (prevSt V c t).2.1) (prevSt V c t).1) (k1_pay11 (blk1 V c 0 t) (blk1 V c 1 t) (prevSt V c t).2.1 (prevSt V c t).2.2) := by
  rw [outAt_last V c t h0 h1]
  unfold lastAt
  rw [last_out c (grid1.coords t) (qM t) (qW t) (kM t) (kW t) (vM t) (vW t) (oM t) (oW t) accM (Memref.isWhole_whole _) mxM (Memref.isWhole_whole _) lsM (Memref.isWhole_whole _) (fun h => h0 ((isFirst_iff t).mp h)) ((isLast_iff t).mpr h1) (blk1 V c 0 t) (blk1 V c 1 t) (blk1 V c 2 t) (prevSt V c t).1 (prevSt V c t).2.1 (prevSt V c t).2.2]

end

end Cert.FlashValue

end
-- ==== Proof.FlashValueBlocks.lean ====
/-
  The blocks of the attention region's windows, read off the arrays by coordinates. Grid point t works on query
  tile t / 8 and on key/value block t % 8: the query block at (b, i, d) is the query array at (b, (t/8)·1024 + i, d),
  the key and value blocks at (b, j, d) are the key and value arrays at (b, (t%8)·512 + j, d). A block's coordinate
  on an axis is the block index times the block size plus the coordinate inside the block; the block indices are
  decided once over the 32 grid points. For any float instance.
-/
import proofs.«134109_j88158498718071_2_alg».proof.Proof.FlashData
import Idealize.ShloMosaic.Lib.Pipeline.Value
import Idealize.ShloMosaic.Lib.ValueIdx
set_option maxRecDepth 16384

noncomputable section

namespace Cert.FlashValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The block indices of the four windows at every grid point. -/
theorem idx_facts : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 3) = 0 ∧ win1_2.index t (1 : Fin 3) = t.val % 8 ∧ win1_2.index t (2 : Fin 3) = 0
    ∧ win1_3.index t (0 : Fin 3) = 0 ∧ win1_3.index t (1 : Fin 3) = t.val / 8 ∧ win1_3.index t (2 : Fin 3) = 0 :=
  (by decide +kernel : ∀ t : Fin grid1.N, _)

section
variable (V : (c : Dev nD) → (b : Ref sig .tc) → Buf (Elt F) ((c : Thread nD τ).loc b))

/-- The query block of point t is rows (t/8)·1024 … of the query array. -/
theorem blk_q (c : Dev nD) (t : Fin cfg1.N) (b : Fin 4) (i : Fin 1024) (d : Fin 64)
    (h : t.val / 8 * 1024 + i.val < 4096) :
    (blk1 V c 0 t : Vec F S4x1024x64 .bf16) (ix3 b i d) = V c main_v7 (ix3 b ⟨t.val / 8 * 1024 + i.val, h⟩ d) := by
  obtain ⟨e0, e1, e2, -⟩ := idx_facts t
  unfold blk1
  show V c main_v7 (((cfg1.win 0).blk t).view.emb (ix3 b i d)) = V c main_v7 _
  congr 1
  funext a; apply Fin.ext
  match a with
  | ⟨0, _⟩ => show win1_0.index t (0 : Fin 3) * 4 + 1 * b.val = b.val; omega
  | ⟨1, _⟩ => show win1_0.index t (1 : Fin 3) * 1024 + 1 * i.val = t.val / 8 * 1024 + i.val; omega
  | ⟨2, _⟩ => show win1_0.index t (2 : Fin 3) * 64 + 1 * d.val = d.val; omega

/-- The key block of point t is rows (t%8)·512 … of the key array. -/
theorem blk_k (c : Dev nD) (t : Fin cfg1.N) (b : Fin 4) (j : Fin 512) (d : Fin 64)
    (h : t.val % 8 * 512 + j.val < 4096) :
    (blk1 V c 1 t : Vec F S4x512x64 .bf16) (ix3 b j d) = V c main_v8 (ix3 b ⟨t.val % 8 * 512 + j.val, h⟩ d) := by
  obtain ⟨-, -, -, e0, e1, e2, -⟩ := idx_facts t
  unfold blk1
  show V c main_v8 (((cfg1.win 1).blk t).view.emb (ix3 b j d)) = V c main_v8 _
  congr 1
  funext a; apply Fin.ext
  match a with
  | ⟨0, _⟩ => show win1_1.index t (0 : Fin 3) * 4 + 1 * b.val = b.val; omega
  | ⟨1, _⟩ => show win1_1.index t (1 : Fin 3) * 512 + 1 * j.val = t.val % 8 * 512 + j.val; omega
  | ⟨2, _⟩ => show win1_1.index t (2 : Fin 3) * 64 + 1 * d.val = d.val; omega

/-- The value block of point t is rows (t%8)·512 … of the value array. -/
theorem blk_v (c : Dev nD) (t : Fin cfg1.N) (b : Fin 4) (j : Fin 512) (d : Fin 64)
    (h : t.val % 8 * 512 + j.val < 4096) :
    (blk1 V c 2 t : Vec F S4x512x64 .bf16) (ix3 b j d) = V c main_v9 (ix3 b ⟨t.val % 8 * 512 + j.val, h⟩ d) := by
  obtain ⟨-, -, -, -, -, -, e0, e1, e2, -⟩ := idx_facts t
  unfold blk1
  show V c main_v9 (((cfg1.win 2).blk t).view.emb (ix3 b j d)) = V c main_v9 _
  congr 1
  funext a; apply Fin.ext
  match a with
  | ⟨0, _⟩ => show win1_2.index t (0 : Fin 3) * 4 + 1 * b.val = b.val; omega
  | ⟨1, _⟩ => show win1_2.index t (1 : Fin 3) * 512 + 1 * j.val = t.val % 8 * 512 + j.val; omega
  | ⟨2, _⟩ => show win1_2.index t (2 : Fin 3) * 64 + 1 * d.val = d.val; omega

end

end Cert.FlashValue

end
-- ==== Proof.FlashValueTile.lean ====
/-
  The running softmax over the grid points of the attention region, at the ideal values, on real data.

  Grid point t works on query tile t / 8 (rows (t/8)·1024 + i) and key/value block t % 8 (keys (t%8)·512 + jj). By
  induction on the point, after point t the scratch accumulators hold the running-softmax state of the tile over
  the keys j < (t%8 + 1)·512; at a tile's last block every key has been seen and the output tile is the
  softmax-weighted average of the values.
-/
import proofs.«134109_j88158498718071_2_alg».proof.Proof.FlashValueStep
import proofs.«134109_j88158498718071_2_alg».proof.Proof.FlashValueAt
import proofs.«134109_j88158498718071_2_alg».proof.Proof.FlashValueBlocks

set_option maxRecDepth 16384

noncomputable section

open scoped BigOperators

namespace Cert.FlashValue

open Cert.KernelIdeal Cert.KernelIdeal.Gen Cert.KernelIdeal.Hand Cert.FlashStep
open Idealize.ShloMosaic Idealize.ShloMosaic.TcCoe Idealize.ShloMosaic.ValueIdx

/-- The grid has 32 points. -/
theorem N32 : cfg1.N = 32 := N_1

/-- Row i of the query tile of point n, as a row of the whole sequence. -/
def qrow (n : ℕ) (hn : n < cfg1.N) (i : Fin 1024) : Fin 4096 :=
  ⟨n / 8 * 1024 + i.val, by have := N32; have := i.isLt; omega⟩

/-- The key/value block of point n is one of eight. -/
theorem blk_lt (n : ℕ) : n % 8 < 8 := Nat.mod_lt _ (by norm_num)

section
variable (V : (c : Dev nD) → (b : Ref sig .tc) → Buf (Elt Ideal) ((c : Thread nD τ).loc b)) (c : Dev nD)
  (Qr Kr Vr : Fin 4 → Fin 4096 → Fin 64 → ℝ)
  (hQ : ∀ b s d, V c main_v7 (ix3 b s d) = ((Qr b s d : ℝ) : EReal))
  (hK : ∀ b s d, V c main_v8 (ix3 b s d) = ((Kr b s d : ℝ) : EReal))
  (hV : ∀ b s d, V c main_v9 (ix3 b s d) = ((Vr b s d : ℝ) : EReal))

/-- The scores of the rows of point n's query tile against every key. -/
def tileSc (n : ℕ) (hn : n < cfg1.N) (b : Fin 4) (i : Fin 1024) (j : Fin 4096) : ℝ := sc Qr Kr b (qrow n hn i) j

include hQ in
/-- The query block of a point holds the real query rows of its tile. -/
theorem q_read (t : Fin cfg1.N) (b : Fin 4) (i : Fin 1024) (d : Fin 64) :
    (blk1 V c 0 t : Vec Ideal S4x1024x64 .bf16) (ix3 b i d) = ((Qr b (qrow t.val t.isLt i) d : ℝ) : EReal) :=
  (blk_q V c t b i d (qrow t.val t.isLt i).isLt).trans (hQ b _ d)

include hK in
/-- The key block of a point holds the real key rows of its block. -/
theorem k_read (t : Fin cfg1.N) (b : Fin 4) (jj : Fin 512) (d : Fin 64) :
    (blk1 V c 1 t : Vec Ideal S4x512x64 .bf16) (ix3 b jj d) = ((Kr b (krow (t.val % 8) (blk_lt t.val) jj) d : ℝ) : EReal) :=
  (blk_k V c t b jj d (krow (t.val % 8) (blk_lt t.val) jj).isLt).trans (hK b _ d)

include hV in
/-- The value block of a point holds the real value rows of its block. -/
theorem v_read (t : Fin cfg1.N) (b : Fin 4) (jj : Fin 512) (d : Fin 64) :
    (blk1 V c 2 t : Vec Ideal S4x512x64 .bf16) (ix3 b jj d) = ((Vr b (krow (t.val % 8) (blk_lt t.val) jj) d : ℝ) : EReal) :=
  (blk_v V c t b jj d (krow (t.val % 8) (blk_lt t.val) jj).isLt).trans (hV b _ d)

include hQ hK hV

/-- A tile's first block establishes the state over the first 512 keys. -/
theorem point_first (t : Fin cfg1.N) (h0 : t.val % 8 = 0) :
    Inv (stAt V c t.val t.isLt) (tileSc Qr Kr t.val t.isLt) Vr (keys (t.val % 8 + 1)) := by
  rw [stAt_first_eq V c t h0 (by omega)]
  exact inv_first (blk1 V c 0 t) (blk1 V c 1 t) (blk1 V c 2 t)
    (fun b i d => Qr b (qrow t.val t.isLt i) d) (fun b jj d => Kr b (krow (t.val % 8) (blk_lt t.val) jj) d)
    (fun b jj d => Vr b (krow (t.val % 8) (blk_lt t.val) jj) d)
    (q_read V c Qr hQ t) (k_read V c Kr hK t) (v_read V c Vr hV t)
    (tileSc Qr Kr t.val t.isLt) Vr (t.val % 8) (blk_lt t.val) (fun b i jj => rfl) (fun b jj d => rfl) h0

/-- Every further block extends the state by its 512 keys. -/
theorem point_next (t : Fin cfg1.N) (h0 : ¬t.val % 8 = 0)
    (hprev : Inv (prevSt V c t) (tileSc Qr Kr t.val t.isLt) Vr (keys (t.val % 8))) :
    Inv (stAt V c t.val t.isLt) (tileSc Qr Kr t.val t.isLt) Vr (keys (t.val % 8 + 1)) := by
  have hstep := inv_step (blk1 V c 0 t) (blk1 V c 1 t) (blk1 V c 2 t)
    (fun b i d => Qr b (qrow t.val t.isLt i) d) (fun b jj d => Kr b (krow (t.val % 8) (blk_lt t.val) jj) d)
    (fun b jj d => Vr b (krow (t.val % 8) (blk_lt t.val) jj) d)
    (q_read V c Qr hQ t) (k_read V c Kr hK t) (v_read V c Vr hV t)
    (tileSc Qr Kr t.val t.isLt) Vr (t.val % 8) (blk_lt t.val) (fun b i jj => rfl) (fun b jj d => rfl)
    (prevSt V c t).1 (prevSt V c t).2.1 (prevSt V c t).2.2 hprev
  by_cases h1 : t.val % 8 = 7
  · rw [stAt_last_eq V c t h0 h1]; exact hstep
  · rw [stAt_middle_eq V c t h0 h1]; exact hstep

/-- After every grid point the scratch accumulators hold the running-softmax state of the point's tile over the
    keys of the blocks seen so far. -/
theorem stAt_inv : ∀ (n : ℕ) (hn : n < cfg1.N), Inv (stAt V c n hn) (tileSc Qr Kr n hn) Vr (keys (n % 8 + 1))
  | 0, hn => point_first V c Qr Kr Vr hQ hK hV ⟨0, hn⟩ (Nat.zero_mod 8)
  | n + 1, hn => by
    by_cases h0 : (n + 1) % 8 = 0
    · exact point_first V c Qr Kr Vr hQ hK hV ⟨n + 1, hn⟩ h0
    · refine point_next V c Qr Kr Vr hQ hK hV ⟨n + 1, hn⟩ h0 ?_
      have ih := stAt_inv n (Nat.lt_of_succ_lt hn)
      have e1 : n % 8 + 1 = (n + 1) % 8 := by omega
      have e2 : tileSc Qr Kr n (Nat.lt_of_succ_lt hn) = tileSc Qr Kr (n + 1) hn :=
        funext fun b => funext fun i => funext fun j =>
          congrArg (fun s => sc Qr Kr b s j) (Fin.ext (by show n / 8 * 1024 + i.val = (n + 1) / 8 * 1024 + i.val; omega))
      rw [e1, e2] at ih
      exact ih

/-- The running softmax, spelt out: after point n, for some real shifts r, the running maximum is r, the
    normaliser the sum of exp(score − r) over the keys seen so far, the weighted sums likewise. -/
theorem running_softmax (n : ℕ) (hn : n < cfg1.N) :
    ∃ r : Fin 4 → Fin 1024 → ℝ, ∀ b i,
      (stAt V c n hn).2.1 (ix3 b i 0) = ((r b i : ℝ) : EReal)
      ∧ (stAt V c n hn).2.2 (ix3 b i 0)
          = ((∑ j ∈ Finset.univ.filter (fun j : Fin 4096 => j.val < (n % 8 + 1) * 512),
              Real.exp (sc Qr Kr b (qrow n hn i) j - r b i) : ℝ) : EReal)
      ∧ ∀ d, (stAt V c n hn).1 (ix3 b i d)
          = ((∑ j ∈ Finset.univ.filter (fun j : Fin 4096 => j.val < (n % 8 + 1) * 512),
              Real.exp (sc Qr Kr b (qrow n hn i) j - r b i) * Vr b j d : ℝ) : EReal) :=
  stAt_inv V c Qr Kr Vr hQ hK hV n hn

/-- The output tile at a tile's last block is the attention of the real arrays on the tile's rows. -/
theorem out_tile (t : Fin cfg1.N) (h1 : t.val % 8 = 7) (b : Fin 4) (i : Fin 1024) (d : Fin 64) :
    outAt V c t (ix3 b i d) = ((Cert.Attn.attn (sc Qr Kr) Vr b (qrow t.val t.isLt i) d : ℝ) : EReal) := by
  have h0 : ¬t.val % 8 = 0 := by omega
  have hI := stAt_inv V c Qr Kr Vr hQ hK hV t.val t.isLt
  rw [stAt_last_eq V c t h0 h1, h1, keys_eight] at hI
  rw [outAt_last_eq V c t h0 h1]
  exact out_of_inv _ _ _ (tileSc Qr Kr t.val t.isLt) Vr hI b i d

/-- The same with the row of the sequence written out. -/
theorem out_tile_row (t : Fin cfg1.N) (h1 : t.val % 8 = 7) (b : Fin 4) (i : Fin 1024) (d : Fin 64)
    (h : t.val / 8 * 1024 + i.val < 4096) :
    outAt V c t (ix3 b i d) = ((Cert.Attn.attn (sc Qr Kr) Vr b ⟨t.val / 8 * 1024 + i.val, h⟩ d : ℝ) : EReal) :=
  out_tile V c Qr Kr Vr hQ hK hV t h1 b i d

end

end Cert.FlashValue

end
-- ==== Proof.KernelValue.lean ====
/-
  The kernel's result buffer at the last boundary is the attention head of the arguments.

  The attention region's output array is assembled from the tiles written at each query tile's last key block; a
  tile holds the running weighted sum divided by the running normaliser, which over all 4096 keys is the
  softmax-weighted average at the scores ∑ d, (q·1/8)(b,i,d)·k(b,j,d) — the 1/8 having been folded into the query
  projection by the host operations before the first launch — and that is the scaled score (q·kᵀ)/8 of the
  specification.
-/
import proofs.«134109_j88158498718071_2_alg».proof.Proof.HostReads
import proofs.«134109_j88158498718071_2_alg».proof.Proof.FlashArray
import proofs.«134109_j88158498718071_2_alg».proof.Proof.FlashValueTile

noncomputable section

namespace Cert.KernelIdeal.Hand

open Cert.KernelIdeal Cert.KernelIdeal.Gen
open Idealize.ShloMosaic Idealize.ShloMosaic.TcCoe Idealize.ShloMosaic.ValueIdx Idealize.SL.Sem
open Cert.Attn (Finite rx rw proj score attn head G)
open Idealize.ShloMosaic.Pipeline (Dat)

variable (m : (ℓ : Loc nD τ sig) → Buf (Elt Ideal) ℓ) (ρ : Dev nD → PrngReg)

/-- The three projections as the attention region finds them: the query projection scaled by 1/8. -/
def Qr (c : Dev nD) : Fin 4 → Fin 4096 → Fin 64 → ℝ := fun b s d =>
  proj (rx (m ((c : Thread nD τ).loc main_arg0))) (rw (m ((c : Thread nD τ).loc main_arg1))) b s d * (1 / 8)
def Kr (c : Dev nD) : Fin 4 → Fin 4096 → Fin 64 → ℝ :=
  proj (rx (m ((c : Thread nD τ).loc main_arg0))) (rw (m ((c : Thread nD τ).loc main_arg2)))
def Vr (c : Dev nD) : Fin 4 → Fin 4096 → Fin 64 → ℝ :=
  proj (rx (m ((c : Thread nD τ).loc main_arg0))) (rw (m ((c : Thread nD τ).loc main_arg3)))

/-- The unscaled-looking scores of the scaled queries are the specification's scaled scores. -/
theorem scores_eq (c : Dev nD) :
    Cert.FlashValue.sc (Qr m c) (Kr m c)
      = score (proj (rx (m ((c : Thread nD τ).loc main_arg0))) (rw (m ((c : Thread nD τ).loc main_arg1))))
          (proj (rx (m ((c : Thread nD τ).loc main_arg0))) (rw (m ((c : Thread nD τ).loc main_arg2)))) :=
  show (fun b i j => ∑ d, (proj (rx (m ((c : Thread nD τ).loc main_arg0))) (rw (m ((c : Thread nD τ).loc main_arg1))) b i d * (1 / 8))
      * proj (rx (m ((c : Thread nD τ).loc main_arg0))) (rw (m ((c : Thread nD τ).loc main_arg2))) b j d) = _ from score_of_scaled _ _

/-- The result array is the attention head of the arguments. -/
theorem result_eq_G (c : Dev nD)
    (hx : Finite (S := Cert.Attn.SX) (m ((c : Thread nD τ).loc main_arg0))) (hq : Finite (S := Cert.Attn.SW) (m ((c : Thread nD τ).loc main_arg1)))
    (hk : Finite (S := Cert.Attn.SW) (m ((c : Thread nD τ).loc main_arg2))) (hv : Finite (S := Cert.Attn.SW) (m ((c : Thread nD τ).loc main_arg3))) :
    L4 m ρ c (Proc.devRef .tc main_v10)
      = G (m ((c : Thread nD τ).loc main_arg0)) (m ((c : Thread nD τ).loc main_arg1)) (m ((c : Thread nD τ).loc main_arg2)) (m ((c : Thread nD τ).loc main_arg3)) := by
  have harr : L4 m ρ c (Proc.devRef .tc main_v10) = (dat1 (E3 m ρ) c).arrAt 3 cfg1.N := L4_arr m ρ c 3
  rw [harr, Cert.FlashValue.out_array_eq (E3 m ρ) c
    (fun b s d => ((attn (Cert.FlashValue.sc (Qr m c) (Kr m c)) (Vr m c) b s d : ℝ) : EReal))
    (fun t h7 b i d => Cert.FlashValue.out_tile_row (E3 m ρ) c (Qr m c) (Kr m c) (Vr m c)
      (fun b s d => E3_v7_apply m ρ c hx hq b s d) (fun b s d => E3_v8_apply m ρ c hx hk b s d) (fun b s d => E3_v9_apply m ρ c hx hv b s d) t h7 b i d _)]
  funext j
  show ((attn (Cert.FlashValue.sc (Qr m c) (Kr m c)) (Vr m c) (j 0) (j 1) (j 2) : ℝ) : EReal) = G _ _ _ _ j
  rw [scores_eq m c]
  rfl

end Cert.KernelIdeal.Hand

end
-- ==== Proof.RefAttnLemmas.lean ====
/-
  Facts about extended reals used to read the reference's softmax: a running maximum of real numbers that starts
  from −∞ over a nonempty range is a real number; the bit patterns of the constants 64, −∞; the square root of 64.
-/
import proofs.«134109_j88158498718071_2_alg».proof.Proof.Spec
import proofs.«134109_j88158498718071_2_alg».proof.Proof.LibERealSum
import Idealize.ShloMosaic.PureOps.Ideal.Laws

noncomputable section

open scoped BigOperators

namespace Cert.RefAttn

open Idealize.ShloMosaic

/-- The maximum of −∞ and a real number is that real number. -/
theorem max_bot_coe (r : ℝ) : max (⊥ : EReal) (r : EReal) = (r : EReal) := max_eq_right bot_le

/-- The maximum of a real number and −∞ is that real number. -/
theorem max_coe_bot (r : ℝ) : max (r : EReal) (⊥ : EReal) = (r : EReal) := max_eq_left bot_le

/-- Folding the maximum over a nonempty finite family of real numbers, starting from −∞, gives a real number. -/
theorem fold_max_bot_coe {ι : Type*} (s : Finset ι) (hs : s.Nonempty) (g : ι → EReal) (f : ι → ℝ)
    (hg : ∀ k, g k = ((f k : ℝ) : EReal)) : ∃ r : ℝ, s.fold max (⊥ : EReal) g = (r : EReal) := by
  classical
  induction hs using Finset.Nonempty.cons_induction with
  | singleton a =>
    refine ⟨f a, ?_⟩
    rw [Finset.fold_singleton, hg a, max_coe_bot]
  | cons a s ha hs ih =>
    obtain ⟨r, hr⟩ := ih
    refine ⟨max (f a) r, ?_⟩
    rw [Finset.fold_cons, hr, hg a, Cert.LibERealSum.max_coe]

/-- The single-precision pattern 0x42800000 is the real number 64. -/
theorem ofBits_64 : Ideal.ofBits .f32 0x42800000#32 = ((64 : ℝ) : EReal) := by
  simp [Ideal.ofBits, Ideal.ieee, -EReal.coe_mul]; norm_num

/-- The single-precision pattern 0xFF800000 is −∞. -/
theorem ofBits_neg_inf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  rw [Cert.LibERealSum.sqrt_coe_nonneg (by norm_num : (0 : ℝ) ≤ 64)]
  congr 1
  rw [show (64 : ℝ) = 8 ^ 2 by norm_num]
  exact Real.sqrt_sq (by norm_num)

end Cert.RefAttn

end
-- ==== Proof.RefAttnScores.lean ====
/-
  The reference's projections and scaled scores, read at an index by coordinates, are real numbers: the entry of
  x·Wᵀ at (b, s, d) is the coerced sum ∑ e, x(b,s,e)·W(d,e), and the score at (b, i, j) is the coerced
  (∑ d, q(b,i,d)·k(b,j,d)) / 8.
-/
import proofs.«134109_j88158498718071_2_alg».proof.Proof.Gen.ReferenceIdeal.Read
import proofs.«134109_j88158498718071_2_alg».proof.Proof.RefAttnLemmas

noncomputable section

open scoped BigOperators

namespace Cert.RefAttn

open Idealize.ShloMosaic Idealize.ShloMosaic.ValueIdx Cert.ReferenceIdeal Cert.ReferenceIdeal.Read Cert.Attn

/-! ## The index functions of the generated reading lemmas, by coordinates -/

theorem lidx_v0 (b : Fin 4) (s : Fin 4096) (d : Fin 64) (k : Fin 1024) :
    lidx_main_v0 (ix3 b s d) k = ix3 b s k :=
  funext fun a => match a with | ⟨0, _⟩ => rfl | ⟨1, _⟩ => rfl | ⟨2, _⟩ => rfl

theorem ridx_v0 (b : Fin 4) (s : Fin 4096) (d : Fin 64) (k : Fin 1024) :
    ridx_main_v0 (ix3 b s d) k = ix2 d k :=
  funext fun a => match a with | ⟨0, _⟩ => rfl | ⟨1, _⟩ => rfl

theorem lidx_v4 (b : Fin 4) (i j : Fin 4096) (d : Fin 64) :
    lidx_main_v4 (ix3 b i j) d = ix3 b i d :=
  funext fun a => match a with | ⟨0, _⟩ => rfl | ⟨1, _⟩ => rfl | ⟨2, _⟩ => rfl

theorem ridx_v4 (b : Fin 4) (i j : Fin 4096) (d : Fin 64) :
    ridx_main_v4 (ix3 b i j) d = ix3 b j d :=
  funext fun a => match a with | ⟨0, _⟩ => rfl | ⟨1, _⟩ => rfl | ⟨2, _⟩ => rfl

/-! ## The projections -/

/-- The entry of x·Wᵀ at (b, s, d) is the real number ∑ e, x(b,s,e)·W(d,e). -/
theorem v0_coe (x : FVec Ideal S4x4096x1024 .f32) (w : FVec Ideal S64x1024 .f32) (hx : Finite x) (hw : Finite w)
    (b : Fin 4) (s : Fin 4096) (d : Fin 64) :
    val_main_v0 (F := Ideal) x w (ix3 b s d) = ((proj (rx x) (rw w) b s d : ℝ) : EReal) := by
  rw [val_main_v0_apply]
  unfold proj
  refine Cert.LibERealSum.sum_eq_coe Finset.univ _ _ fun k _ => ?_
  rw [lidx_v0, ridx_v0, hx (ix3 b s k), hw (ix2 d k), ← EReal.coe_mul]
  rfl

theorem v1_eq_v0 (x : FVec Ideal S4x4096x1024 .f32) (w : FVec Ideal S64x1024 .f32) :
    val_main_v1 (F := Ideal) x w = val_main_v0 (F := Ideal) x w := rfl

theorem v2_eq_v0 (x : FVec Ideal S4x4096x1024 .f32) (w : FVec Ideal S64x1024 .f32) :
    val_main_v2 (F := Ideal) x w = val_main_v0 (F := Ideal) x w := rfl

/-! ## The scores -/

/-- The unscaled score at (b, i, j) is the real number ∑ d, q(b,i,d)·k(b,j,d). -/
theorem v4_coe (x : FVec Ideal S4x4096x1024 .f32) (wq wk : FVec Ideal S64x1024 .f32)
    (hx : Finite x) (hq : Finite wq) (hk : Finite wk) (b : Fin 4) (i j : Fin 4096) :
    val_main_v4 (F := Ideal) x wq wk (ix3 b i j)
      = ((∑ d, proj (rx x) (rw wq) b i d * proj (rx x) (rw wk) b j d : ℝ) : EReal) := by
  rw [val_main_v4_apply]
  refine Cert.LibERealSum.sum_eq_coe Finset.univ _ _ fun d _ => ?_
  rw [lidx_v4, ridx_v4, v1_eq_v0, v0_coe x wq hx hq, v0_coe x wk hx hk, ← EReal.coe_mul]

/-- The scale: the square root of the constant 64 is 8, at every index. -/
theorem v5_coe (i : S4x4096x4096.Idx) : val_main_v5 (F := Ideal) i = ((8 : ℝ) : EReal) := by
  rw [val_main_v5_apply, val_main_v3_apply, val_main_cst_apply, Ideal.hostUnary_sqrt_def, Ideal.ofBits_def, ofBits_64,
    sqrt_64]

/-- The scaled score at (b, i, j) is the real number (∑ d, q(b,i,d)·k(b,j,d)) / 8. -/
theorem v6_coe (x : FVec Ideal S4x4096x1024 .f32) (wq wk : FVec Ideal S64x1024 .f32)
    (hx : Finite x) (hq : Finite wq) (hk : Finite wk) (b : Fin 4) (i j : Fin 4096) :
    val_main_v6 (F := Ideal) x wq wk (ix3 b i j)
      = ((score (proj (rx x) (rw wq)) (proj (rx x) (rw wk)) b i j : ℝ) : EReal) := by
  rw [val_main_v6_apply, Ideal.hostDivf_def, v4_coe x wq wk hx hq hk, v5_coe,
    Cert.LibERealSum.div_coe_coe _ (by norm_num : (8 : ℝ) ≠ 0)]
  rfl

end Cert.RefAttn

end
-- ==== Proof.RefAttnSoftmax.lean ====
/-
  The reference's softmax in the row-maximum form, read at an index by coordinates. The row maximum, taken as a
  running maximum from −∞ over the 4096 real scores of the row, is a real number r; which one is immaterial. Given
  that r, the shifted scores, their exponentials, the row sum of the exponentials and the normalised weights are the
  coerced real expressions.
-/
import proofs.«134109_j88158498718071_2_alg».proof.Proof.RefAttnScores

noncomputable section

open scoped BigOperators

namespace Cert.RefAttn

open Idealize.ShloMosaic Idealize.ShloMosaic.ValueIdx Cert.ReferenceIdeal Cert.ReferenceIdeal.Read Cert.Attn

/-! ## The index functions of the broadcasts, the row sum and the last product, by coordinates -/

theorem idx_v10_v11 (b : Fin 4) (i j : Fin 4096) : idx_main_v10 (idx_main_v11 (ix3 b i j)) = ix2 b i :=
  funext fun a => match a with | ⟨0, _⟩ => rfl | ⟨1, _⟩ => rfl

theorem idx_v15_v16 (b : Fin 4) (i j : Fin 4096) : idx_main_v15 (idx_main_v16 (ix3 b i j)) = ix2 b i :=
  funext fun a => match a with | ⟨0, _⟩ => rfl | ⟨1, _⟩ => rfl

theorem idx_v14 (b : Fin 4) (i k : Fin 4096) : idx_main_v14 (ix2 b i) k = ix3 b i k :=
  funext fun a => match a with | ⟨0, _⟩ => rfl | ⟨1, _⟩ => rfl | ⟨2, _⟩ => rfl

theorem lidx_v18 (b : Fin 4) (i : Fin 4096) (d : Fin 64) (k : Fin 4096) : lidx_main_v18 (ix3 b i d) k = ix3 b i k :=
  funext fun a => match a with | ⟨0, _⟩ => rfl | ⟨1, _⟩ => rfl | ⟨2, _⟩ => rfl

theorem ridx_v18 (b : Fin 4) (i : Fin 4096) (d : Fin 64) (k : Fin 4096) : ridx_main_v18 (ix3 b i d) k = ix3 b k d :=
  funext fun a => match a with | ⟨0, _⟩ => rfl | ⟨1, _⟩ => rfl | ⟨2, _⟩ => rfl

/-- The scores of the real arrays: q·kᵀ / 8. -/
abbrev sc (x : FVec Ideal S4x4096x1024 .f32) (wq wk : FVec Ideal S64x1024 .f32) : Fin 4 → Fin 4096 → Fin 4096 → ℝ :=
  score (proj (rx x) (rw wq)) (proj (rx x) (rw wk))

/-- Every scaled score, at any index, is a real number. -/
theorem v6_real (x : FVec Ideal S4x4096x1024 .f32) (wq wk : FVec Ideal S64x1024 .f32) (hx : Finite x) (hq : Finite wq) (hk : Finite wk) (t : S4x4096x4096.Idx) :
    val_main_v6 (F := Ideal) x wq wk t = ((sc x wq wk (t 0) (t 1) (t 2) : ℝ) : EReal) := by
  rw [eq_ix3 t]
  exact v6_coe x wq wk hx hq hk _ _ _

/-- The running maximum of a row of scores from −∞ is a real number. -/
theorem v7_coe (x : FVec Ideal S4x4096x1024 .f32) (wq wk : FVec Ideal S64x1024 .f32) (hx : Finite x) (hq : Finite wq) (hk : Finite wk) (j : S4x4096.Idx) :
    ∃ r : ℝ, val_main_v7 (F := Ideal) x wq wk j = (r : EReal) := by
  unfold val_main_v7
  have hR : S4x4096x4096.Reduces [2] S4x4096 := by decide
  rw [Host.reduce_eq_fold_single FloatOps.maximumf _ _ _ hR, val_main_cst_0_apply, Ideal.ofBits_def, ofBits_neg_inf]
  exact fold_max_bot_coe Finset.univ ⟨⟨0, by decide⟩, Finset.mem_univ _⟩ _
    (fun k => sc x wq wk (hR.lift j k 0) (hR.lift j k 1) (hR.lift j k 2)) (fun k => v6_real x wq wk hx hq hk _)

/-- The maximum of −∞ and the row maximum is the same real number. -/
theorem v9_coe (x : FVec Ideal S4x4096x1024 .f32) (wq wk : FVec Ideal S64x1024 .f32) (hx : Finite x) (hq : Finite wq) (hk : Finite wk) (j : S4x4096.Idx) :
    ∃ r : ℝ, val_main_v9 (F := Ideal) x wq wk j = (r : EReal) := by
  obtain ⟨r, hr⟩ := v7_coe x wq wk hx hq hk j
  refine ⟨r, ?_⟩
  rw [val_main_v9_apply, val_main_v8_apply, val_main_cst_1_apply, Ideal.ofBits_def, ofBits_neg_inf, Ideal.maximumf_def, hr,
    max_bot_coe]

/-- The row maximum broadcast back along the row. -/
theorem v11_eq (x : FVec Ideal S4x4096x1024 .f32) (wq wk : FVec Ideal S64x1024 .f32) (b : Fin 4) (i j : Fin 4096) :
    val_main_v11 (F := Ideal) x wq wk (ix3 b i j) = val_main_v9 (F := Ideal) x wq wk (ix2 b i) := by
  rw [val_main_v11_apply, val_main_v10_apply, idx_v10_v11]

/-- The shifted score. -/
theorem v12_coe (x : FVec Ideal S4x4096x1024 .f32) (wq wk : FVec Ideal S64x1024 .f32) (hx : Finite x) (hq : Finite wq) (hk : Finite wk) (b : Fin 4) (i : Fin 4096) (r : ℝ) (hr : val_main_v9 (F := Ideal) x wq wk (ix2 b i) = (r : EReal)) (j : Fin 4096) :
    val_main_v12 (F := Ideal) x wq wk (ix3 b i j) = ((sc x wq wk b i j - r : ℝ) : EReal) := by
  rw [val_main_v12_apply, Ideal.subf_def, v6_coe x wq wk hx hq hk, v11_eq, hr, ← EReal.coe_sub]

/-- The exponential of the shifted score. -/
theorem v13_coe (x : FVec Ideal S4x4096x1024 .f32) (wq wk : FVec Ideal S64x1024 .f32) (hx : Finite x) (hq : Finite wq) (hk : Finite wk) (b : Fin 4) (i : Fin 4096) (r : ℝ) (hr : val_main_v9 (F := Ideal) x wq wk (ix2 b i) = (r : EReal)) (j : Fin 4096) :
    val_main_v13 (F := Ideal) x wq wk (ix3 b i j) = ((Real.exp (sc x wq wk b i j - r) : ℝ) : EReal) := by
  rw [val_main_v13_apply, Ideal.hostUnary_exp_def, v12_coe x wq wk hx hq hk b i r hr, Ideal.exp_coe]

/-- The row sum of the exponentials. -/
theorem v14_coe (x : FVec Ideal S4x4096x1024 .f32) (wq wk : FVec Ideal S64x1024 .f32) (hx : Finite x) (hq : Finite wq) (hk : Finite wk) (b : Fin 4) (i : Fin 4096) (r : ℝ) (hr : val_main_v9 (F := Ideal) x wq wk (ix2 b i) = (r : EReal)) :
    val_main_v14 (F := Ideal) x wq wk (ix2 b i) = ((∑ k, Real.exp (sc x wq wk b i k - r) : ℝ) : EReal) := by
  rw [val_main_v14_apply, val_main_cst_2_apply, Ideal.ofBits_def, Ideal.ofBits_zero_f32, zero_add]
  refine Cert.LibERealSum.sum_eq_coe Finset.univ _ _ fun k _ => ?_
  rw [idx_v14, v13_coe x wq wk hx hq hk b i r hr]

/-- The row sum broadcast back along the row. -/
theorem v16_eq (x : FVec Ideal S4x4096x1024 .f32) (wq wk : FVec Ideal S64x1024 .f32) (b : Fin 4) (i j : Fin 4096) :
    val_main_v16 (F := Ideal) x wq wk (ix3 b i j) = val_main_v14 (F := Ideal) x wq wk (ix2 b i) := by
  rw [val_main_v16_apply, val_main_v15_apply, idx_v15_v16]

/-- The row sum of the exponentials is positive. -/
theorem sum_exp_pos (x : FVec Ideal S4x4096x1024 .f32) (wq wk : FVec Ideal S64x1024 .f32) (b : Fin 4) (i : Fin 4096) (r : ℝ) : 0 < ∑ k, Real.exp (sc x wq wk b i k - r) :=
  Finset.sum_pos (fun k _ => Real.exp_pos _) ⟨⟨0, by decide⟩, Finset.mem_univ _⟩

/-- The normalised weight. -/
theorem v17_coe (x : FVec Ideal S4x4096x1024 .f32) (wq wk : FVec Ideal S64x1024 .f32) (hx : Finite x) (hq : Finite wq) (hk : Finite wk) (b : Fin 4) (i : Fin 4096) (r : ℝ) (hr : val_main_v9 (F := Ideal) x wq wk (ix2 b i) = (r : EReal)) (j : Fin 4096) :
    val_main_v17 (F := Ideal) x wq wk (ix3 b i j)
      = ((Real.exp (sc x wq wk b i j - r) / ∑ k, Real.exp (sc x wq wk b i k - r) : ℝ) : EReal) := by
  rw [val_main_v17_apply, Ideal.hostDivf_def, v13_coe x wq wk hx hq hk b i r hr, v16_eq, v14_coe x wq wk hx hq hk b i r hr,
    Cert.LibERealSum.div_coe_coe _ (sum_exp_pos x wq wk b i r).ne']

end Cert.RefAttn

end
-- ==== Proof.RefAttn.lean ====
/-
  The reference is the attention head G of its four argument arrays.

  At an index (b, i, d) the reference's result is ∑ j, w(b,i,j)·v(b,j,d) where the weight w(b,i,j) is
  exp(s(b,i,j) − r) / ∑ k, exp(s(b,i,k) − r) for the real number r the row maximum evaluates to, and v = x·Wvᵀ. Over
  the reals this is the quotient (∑ j, exp s(b,i,j)·v(b,j,d)) / ∑ j, exp s(b,i,j) whatever r is.
-/
import proofs.«134109_j88158498718071_2_alg».proof.Proof.RefAttnSoftmax

noncomputable section

open scoped BigOperators

namespace Cert.RefAttn

open Idealize.ShloMosaic Idealize.ShloMosaic.ValueIdx Cert.ReferenceIdeal Cert.ReferenceIdeal.Read Cert.Attn

/-- The reference's result at (b, i, d) is the attention head of the real arrays there. -/
theorem v18_coe (x : FVec Ideal S4x4096x1024 .f32) (wq wk wv : FVec Ideal S64x1024 .f32)
    (hx : Finite x) (hq : Finite wq) (hk : Finite wk) (hv : Finite wv) (b : Fin 4) (i : Fin 4096) (d : Fin 64) :
    val_main_v18 (F := Ideal) x wq wk wv (ix3 b i d)
      = ((head (rx x) (rw wq) (rw wk) (rw wv) b i d : ℝ) : EReal) := by
  obtain ⟨r, hr⟩ := v9_coe x wq wk hx hq hk (ix2 b i)
  rw [val_main_v18_apply]
  have hsum : ∑ k : Fin 4096, val_main_v17 (F := Ideal) x wq wk (lidx_main_v18 (ix3 b i d) k)
        * val_main_v2 (F := Ideal) x wv (ridx_main_v18 (ix3 b i d) k)
      = ((∑ k : Fin 4096, (Real.exp (sc x wq wk b i k - r) / ∑ k', Real.exp (sc x wq wk b i k' - r))
          * proj (rx x) (rw wv) b k d : ℝ) : EReal) := by
    refine Cert.LibERealSum.sum_eq_coe Finset.univ _ _ fun k _ => ?_
    rw [lidx_v18, ridx_v18, v17_coe x wq wk hx hq hk b i r hr, v2_eq_v0, v0_coe x wv hx hv, ← EReal.coe_mul]
  rw [hsum]
  unfold head attn
  exact congrArg (fun z : ℝ => (z : EReal))
    (softmax_ref (fun k => sc x wq wk b i k) (fun k => proj (rx x) (rw wv) b k d) r)

/-- The reference's result array is G of the four argument arrays, when these are finite. -/
theorem ref_eq_G (a0 : FVec Ideal S4x4096x1024 .f32) (a1 a2 a3 : FVec Ideal S64x1024 .f32)
    (h0 : Finite a0) (h1 : Finite a1) (h2 : Finite a2) (h3 : Finite a3) :
    val_main_v18 (F := Ideal) a0 a1 a2 a3 = G a0 a1 a2 a3 := by
  funext t
  rw [eq_ix3 t]
  exact v18_coe a0 a1 a2 a3 h0 h1 h2 h3 (t 0) (t 1) (t 2)

end Cert.RefAttn

end
-- ==== Proof.FiniteIn.lean ====
/-
  Finiteness of the four argument arrays from the printed precondition.

  The precondition is the conjunction, over the four arrays, of "every entry x has |x| < +∞", where |x| is
  max x (−x) on the extended reals, the bound is the single-precision pattern of +∞ (which denotes ⊤), each
  "every entry" is a reduction by "and" of the array of comparison bits down to one bit, and the four bits are
  joined by "and". Read backwards: the final bit is 1, so each of the four reductions is 1, so each comparison
  bit is 1, so max x (−x) < ⊤ at each entry; that excludes x = ⊤ (then max = ⊤) and x = ⊥ (then −x = ⊤), and
  what is left is a real number, which is its own real part.
-/
import proofs.«134109_j88158498718071_2_alg».proof.Pre_finite_inputs
import proofs.«134109_j88158498718071_2_alg».proof.Proof.Spec
import Idealize.ShloMosaic.Lib.ReduceAll
import Idealize.ShloMosaic.Lib.IdealHost
import Idealize.ShloMosaic.Lib.ValueIdx

noncomputable section

namespace Cert.FiniteIn

open Idealize.ShloMosaic Idealize.ShloMosaic.ValueIdx
open Cert.Pre_finite_inputs (S4x4096x1024 S64x1024 S_)

/-- The rank-0 shape has exactly one index. -/
instance : Subsingleton S_.Idx := ⟨fun a b => funext fun d => d.elim0⟩

/-- The single-precision pattern with all exponent bits set and no fraction bit denotes +∞. -/
theorem ofBits_inf : Ideal.ofBits .f32 0x7F800000#32 = (⊤ : EReal) := by
  simp [Ideal.ofBits, Ideal.ieee]

/-- An extended real whose absolute value max x (−x) lies below ⊤ is a real number. -/
theorem real_of_abs_lt_top (x : EReal) (h : max x (-x) < ⊤) : x = ((x.toReal : ℝ) : EReal) := by
  induction x using EReal.rec with
  | bot => exact absurd h (by simp)
  | coe r => rw [EReal.toReal_coe]
  | top => exact absurd h (by simp)

/-- The elementwise "and" of two arrays of words, read at an index. -/
theorem andi_apply {s : Shape} {w : Nat} (x y : IVec s w) (i : s.Idx) : andi x y i = IntOp.andi (x i) (y i) := rfl

/-- One entry: if the comparison bit "|a i| < +∞" is 1 then a i is a real number. -/
theorem entry {S : Shape} (hb : S_.BroadcastsInDim S (![] : Fin 0 → Fin S.rank)) (a : FVec Ideal S .f32) (i : S.Idx)
    (h : cmpf .olt (Host.absf a) (broadcastInDim S ![] hb (constant S_ .f32 0x7F800000#32)) i = 1#1) :
    a i = (((a i).toReal : ℝ) : EReal) := by
  rw [cmpf_apply, broadcastInDim_scalar_apply, constant_apply, ofBits_inf] at h
  refine real_of_abs_lt_top (a i) ?_
  have h' : Ideal.cmp .olt (max (a i) (-(a i))) ⊤ = 1#1 := h
  unfold Ideal.cmp at h'
  by_contra hn
  simp [hn] at h'

/-- One array: if the reduction by "and" of its comparison bits is 1 then every entry is a real number. -/
theorem array {S : Shape} {axes : List (Fin S.rank)} (hb : S_.BroadcastsInDim S (![] : Fin 0 → Fin S.rank))
    (hr : S.ReducesTo axes S_) (hu : 0 < S_.numel) (a : FVec Ideal S .f32)
    (h : Host.reduce IntOp.andi
        (cmpf .olt (Host.absf a) (broadcastInDim S ![] hb (constant S_ .f32 0x7F800000#32)))
        (constantI S_ 1 1#1) hr hu ix0 = 1#1) :
    Cert.Attn.Finite a := fun i =>
  entry hb a i (Host.reduce_andi_all _ _ hr hu ix0 h i)

/-- The precondition makes all four argument arrays finite. -/
theorem finite_of_fn [Cert.Pre_finite_inputs.Facts] (a0 : FVec Ideal S4x4096x1024 .f32)
    (a1 a2 a3 : FVec Ideal S64x1024 .f32)
    (h : Cert.Pre_finite_inputs.fn (F := Ideal) a0 a1 a2 a3 = fun _ => 1#1) :
    Cert.Attn.Finite a0 ∧ Cert.Attn.Finite a1 ∧ Cert.Attn.Finite a2 ∧ Cert.Attn.Finite a3 := by
  have h0 := congrFun h ix0
  dsimp only [Cert.Pre_finite_inputs.fn, Cert.Pre_finite_inputs.fn_part1] at h0
  rw [andi_apply] at h0
  obtain ⟨h012, h3⟩ := IntOp.andi_eq_one.1 h0
  rw [andi_apply] at h012
  obtain ⟨h01, h2⟩ := IntOp.andi_eq_one.1 h012
  rw [andi_apply] at h01
  obtain ⟨h0', h1⟩ := IntOp.andi_eq_one.1 h01
  exact ⟨array _ _ _ a0 h0', array _ _ _ a1 h1, array _ _ _ a2 h2, array _ _ _ a3 h3⟩

end Cert.FiniteIn

end
-- ==== Proof.FiniteInPre.lean ====
/-
  Finiteness of the kernel's four argument buffers from the certificate's precondition.

  The precondition of the idealized kernel says, on every device, that the printed predicate of the four argument
  buffers is the constant 1; the predicate being 1 makes every entry of each array a real number, so the four
  buffers of each device are finite arrays.
-/
import proofs.«134109_j88158498718071_2_alg».proof.Defs
import proofs.«134109_j88158498718071_2_alg».proof.Proof.FiniteIn

noncomputable section

namespace Cert.FiniteIn

open Idealize.ShloMosaic Idealize.SL.Sem

/-- Under the precondition, on every device the input and the three weights are finite arrays. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Attn.Finite (S := Cert.Attn.SX) (m ((c.tc : Thread Cert.KernelIdeal.nD Cert.KernelIdeal.τ).loc Cert.KernelIdeal.main_arg0))
    ∧ Cert.Attn.Finite (S := Cert.Attn.SW) (m ((c.tc : Thread Cert.KernelIdeal.nD Cert.KernelIdeal.τ).loc Cert.KernelIdeal.main_arg1))
    ∧ Cert.Attn.Finite (S := Cert.Attn.SW) (m ((c.tc : Thread Cert.KernelIdeal.nD Cert.KernelIdeal.τ).loc Cert.KernelIdeal.main_arg2))
    ∧ Cert.Attn.Finite (S := Cert.Attn.SW) (m ((c.tc : Thread Cert.KernelIdeal.nD Cert.KernelIdeal.τ).loc Cert.KernelIdeal.main_arg3)) :=
  finite_of_fn _ _ _ _ (h c)

end Cert.FiniteIn

end
-- ==== Proof.lean ====
/-
  Single-head attention: a kernel in two launches against its plain reference, equal over the extended reals
  for finite inputs.

  The kernel first projects x to q, k, v (three block matrix products over row blocks of x, the factor 1/8 — the
  reciprocal square root of the head dimension 64 — folded into the query weights beforehand), then runs the
  blockwise running softmax: for each query tile it walks over the key/value blocks keeping a running maximum m,
  a running normaliser l and a running weighted sum acc, rescaling the latter two by exp(m − m') whenever the maximum
  moves, and divides acc by l after the last block. The reference computes the scores (q·kᵀ)/√64, the softmax in
  the row-maximum form, and the weighted average of v's rows.
  Over the reals both are (∑ j, exp s(i,j)·v(j,d)) / (∑ j, exp s(i,j)) with s = (q·kᵀ)/8: the quotient does not
  depend on the shift subtracted inside the exponentials, so neither the reference's row maximum nor the kernel's
  running maximum matters, only that they are finite — which is where the finiteness of the inputs is used (an
  infinite score would make the differences and products of the rescaling meaningless).
  The frames: both programs run to the end, nothing faulting, the arguments unchanged — the kernel's two launches
  as two regions among two stretches of host operations, the second region carrying its three accumulators from
  grid point to grid point in its invariant; the reference is host operations only.
-/
import proofs.«134109_j88158498718071_2_alg».proof.Defs
import proofs.«134109_j88158498718071_2_alg».proof.Proof.Gen.Kernel
import proofs.«134109_j88158498718071_2_alg».proof.Proof.Gen.KernelIdeal
import proofs.«134109_j88158498718071_2_alg».proof.Proof.Gen.ReferenceIdeal
import proofs.«134109_j88158498718071_2_alg».proof.Proof.Gen.ReferenceIdeal.Run
import proofs.«134109_j88158498718071_2_alg».proof.Proof.Gen.ReferenceIdeal.Read
import proofs.«134109_j88158498718071_2_alg».proof.Proof.Gen.Pre_finite_inputs
import proofs.«134109_j88158498718071_2_alg».proof.Proof.AttnRun
import proofs.«134109_j88158498718071_2_alg».proof.Proof.AttnRunK
import proofs.«134109_j88158498718071_2_alg».proof.Proof.KernelValue
import proofs.«134109_j88158498718071_2_alg».proof.Proof.RefAttn
import proofs.«134109_j88158498718071_2_alg».proof.Proof.FiniteInPre
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.Hand.frame m ρ

/-- So does the idealized kernel. -/
theorem frame_kernelIdeal [Cert.KernelIdeal.Facts] [Cert.Pre_finite_inputs.Facts] : Cert.frame_KernelIdeal :=
  fun m ρ _ => Cert.KernelIdeal.Hand.frame m ρ

/-- The reference is host operations only: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the (finite) arguments both idealized programs end with the attention head of the
    arguments in their result buffer: the kernel's last boundary contents at the result (the running softmax summed
    up over the key blocks), the reference's composed term (the softmax in the row-maximum form). -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine Cert.KernelIdeal.Hand.run_all m ρ fun s h c => ?_
    obtain ⟨hx, hq, hk, hv⟩ := Cert.FiniteIn.finite_of_pre m hpre c
    exact ⟨(h c _ (Cert.KernelIdeal.Hand.mem_uc Cert.KernelIdeal.main_v10 (by decide))).trans (Cert.KernelIdeal.Hand.result_eq_G m ρ c hx hq hk hv),
      (h c _ (Cert.KernelIdeal.Hand.mem_uc Cert.KernelIdeal.main_arg0 (by decide))).trans (Cert.KernelIdeal.Hand.L4_main_arg0 m ρ c),
      (h c _ (Cert.KernelIdeal.Hand.mem_uc Cert.KernelIdeal.main_arg1 (by decide))).trans (Cert.KernelIdeal.Hand.L4_main_arg1 m ρ c),
      (h c _ (Cert.KernelIdeal.Hand.mem_uc Cert.KernelIdeal.main_arg2 (by decide))).trans (Cert.KernelIdeal.Hand.L4_main_arg2 m ρ c),
      (h c _ (Cert.KernelIdeal.Hand.mem_uc Cert.KernelIdeal.main_arg3 (by decide))).trans (Cert.KernelIdeal.Hand.L4_main_arg3 m ρ c)⟩
  · refine (θ_run Cert.ReferenceIdeal.defs _ _).mono (fun _ h c => ⟨?_, (h c).2⟩)
      (Cert.ReferenceIdeal.Value.run (F := Ideal) m' ρ')
    obtain ⟨hx, hq, hk, hv⟩ := Cert.FiniteIn.finite_of_pre m hpre c
    rw [(h c).1, (hagree c).1, (hagree c).2.1, (hagree c).2.2.1, (hagree c).2.2.2]
    exact Cert.RefAttn.ref_eq_G _ _ _ _ hx hq hk hv

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
